-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v46)) (v4 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768x128 : Shape := ⟨2, ![32768, 128]⟩
abbrev S2048x128 : Shape := ⟨2, ![2048, 128]⟩
abbrev S128 : Shape := ⟨1, ![128]⟩
abbrev S2048x1 : Shape := ⟨2, ![2048, 1]⟩
abbrev S1 : Shape := ⟨1, ![1]⟩
abbrev S128x128 : Shape := ⟨2, ![128, 128]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128x128 .f32) (main_arg15 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  main_v78

def fn_part3 {F : FTy → Type} [FloatOps F] (main_arg11 : FVec F S128 .f32) (main_arg12 : FVec F S2048x1 .f32) (main_arg13 : FVec F S1 .f32) (main_arg14 : FVec F S128x128 .f32) (main_arg15 : FVec F S128x128 .f32) (main_v48 : IVec S_ 1) (main_v49 : FVec F S2048x128 .f32) (main_v50 : FVec F S2048x128 .f32) : IVec S_ 1 :=
  let main_v51 : IVec S2048x128 1 := cmpf .olt main_v49 main_v50
  let main_c_19 : IVec S_ 1 := constantI S_ 1 1#1
  let main_v52 : IVec S_ 1 := (fun x v => Host.reduce IntOp.andi x v reducesTo_S2048x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S2048x1 .f32 := Host.absf main_arg12
  let main_cst_22 : FVec F S_ .f32 := constant S_ .f32 0x7F800000#32
  let main_v60 : FVec F S2048x1 .f32 := broadcastInDim S2048x1 ![] bcast_S_S2048x1 main_cst_22
  let main_v61 : IVec S2048x1 1 := cmpf .olt main_v59 main_v60
  let main_c_23 : IVec S_ 1 := constantI S_ 1 1#1
  let main_v62 : IVec S_ 1 := (fun x v => Host.reduce IntOp.andi x v reducesTo_S2048x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_v63 main_v67

def fn_part2 {F : FTy → Type} [FloatOps F] (main_arg7 : FVec F S128 .f32) (main_arg8 : FVec F S2048x1 .f32) (main_arg9 : FVec F S1 .f32) (main_arg10 : FVec F S2048x128 .f32) (main_arg11 : FVec F S128 .f32) (main_arg12 : FVec F S2048x1 .f32) (main_arg13 : FVec F S1 .f32) (main_arg14 : FVec F S128x128 .f32) (main_arg15 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2048x1 .f32 := Host.absf main_arg8
  let main_cst_14 : FVec F S_ .f32 := constant S_ .f32 0x7F800000#32
  let main_v40 : FVec F S2048x1 .f32 := broadcastInDim S2048x1 ![] bcast_S_S2048x1 main_cst_14
  let main_v41 : IVec S2048x1 1 := cmpf .olt main_v39 main_v40
  let main_c_15 : IVec S_ 1 := constantI S_ 1 1#1
  let main_v42 : IVec S_ 1 := (fun x v => Host.reduce IntOp.andi x v reducesTo_S2048x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2048x128 .f32 := Host.absf main_arg10
  let main_cst_18 : FVec F S_ .f32 := constant S_ .f32 0x7F800000#32
  let main_v50 : FVec F S2048x128 .f32 := broadcastInDim S2048x128 ![] bcast_S_S2048x128 main_cst_18
  fn_part3 (F := F) main_arg11 main_arg12 main_arg13 main_arg14 main_arg15 main_v48 main_v49 main_v50

def fn_part1 {F : FTy → Type} [FloatOps F] (main_arg4 : FVec F S2048x128 .f32) (main_arg5 : FVec F S128 .f32) (main_arg6 : FVec F S2048x128 .f32) (main_arg7 : FVec F S128 .f32) (main_arg8 : FVec F S2048x1 .f32) (main_arg9 : FVec F S1 .f32) (main_arg10 : FVec F S2048x128 .f32) (main_arg11 : FVec F S128 .f32) (main_arg12 : FVec F S2048x1 .f32) (main_arg13 : FVec F S1 .f32) (main_arg14 : FVec F S128x128 .f32) (main_arg15 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2048x128 .f32 := Host.absf main_arg6
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x2048 .f32) (main_arg1 : FVec F S32768x128 .f32) (main_arg2 : FVec F S2048x128 .f32) (main_arg3 : FVec F S128 .f32) (main_arg4 : FVec F S2048x128 .f32) (main_arg5 : FVec F S128 .f32) (main_arg6 : FVec F S2048x128 .f32) (main_arg7 : FVec F S128 .f32) (main_arg8 : FVec F S2048x1 .f32) (main_arg9 : FVec F S1 .f32) (main_arg10 : FVec F S2048x128 .f32) (main_arg11 : FVec F S128 .f32) (main_arg12 : FVec F S2048x1 .f32) (main_arg13 : FVec F S1 .f32) (main_arg14 : FVec F S128x128 .f32) (main_arg15 : FVec F S128x128 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x2048 : Shape := ⟨2, ![32768, 2048]⟩
abbrev S32768x128 : Shape := ⟨2, ![32768, 128]⟩
abbrev S2048x128 : Shape := ⟨2, ![2048, 128]⟩
abbrev S128 : Shape := ⟨1, ![128]⟩
abbrev S2048x1 : Shape := ⟨2, ![2048, 1]⟩
abbrev S1 : Shape := ⟨1, ![1]⟩
abbrev S128x128 : Shape := ⟨2, ![128, 128]⟩
abbrev S2048x512 : Shape := ⟨2, ![2048, 512]⟩
abbrev S512 : Shape := ⟨1, ![512]⟩
abbrev S32768x1 : Shape := ⟨2, ![32768, 1]⟩
abbrev S2x1x128 : Shape := ⟨3, ![2, 1, 128]⟩
abbrev S2x1x1 : Shape := ⟨3, ![2, 1, 1]⟩
abbrev S1024x2048 : Shape := ⟨2, ![1024, 2048]⟩
abbrev S1024x128 : Shape := ⟨2, ![1024, 128]⟩
abbrev S1024x1 : Shape := ⟨2, ![1024, 1]⟩
abbrev S1x1x128 : Shape := ⟨3, ![1, 1, 128]⟩
abbrev S1x1x1 : Shape := ⟨3, ![1, 1, 1]⟩
abbrev S1x128 : Shape := ⟨2, ![1, 128]⟩
abbrev S1x1 : Shape := ⟨2, ![1, 1]⟩
abbrev S1024x512 : Shape := ⟨2, ![1024, 512]⟩
abbrev S1x512 : Shape := ⟨2, ![1, 512]⟩
abbrev S1024 : Shape := ⟨1, ![1024]⟩
abbrev S32768 : Shape := ⟨1, ![32768]⟩
abbrev S_ : Shape := ⟨0, ![]⟩
abbrev S128x1 : Shape := ⟨2, ![128, 1]⟩

abbrev nBuf : Space → Nat
  | .hbm => 89
  | .vmem => 32
  | .smem => 0
  | _ => 0

abbrev bufTy : (tb : Table) → Fin (tcTables nBuf tb) → BufTy
  | .hbm, ⟨0, _⟩ => ⟨S32768x2048, .f32⟩
  | .hbm, ⟨1, _⟩ => ⟨S32768x128, .f32⟩
  | .hbm, ⟨2, _⟩ => ⟨S2048x128, .f32⟩
  | .hbm, ⟨3, _⟩ => ⟨S128, .f32⟩
  | .hbm, ⟨4, _⟩ => ⟨S2048x128, .f32⟩
  | .hbm, ⟨5, _⟩ => ⟨S128, .f32⟩
  | .hbm, ⟨6, _⟩ => ⟨S2048x128, .f32⟩
  | .hbm, ⟨7, _⟩ => ⟨S128, .f32⟩
  | .hbm, ⟨8, _⟩ => ⟨S2048x1, .f32⟩
  | .hbm, ⟨9, _⟩ => ⟨S1, .f32⟩
  | .hbm, ⟨10, _⟩ => ⟨S2048x128, .f32⟩
  | .hbm, ⟨11, _⟩ => ⟨S128, .f32⟩
  | .hbm, ⟨12, _⟩ => ⟨S2048x1, .f32⟩
  | .hbm, ⟨13, _⟩ => ⟨S1, .f32⟩
  | .hbm, ⟨14, _⟩ => ⟨S128x128, .f32⟩
  | .hbm, ⟨15, _⟩ => ⟨S128x128, .f32⟩
  | .hbm, ⟨16, _⟩ => ⟨S2048x512, .f32⟩
  | .hbm, ⟨17, _⟩ => ⟨S2048x512, .bf16⟩
  | .hbm, ⟨18, _⟩ => ⟨S512, .f32⟩
  | .hbm, ⟨19, _⟩ => ⟨S32768x1, .f32⟩
  | .hbm, ⟨20, _⟩ => ⟨S32768x128, .f32⟩
  | .hbm, ⟨21, _⟩ => ⟨S32768x128, .f32⟩
  | .hbm, ⟨22, _⟩ => ⟨S2x1x128, .f32⟩
  | .hbm, ⟨23, _⟩ => ⟨S2x1x128, .f32⟩
  | .hbm, ⟨24, _⟩ => ⟨S2x1x128, .f32⟩
  | .hbm, ⟨25, _⟩ => ⟨S2x1x1, .f32⟩
  | .hbm, ⟨26, _⟩ => ⟨S2x1x1, .f32⟩
  | .hbm, ⟨27, _⟩ => ⟨S32768, .f32⟩
  | .hbm, ⟨28, _⟩ => ⟨S_, .f32⟩
  | .hbm, ⟨29, _⟩ => ⟨S1x128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S1x128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S1x128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128x1, .f32⟩
  | .hbm, ⟨72, _⟩ => ⟨S1x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S_, .f32⟩
  | .hbm, ⟨77, _⟩ => ⟨S128x128, .f32⟩
  | .hbm, ⟨78, _⟩ => ⟨S128x128, .f32⟩
  | .hbm, ⟨79, _⟩ => ⟨S_, .f32⟩
  | .hbm, ⟨80, _⟩ => ⟨S128x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S_, .f32⟩
  | .hbm, ⟨86, _⟩ => ⟨S128x128, .f32⟩
  | .hbm, ⟨87, _⟩ => ⟨S128x128, .f32⟩
  | .hbm, ⟨88, _⟩ => ⟨S128x128, .f32⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S2048x512, .bf16⟩
  | .local _ .vmem, ⟨5, _⟩ => ⟨S512, .f32⟩
  | .local _ .vmem, ⟨6, _⟩ => ⟨S2048x1, .f32⟩
  | .local _ .vmem, ⟨7, _⟩ => ⟨S1, .f32⟩
  | .local _ .vmem, ⟨8, _⟩ => ⟨S2048x1, .f32⟩
  | .local _ .vmem, ⟨9, _⟩ => ⟨S1, .f32⟩
  | .local _ .vmem, ⟨10, _⟩ => ⟨S128x128, .f32⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S1x1x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x1, .f32⟩
  | .local _ .vmem, ⟨31, _⟩ => ⟨S1x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v3_5 : Ref sig .tc := ⟨.hbm, 24, rfl⟩
abbrev main_v3_6 : Ref sig .tc := ⟨.hbm, 25, rfl⟩
abbrev main_v3_7 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_cst_4 : Ref sig .tc := ⟨.hbm, 43, rfl⟩
abbrev main_v15 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_cst_6 : Ref sig .tc := ⟨.hbm, 48, rfl⟩
abbrev main_v18 : Ref sig .tc := ⟨.hbm, 49, rfl⟩
abbrev main_cst_7 : Ref sig .tc := ⟨.hbm, 50, rfl⟩
abbrev main_v19 : Ref sig .tc := ⟨.hbm, 51, rfl⟩
abbrev main_cst_8 : Ref sig .tc := ⟨.hbm, 52, rfl⟩
abbrev main_v20 : Ref sig .tc := ⟨.hbm, 53, rfl⟩
abbrev main_cst_9 : Ref sig .tc := ⟨.hbm, 54, rfl⟩
abbrev main_v21 : Ref sig .tc := ⟨.hbm, 55, rfl⟩
abbrev main_v22 : Ref sig .tc := ⟨.hbm, 56, rfl⟩
abbrev main_cst_10 : Ref sig .tc := ⟨.hbm, 57, rfl⟩
abbrev main_v23 : Ref sig .tc := ⟨.hbm, 58, rfl⟩
abbrev main_cst_11 : Ref sig .tc := ⟨.hbm, 59, rfl⟩
abbrev main_v24 : Ref sig .tc := ⟨.hbm, 60, rfl⟩
abbrev main_cst_12 : Ref sig .tc := ⟨.hbm, 61, rfl⟩
abbrev main_v25 : Ref sig .tc := ⟨.hbm, 62, rfl⟩
abbrev main_cst_13 : Ref sig .tc := ⟨.hbm, 63, rfl⟩
abbrev main_v26 : Ref sig .tc := ⟨.hbm, 64, rfl⟩
abbrev main_v27 : Ref sig .tc := ⟨.hbm, 65, rfl⟩
abbrev main_cst_14 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_15 : Ref sig .tc := ⟨.hbm, 76, rfl⟩
abbrev main_v37 : Ref sig .tc := ⟨.hbm, 77, rfl⟩
abbrev main_v38 : Ref sig .tc := ⟨.hbm, 78, rfl⟩
abbrev main_cst_16 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_17 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  concatenates_S2048x128_S2048x128_S2048x128_S2048x128_S2048x512_d1 : Shape.Concatenates [S2048x128, S2048x128, S2048x128, S2048x128] S2048x512 1
  bitsLt_bf16_f32 : FTy.bits .bf16 < FTy.bits .f32
  concatenates_S128_S128_S128_S128_S512_d0 : Shape.Concatenates [S128, S128, S128, S128] S512 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  reduces_S1024x128_S1024 : S1024x128.Reduces [1] S1024
  shapeCasts_S1024_S1024x1 : S1024.ShapeCasts S1024x1
  broadcasts_S1024x1_S1024x128 : S1024x1.Broadcasts S1024x128
  inb_S2048x1_S2048x1_0_0 : ∀ a, (![0, 0] : Fin 2 → Nat) a + S2048x1.size a ≤ S2048x1.size a
  h_S2048x1 : 0 < S2048x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  reduces_S1024x128_S128 : S1024x128.Reduces [0] S128
  shapeCasts_S128_S1x128 : S128.ShapeCasts S1x128
  reduces_S1024x1_S1 : S1024x1.Reduces [0] S1
  inb_S1024x1_S1024x1_0_0 : ∀ a, (![0, 0] : Fin 2 → Nat) a + S1024x1.size a ≤ S1024x1.size a
  h_S1024x1 : 0 < S1024x1.numel
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S32768x1_S32768 : S32768x1.ShapeCasts S32768
  reducesTo_S2x1x128_S1x128_d0 : S2x1x128.ReducesTo [0] S1x128
  h_S_ : 0 < S_.numel
  shapeCasts_S1x128_S128 : S1x128.ShapeCasts S128
  bcast_S_S128 : S_.BroadcastsInDim S128 (![] : Fin 0 → Fin S128.rank)
  reducesTo_S2x1x1_S_d0_1_2 : S2x1x1.ReducesTo [0, 1, 2] S_
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S1024x2048_S2048x512_S1024x512_1_0_0_1_n_n_wf : DotDims.WF S1024x2048 S2048x512 S1024x512 [1] [0] [0] [1] [] []
  dot_S1024x2048_S2048x1_S1024x1_1_0_0_1_n_n_wf : DotDims.WF S1024x2048 S2048x1 S1024x1 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S32768x128.size a
  hwx0_1 : ∀ i : grid0.Coords, EltTy.bits .f32 = 32 ∨ (Rect.block (s := S32768x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S2048x1.size a
  hwx0_4 : ∀ i : grid0.Coords, EltTy.bits .f32 = 32 ∨ (Rect.block (s := S2048x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S2048x1.size a
  hwx0_6 : ∀ i : grid0.Coords, EltTy.bits .f32 = 32 ∨ (Rect.block (s := S2048x1) S2048x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S32768x1.size a
  hwx0_9 : ∀ i : grid0.Coords, EltTy.bits .f32 = 32 ∨ (Rect.block (s := S32768x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S32768x128.size a
  hwx0_10 : ∀ i : grid0.Coords, EltTy.bits .f32 = 32 ∨ (Rect.block (s := S32768x128) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S32768x128.size a
  hwx0_11 : ∀ i : grid0.Coords, EltTy.bits .f32 = 32 ∨ (Rect.block (s := S32768x128) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x128.size a ≤ S2x1x128.size a
  hwx0_12 : ∀ i : grid0.Coords, EltTy.bits .f32 = 32 ∨ (Rect.block (s := S2x1x128) S1x1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x128.size a ≤ S2x1x128.size a
  hwx0_13 : ∀ i : grid0.Coords, EltTy.bits .f32 = 32 ∨ (Rect.block (s := S2x1x128) S1x1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x128.size a ≤ S2x1x128.size a
  hwx0_14 : ∀ i : grid0.Coords, EltTy.bits .f32 = 32 ∨ (Rect.block (s := S2x1x128) S1x1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x1.size a ≤ S2x1x1.size a
  hwx0_15 : ∀ i : grid0.Coords, EltTy.bits .f32 = 32 ∨ (Rect.block (s := S2x1x1) S1x1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1.size a ≤ S2x1x1.size a
  hwx0_16 : ∀ i : grid0.Coords, EltTy.bits .f32 = 32 ∨ (Rect.block (s := S2x1x1) S1x1x1.size (cc0_transform_16 i) (hinb0_16 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S2048x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S2048x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_3) S1x1x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3_4) S1x1x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_5) S1x1x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v3_6) S1x1x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v3_7) S1x1x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768x128 : Shape := ⟨2, ![32768, 128]⟩
abbrev S2048x128 : Shape := ⟨2, ![2048, 128]⟩
abbrev S128 : Shape := ⟨1, ![128]⟩
abbrev S2048x1 : Shape := ⟨2, ![2048, 1]⟩
abbrev S1 : Shape := ⟨1, ![1]⟩
abbrev S128x128 : Shape := ⟨2, ![128, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x1 : Shape := ⟨2, ![1, 1]⟩
abbrev S128x1 : Shape := ⟨2, ![128, 1]⟩

abbrev nBuf : Space → Nat
  | .hbm => 177
  | .vmem => 0
  | .smem => 0
  | _ => 0

abbrev hbmTy0_0 (i : Nat) : BufTy := match i % 128 with
  | 0 => ⟨S32768x2048, .f32⟩
  | 1 => ⟨S32768x128, .f32⟩
  | 2 => ⟨S2048x128, .f32⟩
  | 3 => ⟨S128, .f32⟩
  | 4 => ⟨S2048x128, .f32⟩
  | 5 => ⟨S128, .f32⟩
  | 6 => ⟨S2048x128, .f32⟩
  | 7 => ⟨S128, .f32⟩
  | 8 => ⟨S2048x1, .f32⟩
  | 9 => ⟨S1, .f32⟩
  | 10 => ⟨S2048x128, .f32⟩
  | 11 => ⟨S128, .f32⟩
  | 12 => ⟨S2048x1, .f32⟩
  | 13 => ⟨S1, .f32⟩
  | 14 => ⟨S128x128, .f32⟩
  | 15 => ⟨S128x128, .f32⟩
  | 16 => ⟨S32768x128, .f32⟩
  | 17 => ⟨S1x128, .f32⟩
  | 18 => ⟨S32768x128, .f32⟩
  | 19 => ⟨S32768x128, .f32⟩
  | 20 => ⟨S32768x128, .f32⟩
  | 21 => ⟨S_, .f32⟩
  | 22 => ⟨S32768, .f32⟩
  | 23 => ⟨S32768x1, .f32⟩
  | 24 => ⟨S32768x1, .f32⟩
  | 25 => ⟨S_, .f32⟩
  | 26 => ⟨S32768x1, .f32⟩
  | 27 => ⟨S32768x1, .f32⟩
  | 28 => ⟨S32768x128, .f32⟩
  | 29 => ⟨S32768x128, .f32⟩
  | 30 => ⟨S32768x128, .f32⟩
  | 31 => ⟨S32768x128, .f32⟩
  | 32 => ⟨S1x128, .f32⟩
  | 33 => ⟨S32768x128, .f32⟩
  | 34 => ⟨S32768x128, .f32⟩
  | 35 => ⟨S_, .f32⟩
  | 36 => ⟨S32768x128, .f32⟩
  | 37 => ⟨S32768x128, .f32⟩
  | 38 => ⟨S32768x128, .f32⟩
  | 39 => ⟨S32768x128, .f32⟩
  | 40 => ⟨S32768x128, .i1⟩
  | 41 => ⟨S32768x128, .f32⟩
  | 42 => ⟨S32768x128, .f32⟩
  | 43 => ⟨S32768x128, .f32⟩
  | 44 => ⟨S32768x128, .f32⟩
  | 45 => ⟨S32768x128, .f32⟩
  | 46 => ⟨S32768x128, .f32⟩
  | 47 => ⟨S32768x128, .f32⟩
  | 48 => ⟨S32768x128, .f32⟩
  | 49 => ⟨S_, .f32⟩
  | 50 => ⟨S32768x128, .f32⟩
  | 51 => ⟨S32768x128, .f32⟩
  | 52 => ⟨S32768x128, .f32⟩
  | 53 => ⟨S32768x128, .f32⟩
  | 54 => ⟨S32768x128, .f32⟩
  | 55 => ⟨S32768x128, .f32⟩
  | 56 => ⟨S32768x128, .f32⟩
  | 57 => ⟨S_, .f32⟩
  | 58 => ⟨S32768, .f32⟩
  | 59 => ⟨S_, .f32⟩
  | 60 => ⟨S32768, .f32⟩
  | 61 => ⟨S32768, .f32⟩
  | 62 => ⟨S32768x128, .f32⟩
  | 63 => ⟨S1x128, .f32⟩
  | 64 => ⟨S32768x128, .f32⟩
  | 65 => ⟨S32768x128, .f32⟩
  | 66 => ⟨S32768x128, .f32⟩
  | 67 => ⟨S_, .f32⟩
  | 68 => ⟨S32768, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x128, .f32⟩
  | 75 => ⟨S32768x128, .f32⟩
  | 76 => ⟨S32768x128, .f32⟩
  | 77 => ⟨S1x128, .f32⟩
  | 78 => ⟨S32768x128, .f32⟩
  | 79 => ⟨S32768x128, .f32⟩
  | 80 => ⟨S32768x1, .f32⟩
  | 81 => ⟨S1x1, .f32⟩
  | 82 => ⟨S32768x1, .f32⟩
  | 83 => ⟨S32768x1, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S_, .f32⟩
  | 90 => ⟨S32768x1, .f32⟩
  | 91 => ⟨S32768x1, .f32⟩
  | 92 => ⟨S32768x1, .f32⟩
  | 93 => ⟨S1x1, .f32⟩
  | 94 => ⟨S32768x1, .f32⟩
  | 95 => ⟨S32768x1, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S_, .f32⟩
  | 102 => ⟨S32768x1, .f32⟩
  | 103 => ⟨S32768x1, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x128, .f32⟩
  | 111 => ⟨S32768x128, .f32⟩
  | 112 => ⟨S_, .f32⟩
  | 113 => ⟨S32768x128, .f32⟩
  | 114 => ⟨S32768x128, .f32⟩
  | 115 => ⟨S32768x128, .f32⟩
  | 116 => ⟨S_, .f32⟩
  | 117 => ⟨S32768x128, .f32⟩
  | 118 => ⟨S32768x128, .f32⟩
  | 119 => ⟨S_, .f32⟩
  | 120 => ⟨S128, .f32⟩
  | 121 => ⟨S_, .f32⟩
  | 122 => ⟨S128, .f32⟩
  | 123 => ⟨S128, .f32⟩
  | 124 => ⟨S_, .f32⟩
  | 125 => ⟨S128, .f32⟩
  | 126 => ⟨S_, .f32⟩
  | 127 => ⟨S128, .f32⟩
  | _ => ⟨S32768x2048, .f32⟩

abbrev hbmTy0_1 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .f32⟩
  | 39 => ⟨S_, .f32⟩
  | 40 => ⟨S128x128, .f32⟩
  | 41 => ⟨S128x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S128x128, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v14 : Ref sig .tc := ⟨.hbm, 48, rfl⟩
abbrev main_cst_0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_cst_2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v29 : Ref sig .tc := ⟨.hbm, 70, rfl⟩
abbrev main_cst_3 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_4 : Ref sig .tc := ⟨.hbm, 86, rfl⟩
abbrev main_v44 : Ref sig .tc := ⟨.hbm, 87, rfl⟩
abbrev main_v45 : Ref sig .tc := ⟨.hbm, 88, rfl⟩
abbrev main_cst_5 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_6 : Ref sig .tc := ⟨.hbm, 98, rfl⟩
abbrev main_v54 : Ref sig .tc := ⟨.hbm, 99, rfl⟩
abbrev main_v55 : Ref sig .tc := ⟨.hbm, 100, rfl⟩
abbrev main_cst_7 : Ref sig .tc := ⟨.hbm, 101, rfl⟩
abbrev main_v56 : Ref sig .tc := ⟨.hbm, 102, rfl⟩
abbrev main_v57 : Ref sig .tc := ⟨.hbm, 103, rfl⟩
abbrev main_cst_8 : Ref sig .tc := ⟨.hbm, 104, rfl⟩
abbrev main_v58 : Ref sig .tc := ⟨.hbm, 105, rfl⟩
abbrev main_v59 : Ref sig .tc := ⟨.hbm, 106, rfl⟩
abbrev main_cst_9 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_11 : Ref sig .tc := ⟨.hbm, 116, rfl⟩
abbrev main_v67 : Ref sig .tc := ⟨.hbm, 117, rfl⟩
abbrev main_v68 : Ref sig .tc := ⟨.hbm, 118, rfl⟩
abbrev main_cst_12 : Ref sig .tc := ⟨.hbm, 119, rfl⟩
abbrev main_v69 : Ref sig .tc := ⟨.hbm, 120, rfl⟩
abbrev main_cst_13 : Ref sig .tc := ⟨.hbm, 121, rfl⟩
abbrev main_v70 : Ref sig .tc := ⟨.hbm, 122, rfl⟩
abbrev main_v71 : Ref sig .tc := ⟨.hbm, 123, rfl⟩
abbrev main_cst_14 : Ref sig .tc := ⟨.hbm, 124, rfl⟩
abbrev main_v72 : Ref sig .tc := ⟨.hbm, 125, rfl⟩
abbrev main_cst_15 : Ref sig .tc := ⟨.hbm, 126, rfl⟩
abbrev main_v73 : Ref sig .tc := ⟨.hbm, 127, rfl⟩
abbrev main_v74 : Ref sig .tc := ⟨.hbm, 128, rfl⟩
abbrev main_cst_16 : Ref sig .tc := ⟨.hbm, 129, rfl⟩
abbrev main_v75 : Ref sig .tc := ⟨.hbm, 130, rfl⟩
abbrev main_cst_17 : Ref sig .tc := ⟨.hbm, 131, rfl⟩
abbrev main_v76 : Ref sig .tc := ⟨.hbm, 132, rfl⟩
abbrev main_v77 : Ref sig .tc := ⟨.hbm, 133, rfl⟩
abbrev main_cst_18 : Ref sig .tc := ⟨.hbm, 134, rfl⟩
abbrev main_v78 : Ref sig .tc := ⟨.hbm, 135, rfl⟩
abbrev main_cst_19 : Ref sig .tc := ⟨.hbm, 136, rfl⟩
abbrev main_v79 : Ref sig .tc := ⟨.hbm, 137, rfl⟩
abbrev main_cst_20 : Ref sig .tc := ⟨.hbm, 138, rfl⟩
abbrev main_v80 : Ref sig .tc := ⟨.hbm, 139, rfl⟩
abbrev main_cst_21 : Ref sig .tc := ⟨.hbm, 140, rfl⟩
abbrev main_v81 : Ref sig .tc := ⟨.hbm, 141, rfl⟩
abbrev main_cst_22 : Ref sig .tc := ⟨.hbm, 142, rfl⟩
abbrev main_v82 : Ref sig .tc := ⟨.hbm, 143, rfl⟩
abbrev main_v83 : Ref sig .tc := ⟨.hbm, 144, rfl⟩
abbrev main_cst_23 : Ref sig .tc := ⟨.hbm, 145, rfl⟩
abbrev main_v84 : Ref sig .tc := ⟨.hbm, 146, rfl⟩
abbrev main_cst_24 : Ref sig .tc := ⟨.hbm, 147, rfl⟩
abbrev main_v85 : Ref sig .tc := ⟨.hbm, 148, rfl⟩
abbrev main_cst_25 : Ref sig .tc := ⟨.hbm, 149, rfl⟩
abbrev main_v86 : Ref sig .tc := ⟨.hbm, 150, rfl⟩
abbrev main_cst_26 : Ref sig .tc := ⟨.hbm, 151, rfl⟩
abbrev main_v87 : Ref sig .tc := ⟨.hbm, 152, rfl⟩
abbrev main_v88 : Ref sig .tc := ⟨.hbm, 153, rfl⟩
abbrev main_cst_27 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_28 : Ref sig .tc := ⟨.hbm, 164, rfl⟩
abbrev main_v98 : Ref sig .tc := ⟨.hbm, 165, rfl⟩
abbrev main_v99 : Ref sig .tc := ⟨.hbm, 166, rfl⟩
abbrev main_cst_29 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_30 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  bcast_S_S32768x128 : S_.BroadcastsInDim S32768x128 (![] : Fin 0 → Fin S32768x128.rank)
  bcast_S_S32768 : S_.BroadcastsInDim S32768 (![] : Fin 0 → Fin S32768.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x128_S128_d0 : S32768x128.ReducesTo [0] S128
  bcast_S_S128 : S_.BroadcastsInDim S128 (![] : Fin 0 → Fin S128.rank)
  reducesTo_S32768x1_S_d0_1 : S32768x1.ReducesTo [0, 1] S_
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S32768x2048_S2048x128_S32768x128_1_0_0_1_n_n_wf : DotDims.WF S32768x2048 S2048x128 S32768x128 [1] [0] [0] [1] [] []
  dot_S32768x128_S128x128_S32768x128_1_0_0_1_n_n_wf : DotDims.WF S32768x128 S128x128 S32768x128 [1] [0] [0] [1] [] []
  dot_S32768x2048_S2048x1_S32768x1_1_0_0_1_n_n_wf : DotDims.WF S32768x2048 S2048x1 S32768x1 [1] [0] [0] [1] [] []

variable [Facts₀]

def dot_S32768x2048_S2048x128_S32768x128_1_0_0_1_n_n : DotDims S32768x2048 S2048x128 S32768x128 where
  lhsContracting := [1]
  rhsContracting := [0]
  lhsNonContracting := [0]
  rhsNonContracting := [1]
  lhsBatch := []
  rhsBatch := []
  wf := dot_S32768x2048_S2048x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf

class Facts : Prop extends Facts₀ where

variable [Facts]
-- ==== Proof.FrameBaseK.lean ====
/-
  The launch side of the kernel program's run, shared by the two cases of its body.

  @main is three host operations (the four weight matrices laid side by side and narrowed, the four biases laid
  end to end), the region, and the host epilogue.  A valuation `V` names what every buffer holds when the region is
  entered; the sixteen arguments are untouched by the operations before and after the region.  The region's grid has
  32 points (2 cores by 16 tiles); the body zeroes its five accumulators exactly at the points whose tile index is 0.
-/
import proofs.«154947_j29875792511782_2_alg».proof.Proof.Gen.Kernel.Launch
import proofs.«154947_j29875792511782_2_alg».proof.Proof.Gen.Kernel.Skeleton
import proofs.«154947_j29875792511782_2_alg».proof.Proof.Gen.Kernel.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the three host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor

set_option maxHeartbeats 16000000 in
/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The epilogue touches only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- No operation of the epilogue writes one of the seventeen arrays the region stages: each writes its own result only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals (intro w; refine StableHlo.devRef_ne_of_ne ?_; revert w; decide)

/-- The same, in the form the launch takes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The arguments are untouched around the region -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 2, and the region stages it in no window. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 3, and the region stages it in no window. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 4, and the region stages it in no window. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 5, and the region stages it in no window. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 6, and the region stages it in no window. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 7, and the region stages it in no window. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 10, and the region stages it in no window. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 11, and the region stages it in no window. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 15, and the region stages it in no window. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post names every staged array and every other unscoped buffer, the sixteen arguments end unchanged:
    a staged argument by its window's array, an unstaged one because nothing writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    ((h c).1 4).trans (((dats 0 c).arrAt_in 4 rfl _).trans ((hA c 4).trans (V_main_arg8 m c))),
    ((h c).1 5).trans (((dats 0 c).arrAt_in 5 rfl _).trans ((hA c 5).trans (V_main_arg9 m c))),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    ((h c).1 6).trans (((dats 0 c).arrAt_in 6 rfl _).trans ((hA c 6).trans (V_main_arg12 m c))),
    ((h c).1 7).trans (((dats 0 c).arrAt_in 7 rfl _).trans ((hA c 7).trans (V_main_arg13 m c))),
    ((h c).1 8).trans (((dats 0 c).arrAt_in 8 rfl _).trans ((hA c 8).trans (V_main_arg14 m c))),
    (((h c).2 main_arg15 (Pipeline.mem_restRefs_of main_arg15 (by decide) (by decide))).trans (W_main_arg15 m dats c))⟩) h

/-! ## The body's branch condition -/

/-- The condition of the body's one `scf.if`: the tile coordinate is 0. -/
abbrev cond0_0 (i : grid0.Coords) : Prop := (Scalar.cmpi .ne (Scalar.extui (Scalar.cmpi .eq (BitVec.ofNat 32 (i 1).val) 0#32)) 0#32) = 1#1
/-- It holds at the points whose number is a multiple of 16: the first tile of each core. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel

/-! ## The staging memrefs and the scratch operands -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev VO0_9 : View sig .tc .vmem S1024x1 .f32 := (Memref.whole cc0_stg9_0 : Memref sig .tc .vmem S1024x1 .f32).view
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev VO0_10 : View sig .tc .vmem S1024x128 .f32 := (Memref.whole cc0_stg10_0 : Memref sig .tc .vmem S1024x128 .f32).view
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev VO0_11 : View sig .tc .vmem S1024x128 .f32 := (Memref.whole cc0_stg11_0 : Memref sig .tc .vmem S1024x128 .f32).view
abbrev ms0_11 (t : Fin cfg0.N) : Memref sig .tc .vmem S1024x128 .f32 := win0_11.stage (cfg0.slots t 11)
abbrev hs0_11 (t : Fin cfg0.N) : (ms0_11 t).IsWhole := hstage0_11 ((cfg0.slots t 11).cast nbuf0_11)
abbrev VO0_12 : View sig .tc .vmem S1x1x128 .f32 := (Memref.whole cc0_stg12_0 : Memref sig .tc .vmem S1x1x128 .f32).view
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev VO0_13 : View sig .tc .vmem S1x1x128 .f32 := (Memref.whole cc0_stg13_0 : Memref sig .tc .vmem S1x1x128 .f32).view
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev VO0_14 : View sig .tc .vmem S1x1x128 .f32 := (Memref.whole cc0_stg14_0 : Memref sig .tc .vmem S1x1x128 .f32).view
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
abbrev VO0_15 : View sig .tc .vmem S1x1x1 .f32 := (Memref.whole cc0_stg15_0 : Memref sig .tc .vmem S1x1x1 .f32).view
abbrev ms0_15 (t : Fin cfg0.N) : Memref sig .tc .vmem S1x1x1 .f32 := win0_15.stage (cfg0.slots t 15)
abbrev hs0_15 (t : Fin cfg0.N) : (ms0_15 t).IsWhole := hstage0_15 ((cfg0.slots t 15).cast nbuf0_15)
abbrev VO0_16 : View sig .tc .vmem S1x1x1 .f32 := (Memref.whole cc0_stg16_0 : Memref sig .tc .vmem S1x1x1 .f32).view
abbrev ms0_16 (t : Fin cfg0.N) : Memref sig .tc .vmem S1x1x1 .f32 := win0_16.stage (cfg0.slots t 16)
abbrev hs0_16 (t : Fin cfg0.N) : (ms0_16 t).IsWhole := hstage0_16 ((cfg0.slots t 16).cast nbuf0_16)
abbrev scM0_0 : Memref sig .tc .vmem S1x128 .f32 := Memref.whole cc0_scratch0
abbrev VS0_0 : View sig .tc .vmem S1x128 .f32 := scM0_0.view
abbrev scM0_1 : Memref sig .tc .vmem S1x128 .f32 := Memref.whole cc0_scratch1
abbrev VS0_1 : View sig .tc .vmem S1x128 .f32 := scM0_1.view
abbrev scM0_2 : Memref sig .tc .vmem S1x128 .f32 := Memref.whole cc0_scratch2
abbrev VS0_2 : View sig .tc .vmem S1x128 .f32 := scM0_2.view
abbrev scM0_3 : Memref sig .tc .vmem S1x1 .f32 := Memref.whole cc0_scratch3
abbrev VS0_3 : View sig .tc .vmem S1x1 .f32 := scM0_3.view
abbrev scM0_4 : Memref sig .tc .vmem S1x1 .f32 := Memref.whole cc0_scratch4
abbrev VS0_4 : View sig .tc .vmem S1x1 .f32 := scM0_4.view

/-- The region's standing invariant with the five scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Frame

end
-- ==== Proof.FrameRunAK.lean ====
/-
  The kernel body run once, at a grid point whose tile coordinate is 0 (the five accumulators are zeroed first, so what they held does not matter).
  On whole staging buffers - the nine inputs at given contents, the eight outputs at anything - the body runs to its
  end without a fault, hands the inputs back as they were, and leaves in each output and each accumulator the pieces
  its stores wrote; the pieces are found by running the body.
-/
import proofs.«154947_j29875792511782_2_alg».proof.Proof.FrameBaseK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the body's stores leave in the eight outputs and the five accumulators at a point of this case, with
    the proof that the body runs there. -/
noncomputable def kernelRun0_A (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    Σ' (L9 : List (View.Piece (Elt F) S1024x1 .f32)) (L10 : List (View.Piece (Elt F) S1024x128 .f32)) (L11 : List (View.Piece (Elt F) S1024x128 .f32)) (L12 : List (View.Piece (Elt F) S1x1x128 .f32)) (L13 : List (View.Piece (Elt F) S1x1x128 .f32)) (L14 : List (View.Piece (Elt F) S1x1x128 .f32)) (L15 : List (View.Piece (Elt F) S1x1x1 .f32)) (L16 : List (View.Piece (Elt F) S1x1x1 .f32)) (LS0 : List (View.Piece (Elt F) S1x128 .f32)) (LS1 : List (View.Piece (Elt F) S1x128 .f32)) (LS2 : List (View.Piece (Elt F) S1x128 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    iexists _; iexact HS4

end Cert.Kernel.Frame

end
-- ==== Proof.FrameRunBK.lean ====
/-
  The kernel body run once, at a grid point whose tile coordinate is not 0 (the five accumulators are read at what the tile before left in them).
  On whole staging buffers - the nine inputs at given contents, the eight outputs at anything - the body runs to its
  end without a fault, hands the inputs back as they were, and leaves in each output and each accumulator the pieces
  its stores wrote; the pieces are found by running the body.
-/
import proofs.«154947_j29875792511782_2_alg».proof.Proof.FrameRunAK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the body's stores leave in the eight outputs and the five accumulators at a point of this case, with
    the proof that the body runs there. -/
noncomputable def kernelRun0_B (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    Σ' (L9 : List (View.Piece (Elt F) S1024x1 .f32)) (L10 : List (View.Piece (Elt F) S1024x128 .f32)) (L11 : List (View.Piece (Elt F) S1024x128 .f32)) (L12 : List (View.Piece (Elt F) S1x1x128 .f32)) (L13 : List (View.Piece (Elt F) S1x1x128 .f32)) (L14 : List (View.Piece (Elt F) S1x1x128 .f32)) (L15 : List (View.Piece (Elt F) S1x1x1 .f32)) (L16 : List (View.Piece (Elt F) S1x1x1 .f32)) (LS0 : List (View.Piece (Elt F) S1x128 .f32)) (LS1 : List (View.Piece (Elt F) S1x128 .f32)) (LS2 : List (View.Piece (Elt F) S1x128 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg19.eq_unread hfs0; obtain rfl := harg20.eq_unread hfs1; obtain rfl := harg21.eq_unread hfs2; obtain rfl := harg22.eq_unread hfs3; obtain rfl := harg23.eq_unread hfs4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    iexists _; iexact HS4

end Cert.Kernel.Frame

end
-- ==== Proof.FrameOutsK.lean ====
/-
  The kernel program's run, point by point.

  At a point whose tile coordinate is 0 the body zeroes its five accumulators and then adds the tile's column sums into
  them; at any other point it adds to what the tile before left.  Each of the eight outputs is stored whole at every
  point: the free energy, precision and error blocks from the tile alone, the five per-core partial sums as copies of
  the accumulators.  `outsAt0` names, by recursion on the point, what the eight output buffers and the five
  accumulators hold after each point; the region's invariant carries the accumulators at those contents from one
  point to the next; and the run of @main ends with every staged array at what the write-backs assemble from them.
-/
import proofs.«154947_j29875792511782_2_alg».proof.Proof.FrameRunBK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores cover every buffer whole -/

theorem cover0_A_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1 S1024x1.size (by sl_kernel_rfl) y

/-- What case A leaves in output window 9's staging buffer: its pieces read back. -/
def out0_A_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1)

theorem cover0_A_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1 S1024x128.size (by sl_kernel_rfl) y

/-- What case A leaves in output window 10's staging buffer: its pieces read back. -/
def out0_A_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1)

theorem cover0_A_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1 S1024x128.size (by sl_kernel_rfl) y

/-- What case A leaves in output window 11's staging buffer: its pieces read back. -/
def out0_A_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x128 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1)

theorem cover0_A_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1 S1x1x128.size (by sl_kernel_rfl) y

/-- What case A leaves in output window 12's staging buffer: its pieces read back. -/
def out0_A_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1)

theorem cover0_A_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1 S1x1x128.size (by sl_kernel_rfl) y

/-- What case A leaves in output window 13's staging buffer: its pieces read back. -/
def out0_A_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1)

theorem cover0_A_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1 S1x1x128.size (by sl_kernel_rfl) y

/-- What case A leaves in output window 14's staging buffer: its pieces read back. -/
def out0_A_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1)

theorem cover0_A_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1 S1x1x1.size (by sl_kernel_rfl) y

/-- What case A leaves in output window 15's staging buffer: its pieces read back. -/
def out0_A_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x1 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1)

theorem cover0_A_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1 S1x1x1.size (by sl_kernel_rfl) y

/-- What case A leaves in output window 16's staging buffer: its pieces read back. -/
def out0_A_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x1 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1)

theorem scover0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1 S1x128.size (by sl_kernel_rfl) y

/-- What case A leaves in accumulator 0: its pieces read back. -/
def sout0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1)

theorem scover0_A_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1 S1x128.size (by sl_kernel_rfl) y

/-- What case A leaves in accumulator 1: its pieces read back. -/
def sout0_A_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1)

theorem scover0_A_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1 S1x128.size (by sl_kernel_rfl) y

/-- What case A leaves in accumulator 2: its pieces read back. -/
def sout0_A_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1)

theorem scover0_A_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1 S1x1.size (by sl_kernel_rfl) y

/-- What case A leaves in accumulator 3: its pieces read back. -/
def sout0_A_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1)

theorem scover0_A_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1 S1x1.size (by sl_kernel_rfl) y

/-- What case A leaves in accumulator 4: its pieces read back. -/
def sout0_A_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1)

theorem cover0_B_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1 S1024x1.size (by sl_kernel_rfl) y

/-- What case B leaves in output window 9's staging buffer: its pieces read back. -/
def out0_B_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1)

theorem cover0_B_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1 S1024x128.size (by sl_kernel_rfl) y

/-- What case B leaves in output window 10's staging buffer: its pieces read back. -/
def out0_B_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1)

theorem cover0_B_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1 S1024x128.size (by sl_kernel_rfl) y

/-- What case B leaves in output window 11's staging buffer: its pieces read back. -/
def out0_B_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x128 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1)

theorem cover0_B_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1 S1x1x128.size (by sl_kernel_rfl) y

/-- What case B leaves in output window 12's staging buffer: its pieces read back. -/
def out0_B_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1)

theorem cover0_B_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1 S1x1x128.size (by sl_kernel_rfl) y

/-- What case B leaves in output window 13's staging buffer: its pieces read back. -/
def out0_B_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1)

theorem cover0_B_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1 S1x1x128.size (by sl_kernel_rfl) y

/-- What case B leaves in output window 14's staging buffer: its pieces read back. -/
def out0_B_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1)

theorem cover0_B_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1 S1x1x1.size (by sl_kernel_rfl) y

/-- What case B leaves in output window 15's staging buffer: its pieces read back. -/
def out0_B_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x1 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1)

theorem cover0_B_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1 S1x1x1.size (by sl_kernel_rfl) y

/-- What case B leaves in output window 16's staging buffer: its pieces read back. -/
def out0_B_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x1 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1)

theorem scover0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1 S1x128.size (by sl_kernel_rfl) y

/-- What case B leaves in accumulator 0: its pieces read back. -/
def sout0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1)

theorem scover0_B_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1 S1x128.size (by sl_kernel_rfl) y

/-- What case B leaves in accumulator 1: its pieces read back. -/
def sout0_B_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1)

theorem scover0_B_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1 S1x128.size (by sl_kernel_rfl) y

/-- What case B leaves in accumulator 2: its pieces read back. -/
def sout0_B_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1)

theorem scover0_B_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1 S1x1.size (by sl_kernel_rfl) y

/-- What case B leaves in accumulator 3: its pieces read back. -/
def sout0_B_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1)

theorem scover0_B_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1 S1x1.size (by sl_kernel_rfl) y

/-- What case B leaves in accumulator 4: its pieces read back. -/
def sout0_B_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1)

/-! ## What the buffers hold after each point -/

/-- After the body at position `n`: the eight outputs' staging buffers, then the five accumulators.  At a first tile
    (`n` a multiple of 16) the case that zeroes the accumulators, run on the point's input blocks; elsewhere the case
    that carries them, run on the point's input blocks and on the accumulators as position `n - 1` left them. -/
def outsAt0 (c : Dev nD) : (n : ℕ) → n < cfg0.N → Vec F S1024x1 .f32 × Vec F S1024x128 .f32 × Vec F S1024x128 .f32 × Vec F S1x1x128 .f32 × Vec F S1x1x128 .f32 × Vec F S1x1x128 .f32 × Vec F S1x1x1 .f32 × Vec F S1x1x1 .f32 × Vec F S1x128 .f32 × Vec F S1x128 .f32 × Vec F S1x128 .f32 × Vec F S1x1 .f32 × Vec F S1x1 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 16 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2))

/-- `outsAt0` at a first tile. -/
theorem outsAt0_A (c : Dev nD) (t : Fin cfg0.N) (h0 : t.val % 16 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a later tile: over what the point before left. -/
theorem outsAt0_B (c : Dev nD) (t : Fin cfg0.N) (h0 : ¬t.val % 16 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2)) := by
  obtain ⟨n, hn⟩ := t
  cases n with
  | zero => exact (by exfalso; (try dsimp only at h0); exact absurd (Nat.zero_mod _) h0)
  | succ n => exact (dif_neg h0).trans rfl

/-- The region's invariant before position `n`: at first the standing one (every accumulator at anything); afterwards
    each accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ owns (c : Thread nD τ) scM0_3 fullShare ((outsAt0 m c n hn).2.2.2.2.2.2.2.2.2.2.2.1) ∗ owns (c : Thread nD τ) scM0_4 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ owns (c : Thread nD τ) scM0_3 fullShare ((outsAt0 m c n hn).2.2.2.2.2.2.2.2.2.2.2.1) ∗ owns (c : Thread nD τ) scM0_4 fullShare ((outsAt0 m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2.1) ∗ owns (c : Thread nD τ) scM0_2 fullShare ((outsAt0 m c (n - 1) (by omega)).2.2.2.2.2.2.2.2.2.2.1) ∗ owns (c : Thread nD τ) scM0_3 fullShare ((outsAt0 m c (n - 1) (by omega)).2.2.2.2.2.2.2.2.2.2.2.1) ∗ owns (c : Thread nD τ) scM0_4 fullShare ((outsAt0 m c (n - 1) (by omega)).2.2.2.2.2.2.2.2.2.2.2.2)) ∗ (∃ r, prngReg c r)) := by
  cases n with
  | zero => exact absurd rfl hz
  | succ n => rfl

/-! ## The proof data -/

/-- The arrays as the region finds them; after the body at a point each input's buffer at its block and each
    output's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
    | ⟨15, _⟩ => (outsAt0 m c t.val t.isLt).2.2.2.2.2.2.1
    | ⟨16, _⟩ => (outsAt0 m c t.val t.isLt).2.2.2.2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem after0_16 (c : Dev nD) (t : Fin cfg0.N) : (dats m 0 c).after 16 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.Kernel.Frame

end
-- ==== Proof.FrameBodyDefsK.lean ====
/-
  What the kernel body is called with at a grid point, and what it returns.
-/
import proofs.«154947_j29875792511782_2_alg».proof.Proof.FrameOutsK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end Cert.Kernel.Frame

end
-- ==== Proof.FrameBodyA0K.lean ====
/-
  The body at the grid's first point: the accumulators are handed over at anything and zeroed.
-/
import proofs.«154947_j29875792511782_2_alg».proof.Proof.FrameBodyDefsK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at the very first point of the grid. -/
theorem sound_body_A0 (c : Dev nD) (t : Fin cfg0.N) (h0 : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_zero m c _ _ hz, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_A m c t h0
  rw [show (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.1) hT]
  rw [show (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.1) hT]
  rw [show (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.1) hT]
  rw [show (outsAt0 m c t.val t.isLt).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.1) hT]
  rw [show (outsAt0 m c t.val t.isLt).2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.1) hT]
  rw [show (outsAt0 m c t.val t.isLt).2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.1) hT]
  rw [show (outsAt0 m c t.val t.isLt).2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.1) hT]
  rw [show (outsAt0 m c t.val t.isLt).2.2.2.2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.1) hT]
  rw [show (outsAt0 m c t.val t.isLt).2.2.2.2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.1) hT]
  rw [show (outsAt0 m c t.val t.isLt).2.2.2.2.2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.1) hT]
  rw [show (outsAt0 m c t.val t.isLt).2.2.2.2.2.2.2.2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.1) hT]
  rw [show (outsAt0 m c t.val t.isLt).2.2.2.2.2.2.2.2.2.2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.1) hT]
  rw [show (outsAt0 m c t.val t.isLt).2.2.2.2.2.2.2.2.2.2.2.2 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.2) hT]
  unfold out0_A_9 out0_A_10 out0_A_11 out0_A_12 out0_A_13 out0_A_14 out0_A_15 out0_A_16 sout0_A_0 sout0_A_1 sout0_A_2 sout0_A_3 sout0_A_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)

end Cert.Kernel.Frame

end
-- ==== Proof.FrameBodyA1K.lean ====
/-
  The body at the first tile of the second core: the accumulators hold the first core's sums and are zeroed.
-/
import proofs.«154947_j29875792511782_2_alg».proof.Proof.FrameBodyDefsK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at a later first tile. -/
theorem sound_body_A1 (c : Dev nD) (t : Fin cfg0.N) (h0 : t.val % 16 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_A m c t h0
  rw [show (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.1) hT]
  rw [show (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.1) hT]
  rw [show (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.1) hT]
  rw [show (outsAt0 m c t.val t.isLt).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.1) hT]
  rw [show (outsAt0 m c t.val t.isLt).2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.1) hT]
  rw [show (outsAt0 m c t.val t.isLt).2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.1) hT]
  rw [show (outsAt0 m c t.val t.isLt).2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.1) hT]
  rw [show (outsAt0 m c t.val t.isLt).2.2.2.2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.1) hT]
  rw [show (outsAt0 m c t.val t.isLt).2.2.2.2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.1) hT]
  rw [show (outsAt0 m c t.val t.isLt).2.2.2.2.2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.1) hT]
  rw [show (outsAt0 m c t.val t.isLt).2.2.2.2.2.2.2.2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.1) hT]
  rw [show (outsAt0 m c t.val t.isLt).2.2.2.2.2.2.2.2.2.2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.1) hT]
  rw [show (outsAt0 m c t.val t.isLt).2.2.2.2.2.2.2.2.2.2.2.2 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.2) hT]
  unfold out0_A_9 out0_A_10 out0_A_11 out0_A_12 out0_A_13 out0_A_14 out0_A_15 out0_A_16 sout0_A_0 sout0_A_1 sout0_A_2 sout0_A_3 sout0_A_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)

end Cert.Kernel.Frame

end
-- ==== Proof.FrameBodyBK.lean ====
/-
  The body at a tile that is not a core's first: the accumulators are carried.
-/
import proofs.«154947_j29875792511782_2_alg».proof.Proof.FrameBodyDefsK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at a tile that is not a core's first. -/
theorem sound_body_B (c : Dev nD) (t : Fin cfg0.N) (h0 : ¬t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := fun h => h0 (by rw [h])
  rw [PhiS_castSucc m c t, PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_B m c t h0
  rw [show (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.1) hT]
  rw [show (outsAt0 m c t.val t.isLt).2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.1) hT]
  rw [show (outsAt0 m c t.val t.isLt).2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.1) hT]
  rw [show (outsAt0 m c t.val t.isLt).2.2.2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.1) hT]
  rw [show (outsAt0 m c t.val t.isLt).2.2.2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.1) hT]
  rw [show (outsAt0 m c t.val t.isLt).2.2.2.2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.1) hT]
  rw [show (outsAt0 m c t.val t.isLt).2.2.2.2.2.2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.1) hT]
  rw [show (outsAt0 m c t.val t.isLt).2.2.2.2.2.2.2.1 = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.1) hT]
  rw [show (outsAt0 m c t.val t.isLt).2.2.2.2.2.2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.1) hT]
  rw [show (outsAt0 m c t.val t.isLt).2.2.2.2.2.2.2.2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.1) hT]
  rw [show (outsAt0 m c t.val t.isLt).2.2.2.2.2.2.2.2.2.2.1 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.1) hT]
  rw [show (outsAt0 m c t.val t.isLt).2.2.2.2.2.2.2.2.2.2.2.1 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.2.1) hT]
  rw [show (outsAt0 m c t.val t.isLt).2.2.2.2.2.2.2.2.2.2.2.2 = sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.2.2) hT]
  unfold out0_B_9 out0_B_10 out0_B_11 out0_B_12 out0_B_13 out0_B_14 out0_B_15 out0_B_16 sout0_B_0 sout0_B_1 sout0_B_2 sout0_B_3 sout0_B_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _ _ _).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel.Frame

end
-- ==== Proof.FrameBodyK.lean ====
/-
  The body obligation of the kernel program's region, from its three cases.
-/
import proofs.«154947_j29875792511782_2_alg».proof.Proof.FrameBodyA0K
import proofs.«154947_j29875792511782_2_alg».proof.Proof.FrameBodyA1K
import proofs.«154947_j29875792511782_2_alg».proof.Proof.FrameBodyBK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases hz : t.val = 0
    · exact sound_body_A0 m c t h0 hz
    · exact sound_body_A1 m c t h0 hz
  · exact sound_body_B m c t h0

end Cert.Kernel.Frame

end
-- ==== Proof.FrameK.lean ====
/-
  The run of the kernel program: @main's host operations, the region launched at its 32 points, the host epilogue;
  and from it the frame claim (the sixteen arguments end unchanged).
-/
import proofs.«154947_j29875792511782_2_alg».proof.Proof.FrameBodyK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the standing one back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 64000000 in
set_option backward.isDefEq.respectTransparency.types false in
/-- Every weakly fair execution of @main terminates without a fault, every staged array ends at what the write-backs
    assemble from `outsAt0`, and every other unscoped buffer at what the epilogue leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the sixteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Frame

end
-- ==== Proof.FrameBaseI.lean ====
/-
  The launch side of the kernel program's run, shared by the two cases of its body.

  @main is three host operations (the four weight matrices laid side by side and narrowed, the four biases laid
  end to end), the region, and the host epilogue.  A valuation `V` names what every buffer holds when the region is
  entered; the sixteen arguments are untouched by the operations before and after the region.  The region's grid has
  32 points (2 cores by 16 tiles); the body zeroes its five accumulators exactly at the points whose tile index is 0.
-/
import proofs.«154947_j29875792511782_2_alg».proof.Proof.Gen.KernelIdeal.Launch
import proofs.«154947_j29875792511782_2_alg».proof.Proof.Gen.KernelIdeal.Skeleton
import proofs.«154947_j29875792511782_2_alg».proof.Proof.Gen.KernelIdeal.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the three host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor

set_option maxHeartbeats 16000000 in
/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The epilogue touches only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- No operation of the epilogue writes one of the seventeen arrays the region stages: each writes its own result only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals (intro w; refine StableHlo.devRef_ne_of_ne ?_; revert w; decide)

/-- The same, in the form the launch takes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The arguments are untouched around the region -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 2, and the region stages it in no window. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 3, and the region stages it in no window. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 4, and the region stages it in no window. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 5, and the region stages it in no window. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 6, and the region stages it in no window. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 7, and the region stages it in no window. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 10, and the region stages it in no window. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 11, and the region stages it in no window. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 8000000 in
/-- No host operation after the region writes argument 15, and the region stages it in no window. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post names every staged array and every other unscoped buffer, the sixteen arguments end unchanged:
    a staged argument by its window's array, an unstaged one because nothing writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    ((h c).1 4).trans (((dats 0 c).arrAt_in 4 rfl _).trans ((hA c 4).trans (V_main_arg8 m c))),
    ((h c).1 5).trans (((dats 0 c).arrAt_in 5 rfl _).trans ((hA c 5).trans (V_main_arg9 m c))),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    ((h c).1 6).trans (((dats 0 c).arrAt_in 6 rfl _).trans ((hA c 6).trans (V_main_arg12 m c))),
    ((h c).1 7).trans (((dats 0 c).arrAt_in 7 rfl _).trans ((hA c 7).trans (V_main_arg13 m c))),
    ((h c).1 8).trans (((dats 0 c).arrAt_in 8 rfl _).trans ((hA c 8).trans (V_main_arg14 m c))),
    (((h c).2 main_arg15 (Pipeline.mem_restRefs_of main_arg15 (by decide) (by decide))).trans (W_main_arg15 m dats c))⟩) h

/-! ## The body's branch condition -/

/-- The condition of the body's one `scf.if`: the tile coordinate is 0. -/
abbrev cond0_0 (i : grid0.Coords) : Prop := (Scalar.cmpi .ne (Scalar.extui (Scalar.cmpi .eq (BitVec.ofNat 32 (i 1).val) 0#32)) 0#32) = 1#1
/-- It holds at the points whose number is a multiple of 16: the first tile of each core. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel

/-! ## The staging memrefs and the scratch operands -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev VO0_9 : View sig .tc .vmem S1024x1 .f32 := (Memref.whole cc0_stg9_0 : Memref sig .tc .vmem S1024x1 .f32).view
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev VO0_10 : View sig .tc .vmem S1024x128 .f32 := (Memref.whole cc0_stg10_0 : Memref sig .tc .vmem S1024x128 .f32).view
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev VO0_11 : View sig .tc .vmem S1024x128 .f32 := (Memref.whole cc0_stg11_0 : Memref sig .tc .vmem S1024x128 .f32).view
abbrev ms0_11 (t : Fin cfg0.N) : Memref sig .tc .vmem S1024x128 .f32 := win0_11.stage (cfg0.slots t 11)
abbrev hs0_11 (t : Fin cfg0.N) : (ms0_11 t).IsWhole := hstage0_11 ((cfg0.slots t 11).cast nbuf0_11)
abbrev VO0_12 : View sig .tc .vmem S1x1x128 .f32 := (Memref.whole cc0_stg12_0 : Memref sig .tc .vmem S1x1x128 .f32).view
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev VO0_13 : View sig .tc .vmem S1x1x128 .f32 := (Memref.whole cc0_stg13_0 : Memref sig .tc .vmem S1x1x128 .f32).view
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev VO0_14 : View sig .tc .vmem S1x1x128 .f32 := (Memref.whole cc0_stg14_0 : Memref sig .tc .vmem S1x1x128 .f32).view
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
abbrev VO0_15 : View sig .tc .vmem S1x1x1 .f32 := (Memref.whole cc0_stg15_0 : Memref sig .tc .vmem S1x1x1 .f32).view
abbrev ms0_15 (t : Fin cfg0.N) : Memref sig .tc .vmem S1x1x1 .f32 := win0_15.stage (cfg0.slots t 15)
abbrev hs0_15 (t : Fin cfg0.N) : (ms0_15 t).IsWhole := hstage0_15 ((cfg0.slots t 15).cast nbuf0_15)
abbrev VO0_16 : View sig .tc .vmem S1x1x1 .f32 := (Memref.whole cc0_stg16_0 : Memref sig .tc .vmem S1x1x1 .f32).view
abbrev ms0_16 (t : Fin cfg0.N) : Memref sig .tc .vmem S1x1x1 .f32 := win0_16.stage (cfg0.slots t 16)
abbrev hs0_16 (t : Fin cfg0.N) : (ms0_16 t).IsWhole := hstage0_16 ((cfg0.slots t 16).cast nbuf0_16)
abbrev scM0_0 : Memref sig .tc .vmem S1x128 .f32 := Memref.whole cc0_scratch0
abbrev VS0_0 : View sig .tc .vmem S1x128 .f32 := scM0_0.view
abbrev scM0_1 : Memref sig .tc .vmem S1x128 .f32 := Memref.whole cc0_scratch1
abbrev VS0_1 : View sig .tc .vmem S1x128 .f32 := scM0_1.view
abbrev scM0_2 : Memref sig .tc .vmem S1x128 .f32 := Memref.whole cc0_scratch2
abbrev VS0_2 : View sig .tc .vmem S1x128 .f32 := scM0_2.view
abbrev scM0_3 : Memref sig .tc .vmem S1x1 .f32 := Memref.whole cc0_scratch3
abbrev VS0_3 : View sig .tc .vmem S1x1 .f32 := scM0_3.view
abbrev scM0_4 : Memref sig .tc .vmem S1x1 .f32 := Memref.whole cc0_scratch4
abbrev VS0_4 : View sig .tc .vmem S1x1 .f32 := scM0_4.view

/-- The region's standing invariant with the five scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Frame

end
-- ==== Proof.FrameRunAI.lean ====
/-
  The kernel body run once, at a grid point whose tile coordinate is 0 (the five accumulators are zeroed first, so what they held does not matter).
  On whole staging buffers - the nine inputs at given contents, the eight outputs at anything - the body runs to its
  end without a fault, hands the inputs back as they were, and leaves in each output and each accumulator the pieces
  its stores wrote; the pieces are found by running the body.
-/
import proofs.«154947_j29875792511782_2_alg».proof.Proof.FrameBaseI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the body's stores leave in the eight outputs and the five accumulators at a point of this case, with
    the proof that the body runs there. -/
noncomputable def kernelRun0_A (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    Σ' (L9 : List (View.Piece (Elt F) S1024x1 .f32)) (L10 : List (View.Piece (Elt F) S1024x128 .f32)) (L11 : List (View.Piece (Elt F) S1024x128 .f32)) (L12 : List (View.Piece (Elt F) S1x1x128 .f32)) (L13 : List (View.Piece (Elt F) S1x1x128 .f32)) (L14 : List (View.Piece (Elt F) S1x1x128 .f32)) (L15 : List (View.Piece (Elt F) S1x1x1 .f32)) (L16 : List (View.Piece (Elt F) S1x1x1 .f32)) (LS0 : List (View.Piece (Elt F) S1x128 .f32)) (LS1 : List (View.Piece (Elt F) S1x128 .f32)) (LS2 : List (View.Piece (Elt F) S1x128 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    iexists _; iexact HS4

end Cert.KernelIdeal.Frame

end
-- ==== Proof.FrameRunBI.lean ====
/-
  The kernel body run once, at a grid point whose tile coordinate is not 0 (the five accumulators are read at what the tile before left in them).
  On whole staging buffers - the nine inputs at given contents, the eight outputs at anything - the body runs to its
  end without a fault, hands the inputs back as they were, and leaves in each output and each accumulator the pieces
  its stores wrote; the pieces are found by running the body.
-/
import proofs.«154947_j29875792511782_2_alg».proof.Proof.FrameRunAI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the body's stores leave in the eight outputs and the five accumulators at a point of this case, with
    the proof that the body runs there. -/
noncomputable def kernelRun0_B (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    Σ' (L9 : List (View.Piece (Elt F) S1024x1 .f32)) (L10 : List (View.Piece (Elt F) S1024x128 .f32)) (L11 : List (View.Piece (Elt F) S1024x128 .f32)) (L12 : List (View.Piece (Elt F) S1x1x128 .f32)) (L13 : List (View.Piece (Elt F) S1x1x128 .f32)) (L14 : List (View.Piece (Elt F) S1x1x128 .f32)) (L15 : List (View.Piece (Elt F) S1x1x1 .f32)) (L16 : List (View.Piece (Elt F) S1x1x1 .f32)) (LS0 : List (View.Piece (Elt F) S1x128 .f32)) (LS1 : List (View.Piece (Elt F) S1x128 .f32)) (LS2 : List (View.Piece (Elt F) S1x128 .f32)) (LS3 : List (View.Piece (Elt F) S1x1 .f32)), { LS4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg19.eq_unread hfs0; obtain rfl := harg20.eq_unread hfs1; obtain rfl := harg21.eq_unread hfs2; obtain rfl := harg22.eq_unread hfs3; obtain rfl := harg23.eq_unread hfs4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    iexists _; iexact HS4

end Cert.KernelIdeal.Frame

end
-- ==== Proof.FrameOutsI.lean ====
/-
  The kernel program's run, point by point.

  At a point whose tile coordinate is 0 the body zeroes its five accumulators and then adds the tile's column sums into
  them; at any other point it adds to what the tile before left.  Each of the eight outputs is stored whole at every
  point: the free energy, precision and error blocks from the tile alone, the five per-core partial sums as copies of
  the accumulators.  `outsAt0` names, by recursion on the point, what the eight output buffers and the five
  accumulators hold after each point; the region's invariant carries the accumulators at those contents from one
  point to the next; and the run of @main ends with every staged array at what the write-backs assemble from them.
-/
import proofs.«154947_j29875792511782_2_alg».proof.Proof.FrameRunBI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores cover every buffer whole -/

theorem cover0_A_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1 S1024x1.size (by sl_kernel_rfl) y

/-- What case A leaves in output window 9's staging buffer: its pieces read back. -/
def out0_A_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1)

theorem cover0_A_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1 S1024x128.size (by sl_kernel_rfl) y

/-- What case A leaves in output window 10's staging buffer: its pieces read back. -/
def out0_A_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1)

theorem cover0_A_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1 S1024x128.size (by sl_kernel_rfl) y

/-- What case A leaves in output window 11's staging buffer: its pieces read back. -/
def out0_A_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1024x128 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1)

theorem cover0_A_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1 S1x1x128.size (by sl_kernel_rfl) y

/-- What case A leaves in output window 12's staging buffer: its pieces read back. -/
def out0_A_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1)

theorem cover0_A_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1 S1x1x128.size (by sl_kernel_rfl) y

/-- What case A leaves in output window 13's staging buffer: its pieces read back. -/
def out0_A_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1)

theorem cover0_A_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1 S1x1x128.size (by sl_kernel_rfl) y

/-- What case A leaves in output window 14's staging buffer: its pieces read back. -/
def out0_A_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1)

theorem cover0_A_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1 S1x1x1.size (by sl_kernel_rfl) y

/-- What case A leaves in output window 15's staging buffer: its pieces read back. -/
def out0_A_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x1 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1)

theorem cover0_A_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1 S1x1x1.size (by sl_kernel_rfl) y

/-- What case A leaves in output window 16's staging buffer: its pieces read back. -/
def out0_A_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1x1 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1)

theorem scover0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1 S1x128.size (by sl_kernel_rfl) y

/-- What case A leaves in accumulator 0: its pieces read back. -/
def sout0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.1)

theorem scover0_A_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1 S1x128.size (by sl_kernel_rfl) y

/-- What case A leaves in accumulator 1: its pieces read back. -/
def sout0_A_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.1)

theorem scover0_A_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1 S1x128.size (by sl_kernel_rfl) y

/-- What case A leaves in accumulator 2: its pieces read back. -/
def sout0_A_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.1)

theorem scover0_A_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1 S1x1.size (by sl_kernel_rfl) y

/-- What case A leaves in accumulator 3: its pieces read back. -/
def sout0_A_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.1)

theorem scover0_A_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1 S1x1.size (by sl_kernel_rfl) y

/-- What case A leaves in accumulator 4: its pieces read back. -/
def sout0_A_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.2.2.2.2.2.1)

theorem cover0_B_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1 S1024x1.size (by sl_kernel_rfl) y

/-- What case B leaves in output window 9's staging buffer: its pieces read back. -/
def out0_B_9 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).1)

theorem cover0_B_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1 S1024x128.size (by sl_kernel_rfl) y

/-- What case B leaves in output window 10's staging buffer: its pieces read back. -/
def out0_B_10 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.1)

theorem cover0_B_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1 S1024x128.size (by sl_kernel_rfl) y

/-- What case B leaves in output window 11's staging buffer: its pieces read back. -/
def out0_B_11 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1024x128 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.1)

theorem cover0_B_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1 S1x1x128.size (by sl_kernel_rfl) y

/-- What case B leaves in output window 12's staging buffer: its pieces read back. -/
def out0_B_12 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.1)

theorem cover0_B_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1 S1x1x128.size (by sl_kernel_rfl) y

/-- What case B leaves in output window 13's staging buffer: its pieces read back. -/
def out0_B_13 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.1)

theorem cover0_B_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1 S1x1x128.size (by sl_kernel_rfl) y

/-- What case B leaves in output window 14's staging buffer: its pieces read back. -/
def out0_B_14 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.1)

theorem cover0_B_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1 S1x1x1.size (by sl_kernel_rfl) y

/-- What case B leaves in output window 15's staging buffer: its pieces read back. -/
def out0_B_15 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x1 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.1)

theorem cover0_B_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1 S1x1x1.size (by sl_kernel_rfl) y

/-- What case B leaves in output window 16's staging buffer: its pieces read back. -/
def out0_B_16 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1x1 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.1)

theorem scover0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1 S1x128.size (by sl_kernel_rfl) y

/-- What case B leaves in accumulator 0: its pieces read back. -/
def sout0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.1)

theorem scover0_B_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1 S1x128.size (by sl_kernel_rfl) y

/-- What case B leaves in accumulator 1: its pieces read back. -/
def sout0_B_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.1)

theorem scover0_B_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1 S1x128.size (by sl_kernel_rfl) y

/-- What case B leaves in accumulator 2: its pieces read back. -/
def sout0_B_2 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.1)

theorem scover0_B_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1 S1x1.size (by sl_kernel_rfl) y

/-- What case B leaves in accumulator 3: its pieces read back. -/
def sout0_B_3 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.1)

theorem scover0_B_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1 S1x1.size (by sl_kernel_rfl) y

/-- What case B leaves in accumulator 4: its pieces read back. -/
def sout0_B_4 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole) (hc0 : ¬cond0_0 i)
    (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4).2.2.2.2.2.2.2.2.2.2.2.2.1)

/-! ## What the buffers hold after each point -/

/-- After the body at position `n`: the eight outputs' staging buffers, then the five accumulators.  At a first tile
    (`n` a multiple of 16) the case that zeroes the accumulators, run on the point's input blocks; elsewhere the case
    that carries them, run on the point's input blocks and on the accumulators as position `n - 1` left them. -/
def outsAt0 (c : Dev nD) : (n : ℕ) → n < cfg0.N → Vec F S1024x1 .f32 × Vec F S1024x128 .f32 × Vec F S1024x128 .f32 × Vec F S1x1x128 .f32 × Vec F S1x1x128 .f32 × Vec F S1x1x128 .f32 × Vec F S1x1x1 .f32 × Vec F S1x1x1 .f32 × Vec F S1x128 .f32 × Vec F S1x128 .f32 × Vec F S1x128 .f32 × Vec F S1x1 .f32 × Vec F S1x1 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
      sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 16 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩),
      sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2),
      sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) ((outsAt0 c n (Nat.lt_of_succ_lt hn)).2.2.2.2.2.2.2.2.1) ((outsAt0 c n (Nat.lt_of_succ_lt hn)).2.2.2.2.2.2.2.2.2.1) ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2))

/-- `outsAt0` at a first tile. -/
theorem outsAt0_A (c : Dev nD) (t : Fin cfg0.N) (h0 : t.val % 16 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
      sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a later tile: over what the point before left. -/
theorem outsAt0_B (c : Dev nD) (t : Fin cfg0.N) (h0 : ¬t.val % 16 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2),
      sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2)) := by
  obtain ⟨n, hn⟩ := t
  cases n with
  | zero => exact (by exfalso; (try dsimp only at h0); exact absurd (Nat.zero_mod _) h0)
  | succ n => exact (dif_neg h0).trans rfl

/-- The region's invariant before position `n`: at first the standing one (every accumulator at anything); afterwards
    each accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ owns (c : Thread nD τ) scM0_3 fullShare ((outsAt0 m c n hn).2.2.2.2.2.2.2.2.2.2.2.1) ∗ owns (c : Thread nD τ) scM0_4 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ owns (c : Thread nD τ) scM0_3 fullShare ((outsAt0 m c n hn).2.2.2.2.2.2.2.2.2.2.2.1) ∗ owns (c : Thread nD τ) scM0_4 fullShare ((outsAt0 m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2.1) ∗ owns (c : Thread nD τ) scM0_2 fullShare ((outsAt0 m c (n - 1) (by omega)).2.2.2.2.2.2.2.2.2.2.1) ∗ owns (c : Thread nD τ) scM0_3 fullShare ((outsAt0 m c (n - 1) (by omega)).2.2.2.2.2.2.2.2.2.2.2.1) ∗ owns (c : Thread nD τ) scM0_4 fullShare ((outsAt0 m c (n - 1) (by omega)).2.2.2.2.2.2.2.2.2.2.2.2)) ∗ (∃ r, prngReg c r)) := by
  cases n with
  | zero => exact absurd rfl hz
  | succ n => rfl

/-! ## The proof data -/

/-- The arrays as the region finds them; after the body at a point each input's buffer at its block and each
    output's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
    | ⟨15, _⟩ => (outsAt0 m c t.val t.isLt).2.2.2.2.2.2.1
    | ⟨16, _⟩ => (outsAt0 m c t.val t.isLt).2.2.2.2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem after0_16 (c : Dev nD) (t : Fin cfg0.N) : (dats m 0 c).after 16 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.KernelIdeal.Frame

end
-- ==== Proof.FrameBodyDefsI.lean ====
/-
  What the kernel body is called with at a grid point, and what it returns.
-/
import proofs.«154947_j29875792511782_2_alg».proof.Proof.FrameOutsI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end Cert.KernelIdeal.Frame

end
-- ==== Proof.FrameBodyA0I.lean ====
/-
  The body at the grid's first point: the accumulators are handed over at anything and zeroed.
-/
import proofs.«154947_j29875792511782_2_alg».proof.Proof.FrameBodyDefsI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at the very first point of the grid. -/
theorem sound_body_A0 (c : Dev nD) (t : Fin cfg0.N) (h0 : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_zero m c _ _ hz, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_A m c t h0
  rw [show (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.1) hT]
  rw [show (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.1) hT]
  rw [show (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.1) hT]
  rw [show (outsAt0 m c t.val t.isLt).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.1) hT]
  rw [show (outsAt0 m c t.val t.isLt).2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.1) hT]
  rw [show (outsAt0 m c t.val t.isLt).2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.1) hT]
  rw [show (outsAt0 m c t.val t.isLt).2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.1) hT]
  rw [show (outsAt0 m c t.val t.isLt).2.2.2.2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.1) hT]
  rw [show (outsAt0 m c t.val t.isLt).2.2.2.2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.1) hT]
  rw [show (outsAt0 m c t.val t.isLt).2.2.2.2.2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.1) hT]
  rw [show (outsAt0 m c t.val t.isLt).2.2.2.2.2.2.2.2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.1) hT]
  rw [show (outsAt0 m c t.val t.isLt).2.2.2.2.2.2.2.2.2.2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.1) hT]
  rw [show (outsAt0 m c t.val t.isLt).2.2.2.2.2.2.2.2.2.2.2.2 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.2) hT]
  unfold out0_A_9 out0_A_10 out0_A_11 out0_A_12 out0_A_13 out0_A_14 out0_A_15 out0_A_16 sout0_A_0 sout0_A_1 sout0_A_2 sout0_A_3 sout0_A_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Frame

end
-- ==== Proof.FrameBodyA1I.lean ====
/-
  The body at the first tile of the second core: the accumulators hold the first core's sums and are zeroed.
-/
import proofs.«154947_j29875792511782_2_alg».proof.Proof.FrameBodyDefsI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at a later first tile. -/
theorem sound_body_A1 (c : Dev nD) (t : Fin cfg0.N) (h0 : t.val % 16 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [PhiS_castSucc m c t, PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_A m c t h0
  rw [show (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.1) hT]
  rw [show (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.1) hT]
  rw [show (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.1) hT]
  rw [show (outsAt0 m c t.val t.isLt).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.1) hT]
  rw [show (outsAt0 m c t.val t.isLt).2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.1) hT]
  rw [show (outsAt0 m c t.val t.isLt).2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.1) hT]
  rw [show (outsAt0 m c t.val t.isLt).2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.1) hT]
  rw [show (outsAt0 m c t.val t.isLt).2.2.2.2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.1) hT]
  rw [show (outsAt0 m c t.val t.isLt).2.2.2.2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.1) hT]
  rw [show (outsAt0 m c t.val t.isLt).2.2.2.2.2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.1) hT]
  rw [show (outsAt0 m c t.val t.isLt).2.2.2.2.2.2.2.2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.1) hT]
  rw [show (outsAt0 m c t.val t.isLt).2.2.2.2.2.2.2.2.2.2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.1) hT]
  rw [show (outsAt0 m c t.val t.isLt).2.2.2.2.2.2.2.2.2.2.2.2 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) from congrArg (fun x => x.2.2.2.2.2.2.2.2.2.2.2.2) hT]
  unfold out0_A_9 out0_A_10 out0_A_11 out0_A_12 out0_A_13 out0_A_14 out0_A_15 out0_A_16 sout0_A_0 sout0_A_1 sout0_A_2 sout0_A_3 sout0_A_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Frame

end
-- ==== Proof.FrameBodyBI.lean ====
/-
  The body at a tile that is not a core's first: the accumulators are carried.
-/
import proofs.«154947_j29875792511782_2_alg».proof.Proof.FrameBodyDefsI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at a tile that is not a core's first. -/
theorem sound_body_B (c : Dev nD) (t : Fin cfg0.N) (h0 : ¬t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := fun h => h0 (by rw [h])
  rw [PhiS_castSucc m c t, PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  have hT := outsAt0_B m c t h0
  rw [show (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.1) hT]
  rw [show (outsAt0 m c t.val t.isLt).2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.1) hT]
  rw [show (outsAt0 m c t.val t.isLt).2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.1) hT]
  rw [show (outsAt0 m c t.val t.isLt).2.2.2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.1) hT]
  rw [show (outsAt0 m c t.val t.isLt).2.2.2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.1) hT]
  rw [show (outsAt0 m c t.val t.isLt).2.2.2.2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.1) hT]
  rw [show (outsAt0 m c t.val t.isLt).2.2.2.2.2.2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.1) hT]
  rw [show (outsAt0 m c t.val t.isLt).2.2.2.2.2.2.2.1 = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.1) hT]
  rw [show (outsAt0 m c t.val t.isLt).2.2.2.2.2.2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.1) hT]
  rw [show (outsAt0 m c t.val t.isLt).2.2.2.2.2.2.2.2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.1) hT]
  rw [show (outsAt0 m c t.val t.isLt).2.2.2.2.2.2.2.2.2.2.1 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.1) hT]
  rw [show (outsAt0 m c t.val t.isLt).2.2.2.2.2.2.2.2.2.2.2.1 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.2.1) hT]
  rw [show (outsAt0 m c t.val t.isLt).2.2.2.2.2.2.2.2.2.2.2.2 = sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2.1) ((outsAt0 m c (t.val - 1) (Nat.lt_of_le_of_lt (Nat.sub_le _ _) t.isLt)).2.2.2.2.2.2.2.2.2.2.2.2) from congrArg (fun x => x.2.2.2.2.2.2.2.2.2.2.2.2) hT]
  unfold out0_B_9 out0_B_10 out0_B_11 out0_B_12 out0_B_13 out0_B_14 out0_B_15 out0_B_16 sout0_B_0 sout0_B_1 sout0_B_2 sout0_B_3 sout0_B_4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _ _ _).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Frame

end
-- ==== Proof.FrameBodyI.lean ====
/-
  The body obligation of the kernel program's region, from its three cases.
-/
import proofs.«154947_j29875792511782_2_alg».proof.Proof.FrameBodyA0I
import proofs.«154947_j29875792511782_2_alg».proof.Proof.FrameBodyA1I
import proofs.«154947_j29875792511782_2_alg».proof.Proof.FrameBodyBI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases hz : t.val = 0
    · exact sound_body_A0 m c t h0 hz
    · exact sound_body_A1 m c t h0 hz
  · exact sound_body_B m c t h0

end Cert.KernelIdeal.Frame

end
-- ==== Proof.FrameI.lean ====
/-
  The run of the kernel program: @main's host operations, the region launched at its 32 points, the host epilogue;
  and from it the frame claim (the sixteen arguments end unchanged).
-/
import proofs.«154947_j29875792511782_2_alg».proof.Proof.FrameBodyI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the standing one back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 64000000 in
set_option backward.isDefEq.respectTransparency.types false in
/-- Every weakly fair execution of @main terminates without a fault, every staged array ends at what the write-backs
    assemble from `outsAt0`, and every other unscoped buffer at what the epilogue leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the sixteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Frame

end
-- ==== Proof.Spec.lean ====
/-
  The mathematics both programs compute, at the exact (extended-real) reading, one batch row at a time.

  A row `xr` of the input (2048 entries) is projected four ways (keys, values, queries, precision
  logits), two of them onto one scalar (the gates beta and tau).  Keys and queries are divided by
  their Euclidean norm, clamped below at eps.  The retrieved vector is the normalized query times
  the memory matrix `S`; the error is the target row minus it; the precision is
  softplus(logit) + 0.01; the free energy of the row is the mean over the 128 features of
  precision * error^2 - log precision.  The clipped prediction error of the delta rule is
  2 * tanh((key times S - value) / 2).  Column means over the 32768 rows of key, clipped error,
  precision, beta and tau then give the momentum and memory updates.

  Literals are kept as the binary words both programs spell; the same word on both sides is never
  evaluated.
-/
import Idealize.ShloMosaic.PureOps.Ideal
import Idealize.ShloMosaic.PureOps.Ideal.Laws

noncomputable section

namespace Cert.Spec

open Idealize.ShloMosaic

/-! ## The literals -/

/-- 1e-12 as an f32, the lower clamp of a norm. -/
def eps : EReal := Ideal.ofBits .f32 0x2B8CBCCC#32
/-- 0.01 as an f32. -/
def c001 : EReal := Ideal.ofBits .f32 0x3C23D70A#32
/-- 19. -/
def c19 : EReal := Ideal.ofBits .f32 0x41980000#32
/-- 1. -/
def c1 : EReal := Ideal.ofBits .f32 0x3F800000#32
/-- 2. -/
def c2 : EReal := Ideal.ofBits .f32 0x40000000#32
/-- 128, the feature count the free energy is averaged over. -/
def c128 : EReal := Ideal.ofBits .f32 0x43000000#32
/-- 32768, the batch size the column means divide by. -/
def cB : EReal := Ideal.ofBits .f32 0x47000000#32
/-- -0.1 as an f32. -/
def cm01 : EReal := Ideal.ofBits .f32 0xBDCCCCCD#32
/-- 0.5. -/
def c05 : EReal := Ideal.ofBits .f32 0x3F000000#32
/-- 0.9 as an f32. -/
def c09 : EReal := Ideal.ofBits .f32 0x3F666666#32
/-- 0.1 as an f32. -/
def c01 : EReal := Ideal.ofBits .f32 0x3DCCCCCD#32

/-! ## One row -/

/-- An affine projection of a row onto 128 features: `xr · W[:, j] + b j`. -/
def proj (xr : Fin 2048 → EReal) (W : Fin 2048 → Fin 128 → EReal) (b : Fin 128 → EReal) (j : Fin 128) : EReal :=
  (∑ k : Fin 2048, xr k * W k j) + b j

/-- An affine projection of a row onto one scalar. -/
def proj1 (xr : Fin 2048 → EReal) (w : Fin 2048 → EReal) (b : EReal) : EReal :=
  (∑ k : Fin 2048, xr k * w k) + b

/-- The Euclidean norm of a feature vector, clamped below at eps. -/
def nrm (t : Fin 128 → EReal) : EReal := max (Ideal.sqrt (∑ j : Fin 128, t j * t j)) eps

/-- A feature vector divided by its clamped norm. -/
def normalize (t : Fin 128 → EReal) (j : Fin 128) : EReal := Ideal.div (t j) (nrm t)

/-- softplus z = max z 0 + log(1 + exp(-|z|)). -/
def softplus (z : EReal) : EReal := max z 0 + Ideal.log1p (Ideal.exp (-(max z (-z))))

/-- The precision of a row: softplus of its logit, plus 0.01. -/
def prec (xr : Fin 2048 → EReal) (Wp : Fin 2048 → Fin 128 → EReal) (bp : Fin 128 → EReal) (j : Fin 128) : EReal :=
  softplus (proj xr Wp bp j) + c001

/-- A feature vector times the memory matrix: `(t S) j = ∑ k, t k * S k j`. -/
def mix (t : Fin 128 → EReal) (S : Fin 128 → Fin 128 → EReal) (j : Fin 128) : EReal :=
  ∑ k : Fin 128, t k * S k j

/-- The retrieval error of a row: target minus normalized query times memory. -/
def err (xr : Fin 2048 → EReal) (tr : Fin 128 → EReal) (Wq : Fin 2048 → Fin 128 → EReal) (bq : Fin 128 → EReal)
    (S : Fin 128 → Fin 128 → EReal) (j : Fin 128) : EReal :=
  tr j - mix (normalize (proj xr Wq bq)) S j

/-- The free energy of a row: the mean over the features of precision * error^2 - log precision. -/
def free (xr : Fin 2048 → EReal) (tr : Fin 128 → EReal) (Wq : Fin 2048 → Fin 128 → EReal) (bq : Fin 128 → EReal)
    (Wp : Fin 2048 → Fin 128 → EReal) (bp : Fin 128 → EReal) (S : Fin 128 → Fin 128 → EReal) : EReal :=
  Ideal.div (∑ j : Fin 128, (prec xr Wp bp j * (err xr tr Wq bq S j * err xr tr Wq bq S j) - Ideal.log (prec xr Wp bp j))) c128

/-- The gate beta of a row: the logistic of its scalar projection. -/
def beta (xr : Fin 2048 → EReal) (w : Fin 2048 → EReal) (b : EReal) : EReal := Ideal.logistic (proj1 xr w b)

/-- The time constant tau of a row: 1 + 19 * logistic of its scalar projection. -/
def tau (xr : Fin 2048 → EReal) (w : Fin 2048 → EReal) (b : EReal) : EReal := c1 + c19 * Ideal.logistic (proj1 xr w b)

/-- The normalized key of a row. -/
def key (xr : Fin 2048 → EReal) (Wk : Fin 2048 → Fin 128 → EReal) (bk : Fin 128 → EReal) (j : Fin 128) : EReal :=
  normalize (proj xr Wk bk) j

/-- The clipped prediction error of a row: 2 * tanh((key S - value) / 2). -/
def erru (xr : Fin 2048 → EReal) (Wk : Fin 2048 → Fin 128 → EReal) (bk : Fin 128 → EReal)
    (Wv : Fin 2048 → Fin 128 → EReal) (bv : Fin 128 → EReal) (S : Fin 128 → Fin 128 → EReal) (j : Fin 128) : EReal :=
  c2 * Ideal.tanh (Ideal.div (mix (key xr Wk bk) S j - proj xr Wv bv j) c2)

/-! ## The batch -/

/-- The mean of a batch column: its sum over the 32768 rows, divided by 32768. -/
def colmean (f : Fin 32768 → EReal) : EReal := Ideal.div (∑ r : Fin 32768, f r) cB

/-- decay = logistic(-0.1) + 0.5, as both programs spell it: 1 / (1 + exp(-(-0.1))) + 0.5. -/
def decay : EReal := Ideal.div c1 (c1 + Ideal.exp (-cm01)) + c05

/-- The state update from the five column means: the new momentum and the new memory. -/
def momNew (kmean : Fin 128 → EReal) (errmean precmean : Fin 128 → EReal) (betamean : EReal)
    (mom : Fin 128 → Fin 128 → EReal) (i j : Fin 128) : EReal :=
  c09 * mom i j + c01 * (kmean i * (betamean * precmean j * errmean j))

def memNew (kmean : Fin 128 → EReal) (errmean precmean : Fin 128 → EReal) (betamean taumean : EReal)
    (S mom : Fin 128 → Fin 128 → EReal) (i j : Fin 128) : EReal :=
  (c1 - Ideal.div (c1 - decay) taumean) * S i j - c001 * momNew kmean errmean precmean betamean mom i j

/-! ## The five results as functions of the sixteen arguments -/

section Results

variable (x : Fin 32768 → Fin 2048 → EReal) (tgt : Fin 32768 → Fin 128 → EReal)
  (Wk : Fin 2048 → Fin 128 → EReal) (bk : Fin 128 → EReal)
  (Wv : Fin 2048 → Fin 128 → EReal) (bv : Fin 128 → EReal)
  (Wq : Fin 2048 → Fin 128 → EReal) (bq : Fin 128 → EReal)
  (Wbeta : Fin 2048 → EReal) (bbeta : EReal)
  (Wp : Fin 2048 → Fin 128 → EReal) (bp : Fin 128 → EReal)
  (Wtau : Fin 2048 → EReal) (btau : EReal)
  (S mom : Fin 128 → Fin 128 → EReal)

/-- Result 0: the free energy of each row. -/
def resF (r : Fin 32768) : EReal := free (x r) (tgt r) Wq bq Wp bp S
/-- Result 1: the precision of each row and feature. -/
def resPrec (r : Fin 32768) (j : Fin 128) : EReal := prec (x r) Wp bp j
/-- Result 2: the retrieval error of each row and feature. -/
def resErr (r : Fin 32768) (j : Fin 128) : EReal := err (x r) (tgt r) Wq bq S j

/-- The five column means. -/
def kMean (j : Fin 128) : EReal := colmean fun r => key (x r) Wk bk j
def errMean (j : Fin 128) : EReal := colmean fun r => erru (x r) Wk bk Wv bv S j
def precMean (j : Fin 128) : EReal := colmean fun r => prec (x r) Wp bp j
def betaMean : EReal := colmean fun r => beta (x r) Wbeta bbeta
def tauMean : EReal := colmean fun r => tau (x r) Wtau btau

/-- Result 4: the new momentum. -/
def resMom (i j : Fin 128) : EReal :=
  momNew (kMean x Wk bk) (errMean x Wk bk Wv bv S) (precMean x Wp bp) (betaMean x Wbeta bbeta) mom i j
/-- Result 3: the new memory. -/
def resMem (i j : Fin 128) : EReal :=
  memNew (kMean x Wk bk) (errMean x Wk bk Wv bv S) (precMean x Wp bp) (betaMean x Wbeta bbeta) (tauMean x Wtau btau) S mom i j

end Results

/-! ## Two cleanings both programs need -/

/-- jnp's softplus carries a not-a-number guard, `z - 0 ≠ z - 0`, that never fires on the extended reals,
    and spells `|z - 0|` for `|z|`. -/
theorem softplus_guarded (z : EReal) :
    (if (z - 0) ≠ (z - 0) then z + 0 else max z 0 + Ideal.log1p (Ideal.exp (-(max (z - 0) (-(z - 0)))))) = softplus z := by
  rw [if_neg (not_not.mpr rfl), sub_zero]; rfl

/-- `(p * e) * e = p * (e * e)`: multiplication of extended reals is associative, infinities included. -/
theorem mul_sq_assoc (p e : EReal) : p * e * e = p * (e * e) := mul_assoc p e e

end Cert.Spec

end
-- ==== Proof.LibBlockSums.lean ====
/-
  Sums over a range of rows that is cut into equal blocks, and accumulators that are set back to
  zero at the first block of each group.

  A range of `a * b * n` rows is read as `a` groups of `b` blocks of `n` rows: row
  `r = (c * b + i) * n + s` is row `s` of block `i` of group `c`.  The sum over all rows is the
  iterated sum over groups, blocks and rows.  An accumulator that is zeroed at the first block of
  each group and increased by `g t` at block `t` holds, after the last block of a group, the sum of
  `g` over that group's blocks.

  Everything is stated for an additive commutative monoid, so that it applies to the extended reals
  (where subtraction is not cancellative) as well as to numbers.
-/
import Mathlib.Algebra.BigOperators.Fin
import Mathlib.Data.Fintype.BigOperators
import Mathlib.Logic.Equiv.Fin.Basic

namespace Cert.Lib.BlockSums

open Finset

variable {M : Type*} [AddCommMonoid M]

/-! ## Cutting a range of rows into blocks -/

/-- Row `s` of block `i`, among `m` blocks of `n` rows, has a row number `i * n + s` below `m * n`. -/
theorem block_index_lt {m n : ℕ} (i : Fin m) (s : Fin n) : i.val * n + s.val < m * n :=
  calc i.val * n + s.val < i.val * n + n := Nat.add_lt_add_left s.isLt _
    _ = (i.val + 1) * n := (Nat.succ_mul _ _).symm
    _ ≤ m * n := Nat.mul_le_mul_right _ i.isLt

/-- Row `s` of block `i` of group `c`, among `a` groups of `b` blocks of `n` rows, has a row number
    `(c * b + i) * n + s` below `a * b * n`. -/
theorem group_block_index_lt {a b n : ℕ} (c : Fin a) (i : Fin b) (s : Fin n) :
    (c.val * b + i.val) * n + s.val < a * b * n :=
  block_index_lt (⟨c.val * b + i.val, block_index_lt c i⟩ : Fin (a * b)) s

/-- A sum over `m * n` rows is the sum, over the `m` blocks, of the sums over the `n` rows of each
    block: row `i * n + s` is row `s` of block `i`. -/
theorem sum_fin_mul (m n : ℕ) (f : Fin (m * n) → M) :
    ∑ r, f r = ∑ i : Fin m, ∑ s : Fin n, f ⟨i.val * n + s.val, block_index_lt i s⟩ := by
  rw [← finProdFinEquiv.sum_comp f, Fintype.sum_prod_type]
  refine Finset.sum_congr rfl fun i _ => Finset.sum_congr rfl fun s _ => ?_
  congr 1
  apply Fin.ext
  simp only [finProdFinEquiv_apply_val]
  rw [Nat.add_comm, Nat.mul_comm]

/-- A sum over `a * b * n` rows is the iterated sum over `a` groups, the `b` blocks of each group and
    the `n` rows of each block: row `(c * b + i) * n + s` is row `s` of block `i` of group `c`. -/
theorem sum_fin_blocks (a b n : ℕ) (f : Fin (a * b * n) → M) :
    ∑ r, f r = ∑ c : Fin a, ∑ i : Fin b, ∑ s : Fin n,
      f ⟨(c.val * b + i.val) * n + s.val, group_block_index_lt c i s⟩ := by
  rw [sum_fin_mul (a * b) n f,
    sum_fin_mul a b (fun q : Fin (a * b) => ∑ s : Fin n, f ⟨q.val * n + s.val, block_index_lt q s⟩)]

/-- Row `s` of block `i` of group `c`, among 2 groups of 16 blocks of 1024 rows, has a row number
    below 32768. -/
theorem index_lt_32768 (c : Fin 2) (i : Fin 16) (s : Fin 1024) :
    (c.val * 16 + i.val) * 1024 + s.val < 32768 :=
  group_block_index_lt (a := 2) (b := 16) (n := 1024) c i s

/-- The literal shape 2 groups × 16 blocks × 1024 rows = 32768 rows: a sum over 32768 rows is the
    iterated sum over the 2 groups, the 16 blocks of each group and the 1024 rows of each block. -/
theorem sum_fin_32768 (f : Fin 32768 → M) :
    ∑ r, f r = ∑ c : Fin 2, ∑ i : Fin 16, ∑ s : Fin 1024,
      f ⟨(c.val * 16 + i.val) * 1024 + s.val, index_lt_32768 c i s⟩ :=
  sum_fin_blocks 2 16 1024 f

/-! ## An accumulator that is set back to zero at the first block of each group -/

/-- Blocks are numbered `t = c * b + i` (block `i < b` of group `c`).  An accumulator that starts from
    zero at the first block of each group (`t % b = 0`), otherwise from its previous value, and is
    increased by `g t` at block `t`, holds after block `i` of group `c` the sum of `g` over the blocks
    `0, …, i` of that group. -/
theorem accumulate_reset {b : ℕ} (hb : 0 < b) (g acc : ℕ → M)
    (hacc : ∀ t, acc t = (if t % b = 0 then 0 else acc (t - 1)) + g t) (c : ℕ) :
    ∀ i, i < b → acc (c * b + i) = ∑ i' ∈ Finset.range (i + 1), g (c * b + i')
  | 0, _ => by
    rw [hacc, Nat.add_zero, if_pos (Nat.mul_mod_left c b), zero_add, Finset.sum_range_one,
      Nat.add_zero]
  | i + 1, hi => by
    have hmod : (c * b + (i + 1)) % b ≠ 0 := by
      rw [Nat.mul_add_mod_self_right, Nat.mod_eq_of_lt hi]
      exact Nat.succ_ne_zero i
    have hprev : c * b + (i + 1) - 1 = c * b + i := rfl
    rw [hacc, if_neg hmod, hprev, accumulate_reset hb g acc hacc c i (Nat.lt_of_succ_lt hi),
      Finset.sum_range_succ (fun i' => g (c * b + i')) (i + 1)]

/-- After the last block of group `c`, the accumulator holds the sum of `g` over all `b` blocks of the
    group. -/
theorem accumulate_reset_last {b : ℕ} (hb : 0 < b) (g acc : ℕ → M)
    (hacc : ∀ t, acc t = (if t % b = 0 then 0 else acc (t - 1)) + g t) (c : ℕ) :
    acc (c * b + (b - 1)) = ∑ i : Fin b, g (c * b + i.val) := by
  rw [accumulate_reset hb g acc hacc c (b - 1) (Nat.sub_lt hb Nat.one_pos),
    Nat.sub_add_cancel hb, Fin.sum_univ_eq_sum_range (fun i' => g (c * b + i')) b]

end Cert.Lib.BlockSums
-- ==== Proof.ValueDefsI.lean ====
/-
  The kernel's eight region outputs as whole-array functions of the sixteen arguments.

  Rows of the batch are numbered r = (core * 16 + tile) * 1024 + row-in-tile.  The free energy, precision and error
  arrays hold the row-wise quantities of the specification.  The five per-core arrays hold, for core q, the sums over
  that core's 16 tiles of 1024 rows of key, clipped error, precision, beta and tau.
-/
import proofs.«154947_j29875792511782_2_alg».proof.KernelIdeal
import proofs.«154947_j29875792511782_2_alg».proof.Proof.Spec
import proofs.«154947_j29875792511782_2_alg».proof.Proof.LibBlockSums
import Idealize.ShloMosaic.Lib.ValueIdx
import Idealize.ShloMosaic.PureOps.Ideal

noncomputable section

namespace Cert.KernelIdeal.ValueH

open Cert.KernelIdeal
open Idealize.ShloMosaic Idealize.ShloMosaic.TcCoe Idealize.ShloMosaic.ValueIdx Idealize.SL.Sem

variable (m : (ℓ : Loc nD τ sig) → Buf (Elt Ideal) ℓ) (c : Dev nD)

/-! ## The arguments, curried -/

def aX : Fin 32768 → Fin 2048 → EReal := fun r k => (m ((c : Thread nD τ).loc main_arg0) : S32768x2048.Idx → EReal) (ix2 r k)
def aT : Fin 32768 → Fin 128 → EReal := fun r j => (m ((c : Thread nD τ).loc main_arg1) : S32768x128.Idx → EReal) (ix2 r j)
def aWk : Fin 2048 → Fin 128 → EReal := fun k j => (m ((c : Thread nD τ).loc main_arg2) : S2048x128.Idx → EReal) (ix2 k j)
def abk : Fin 128 → EReal := fun j => (m ((c : Thread nD τ).loc main_arg3) : S128.Idx → EReal) (ix1 j)
def aWv : Fin 2048 → Fin 128 → EReal := fun k j => (m ((c : Thread nD τ).loc main_arg4) : S2048x128.Idx → EReal) (ix2 k j)
def abv : Fin 128 → EReal := fun j => (m ((c : Thread nD τ).loc main_arg5) : S128.Idx → EReal) (ix1 j)
def aWq : Fin 2048 → Fin 128 → EReal := fun k j => (m ((c : Thread nD τ).loc main_arg6) : S2048x128.Idx → EReal) (ix2 k j)
def abq : Fin 128 → EReal := fun j => (m ((c : Thread nD τ).loc main_arg7) : S128.Idx → EReal) (ix1 j)
def aWbeta : Fin 2048 → EReal := fun k => (m ((c : Thread nD τ).loc main_arg8) : S2048x1.Idx → EReal) (ix2 k (0 : Fin 1))
def abbeta : EReal := (m ((c : Thread nD τ).loc main_arg9) : S1.Idx → EReal) (ix1 (0 : Fin 1))
def aWp : Fin 2048 → Fin 128 → EReal := fun k j => (m ((c : Thread nD τ).loc main_arg10) : S2048x128.Idx → EReal) (ix2 k j)
def abp : Fin 128 → EReal := fun j => (m ((c : Thread nD τ).loc main_arg11) : S128.Idx → EReal) (ix1 j)
def aWtau : Fin 2048 → EReal := fun k => (m ((c : Thread nD τ).loc main_arg12) : S2048x1.Idx → EReal) (ix2 k (0 : Fin 1))
def abtau : EReal := (m ((c : Thread nD τ).loc main_arg13) : S1.Idx → EReal) (ix1 (0 : Fin 1))
def aS : Fin 128 → Fin 128 → EReal := fun k j => (m ((c : Thread nD τ).loc main_arg14) : S128x128.Idx → EReal) (ix2 k j)
def aMom : Fin 128 → Fin 128 → EReal := fun k j => (m ((c : Thread nD τ).loc main_arg15) : S128x128.Idx → EReal) (ix2 k j)

/-- The four 128-wide projections in the order the kernel fuses them: keys, values, queries, precision logits. -/
def W4 : Fin 4 → Fin 2048 → Fin 128 → EReal := ![aWk m c, aWv m c, aWq m c, aWp m c]
def B4 : Fin 4 → Fin 128 → EReal := ![abk m c, abv m c, abq m c, abp m c]

/-- Row `p` of tile `t` of the batch. -/
def rowOf (t : Fin 32) (p : Fin 1024) : Fin 32768 := ⟨t.val * 1024 + p.val, by have := t.isLt; have := p.isLt; omega⟩

/-- Row `p` of tile `q` of core `k`. -/
def rowOfCore (k : Fin 2) (q : Fin 16) (p : Fin 1024) : Fin 32768 := ⟨(k.val * 16 + q.val) * 1024 + p.val, Cert.Lib.BlockSums.index_lt_32768 k q p⟩

/-! ## The eight outputs as whole-array functions -/

/-- Window 9: the free energy of each row, as a column. -/
def G9 : S32768x1.Idx → EReal := fun i => Spec.resF (aX m c) (aT m c) (aWq m c) (abq m c) (aWp m c) (abp m c) (aS m c) (i 0)
/-- Window 10: the precision. -/
def G10 : S32768x128.Idx → EReal := fun i => Spec.resPrec (aX m c) (aWp m c) (abp m c) (i 0) (i 1)
/-- Window 11: the retrieval error. -/
def G11 : S32768x128.Idx → EReal := fun i => Spec.resErr (aX m c) (aT m c) (aWq m c) (abq m c) (aS m c) (i 0) (i 1)
/-- Window 12: per core, the sum of the normalized keys over the core's rows. -/
def G12 : S2x1x128.Idx → EReal := fun i => ∑ q : Fin 16, ∑ p : Fin 1024, Spec.key (aX m c (rowOfCore (i 0) q p)) (aWk m c) (abk m c) (i 2)
/-- Window 13: per core, the sum of the clipped prediction errors. -/
def G13 : S2x1x128.Idx → EReal := fun i => ∑ q : Fin 16, ∑ p : Fin 1024, Spec.erru (aX m c (rowOfCore (i 0) q p)) (aWk m c) (abk m c) (aWv m c) (abv m c) (aS m c) (i 2)
/-- Window 14: per core, the sum of the precisions. -/
def G14 : S2x1x128.Idx → EReal := fun i => ∑ q : Fin 16, ∑ p : Fin 1024, Spec.prec (aX m c (rowOfCore (i 0) q p)) (aWp m c) (abp m c) (i 2)
/-- Window 15: per core, the sum of the gates beta. -/
def G15 : S2x1x1.Idx → EReal := fun i => ∑ q : Fin 16, ∑ p : Fin 1024, Spec.beta (aX m c (rowOfCore (i 0) q p)) (aWbeta m c) (abbeta m c)
/-- Window 16: per core, the sum of the time constants tau. -/
def G16 : S2x1x1.Idx → EReal := fun i => ∑ q : Fin 16, ∑ p : Fin 1024, Spec.tau (aX m c (rowOfCore (i 0) q p)) (aWtau m c) (abtau m c)

end Cert.KernelIdeal.ValueH

end
-- ==== Proof.PayloadAt.lean ====
/-
  The kernel body's arithmetic, read one element at a time.

  Each value the body computes from the blocks it loads is a pure term over those blocks.  Here every such
  term is read at an index (a row p of the tile, a feature j) and identified with the row-by-row mathematics
  of Spec: the fused projection is a sum over the 2048 inputs plus a bias; its four column slices are the
  key, value, query and precision-logit projections; keys and queries are divided by their clamped Euclidean
  norm; and so on down to the five column sums over the tile's 1024 rows that are added into the accumulators.
-/
import proofs.«154947_j29875792511782_2_alg».proof.Proof.Spec
import proofs.«154947_j29875792511782_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PayloadAt

open Cert.KernelIdeal Cert.KernelIdeal.Gen Idealize.ShloMosaic Idealize.ShloMosaic.ValueIdx

/-! ## A matrix product read at an index

A product of an [m, n] block with an [n, c] block into the zero block is, at (p, q), the sum over the n
contracted coordinates of the products of row p of the left factor with column q of the right one.  For each
of the body's three products: the four coordinate facts about the operand indices, then the sum. -/

/-! ### The fused projection's product: [1024, 2048] times [2048, 512] -/

theorem wide_lhs0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl
theorem wide_lhs1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem wide_rhs0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem wide_rhs1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

theorem matmul_wide_at (a : FVec Ideal S1024x2048 .bf16) (b : FVec Ideal S2048x512 .bf16) (p : Fin 1024) (c : Fin 512) :
    matmul dot_S1024x2048_S2048x512_S1024x512_1_0_0_1_n_n none a b (constant (F := Ideal) S1024x512 .f32 0x00000000#32) (ix2 p c)
      = ∑ k : Fin 2048, a (ix2 p k) * b (ix2 k c) := by
  show FloatOps.matmul dot_S1024x2048_S2048x512_S1024x512_1_0_0_1_n_n none a b (constant (F := Ideal) S1024x512 .f32 0x00000000#32) (ix2 p c) = _
  rw [Ideal.matmul_constant_zero_apply,
    ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p c)
      ((contrEquiv1 dot_S1024x2048_S2048x512_S1024x512_1_0_0_1_n_n 2048 rfl rfl).symm k) = ix2 p k :=
    funext fun ax => Fin.ext (by
      match ax with
      | ⟨0, _⟩ => exact wide_lhs0 _ _
      | ⟨1, _⟩ => exact (wide_lhs1 _ _).trans hk)
  have er : dot_S1024x2048_S2048x512_S1024x512_1_0_0_1_n_n.rhsIdx (ix2 p c)
      ((contrEquiv1 dot_S1024x2048_S2048x512_S1024x512_1_0_0_1_n_n 2048 rfl rfl).symm k) = ix2 k c :=
    funext fun ax => Fin.ext (by
      match ax with
      | ⟨0, _⟩ => exact (wide_rhs0 _ _).trans hk
      | ⟨1, _⟩ => exact wide_rhs1 _ _)
  rw [el, er]

/-! ### A gate's product: [1024, 2048] times [2048, 1] -/

theorem gate_lhs0 (i : S1024x1.Idx) (q : dot_S1024x2048_S2048x1_S1024x1_1_0_0_1_n_n.contr.Idx) :
    (dot_S1024x2048_S2048x1_S1024x1_1_0_0_1_n_n.lhsIdx i q 0).val = (i 0).val := by
  unfold DotDims.lhsIdx
  rw [dif_neg (show ¬(0 : Fin S1024x2048.rank) ∈ dot_S1024x2048_S2048x1_S1024x1_1_0_0_1_n_n.lhsBatch by decide),
    dif_pos (show (0 : Fin S1024x2048.rank) ∈ dot_S1024x2048_S2048x1_S1024x1_1_0_0_1_n_n.lhsNonContracting by decide)]
  rfl
theorem gate_lhs1 (i : S1024x1.Idx) (q : dot_S1024x2048_S2048x1_S1024x1_1_0_0_1_n_n.contr.Idx) :
    (dot_S1024x2048_S2048x1_S1024x1_1_0_0_1_n_n.lhsIdx i q 1).val = (q ⟨0, by decide⟩).val :=
  dot_S1024x2048_S2048x1_S1024x1_1_0_0_1_n_n.lhsIdx_val_of_single rfl i q
theorem gate_rhs0 (i : S1024x1.Idx) (q : dot_S1024x2048_S2048x1_S1024x1_1_0_0_1_n_n.contr.Idx) :
    (dot_S1024x2048_S2048x1_S1024x1_1_0_0_1_n_n.rhsIdx i q 0).val = (q ⟨0, by decide⟩).val :=
  dot_S1024x2048_S2048x1_S1024x1_1_0_0_1_n_n.rhsIdx_val_of_single rfl i q
theorem gate_rhs1 (i : S1024x1.Idx) (q : dot_S1024x2048_S2048x1_S1024x1_1_0_0_1_n_n.contr.Idx) :
    (dot_S1024x2048_S2048x1_S1024x1_1_0_0_1_n_n.rhsIdx i q 1).val = (i 1).val := by
  unfold DotDims.rhsIdx
  rw [dif_neg (show ¬(1 : Fin S2048x1.rank) ∈ dot_S1024x2048_S2048x1_S1024x1_1_0_0_1_n_n.rhsBatch by decide),
    dif_pos (show (1 : Fin S2048x1.rank) ∈ dot_S1024x2048_S2048x1_S1024x1_1_0_0_1_n_n.rhsNonContracting by decide)]
  rfl

theorem matmul_gate_at (a : FVec Ideal S1024x2048 .f32) (b : FVec Ideal S2048x1 .f32) (p : Fin 1024) (c : Fin 1) :
    matmul dot_S1024x2048_S2048x1_S1024x1_1_0_0_1_n_n none a b (constant (F := Ideal) S1024x1 .f32 0x00000000#32) (ix2 p c)
      = ∑ k : Fin 2048, a (ix2 p k) * b (ix2 k c) := by
  show FloatOps.matmul dot_S1024x2048_S2048x1_S1024x1_1_0_0_1_n_n none a b (constant (F := Ideal) S1024x1 .f32 0x00000000#32) (ix2 p c) = _
  rw [Ideal.matmul_constant_zero_apply,
    ← Equiv.sum_comp (contrEquiv1 dot_S1024x2048_S2048x1_S1024x1_1_0_0_1_n_n 2048 rfl rfl).symm]
  refine Finset.sum_congr rfl fun k _ => ?_
  have hk := contrEquiv1_symm_val dot_S1024x2048_S2048x1_S1024x1_1_0_0_1_n_n 2048 rfl rfl k
  have el : dot_S1024x2048_S2048x1_S1024x1_1_0_0_1_n_n.lhsIdx (ix2 p c)
      ((contrEquiv1 dot_S1024x2048_S2048x1_S1024x1_1_0_0_1_n_n 2048 rfl rfl).symm k) = ix2 p k :=
    funext fun ax => Fin.ext (by
      match ax with
      | ⟨0, _⟩ => exact gate_lhs0 _ _
      | ⟨1, _⟩ => exact (gate_lhs1 _ _).trans hk)
  have er : dot_S1024x2048_S2048x1_S1024x1_1_0_0_1_n_n.rhsIdx (ix2 p c)
      ((contrEquiv1 dot_S1024x2048_S2048x1_S1024x1_1_0_0_1_n_n 2048 rfl rfl).symm k) = ix2 k c :=
    funext fun ax => Fin.ext (by
      match ax with
      | ⟨0, _⟩ => exact (gate_rhs0 _ _).trans hk
      | ⟨1, _⟩ => exact gate_rhs1 _ _)
  rw [el, er]

/-! ### A product with the memory matrix: [1024, 128] times [128, 128] -/

theorem mem_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem mem_lhs1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem mem_rhs0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem mem_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

theorem matmul_mem_at (a : FVec Ideal S1024x128 .f32) (b : FVec Ideal S128x128 .f32) (p : Fin 1024) (c : Fin 128) :
    matmul dot_S1024x128_S128x128_S1024x128_1_0_0_1_n_n none a b (constant (F := Ideal) S1024x128 .f32 0x00000000#32) (ix2 p c)
      = ∑ k : Fin 128, a (ix2 p k) * b (ix2 k c) := by
  show FloatOps.matmul dot_S1024x128_S128x128_S1024x128_1_0_0_1_n_n none a b (constant (F := Ideal) S1024x128 .f32 0x00000000#32) (ix2 p c) = _
  rw [Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p c)
      ((contrEquiv1 dot_S1024x128_S128x128_S1024x128_1_0_0_1_n_n 128 rfl rfl).symm k) = ix2 p k :=
    funext fun ax => Fin.ext (by
      match ax with
      | ⟨0, _⟩ => exact mem_lhs0 _ _
      | ⟨1, _⟩ => exact (mem_lhs1 _ _).trans hk)
  have er : dot_S1024x128_S128x128_S1024x128_1_0_0_1_n_n.rhsIdx (ix2 p c)
      ((contrEquiv1 dot_S1024x128_S128x128_S1024x128_1_0_0_1_n_n 128 rfl rfl).symm k) = ix2 k c :=
    funext fun ax => Fin.ext (by
      match ax with
      | ⟨0, _⟩ => exact (mem_rhs0 _ _).trans hk
      | ⟨1, _⟩ => exact mem_rhs1 _ _)
  rw [el, er]

/-! ## Layout forms the body uses and the library lacks

A sum over the features keeps its axis as a unit axis: [a] viewed [a, 1], then [a, 1] spread over [a, b]. -/

section Layout
variable {α : Type}

/-- An [a] vector viewed as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a [1024, 128] block, and of a [1024, 1] column -/

/-- The sum over the 128 features of row p. -/
theorem laneSum_at (src : FVec Ideal S1024x128 .f32) (p : Fin 1024) :
    multiReduction (F := Ideal) .add [1] S1024 src 0x00000000#32 reduces_S1024x128_S1024 (.inl rfl) rfl (ix1 p)
      = ∑ j : Fin 128, src (ix2 p j) := by
  refine (Ideal.multiReduction_add_single src 0x00000000#32 reduces_S1024x128_S1024 (.inl rfl) rfl (ix1 p)).trans ?_
  refine Finset.sum_congr rfl fun k _ => congrArg src (funext fun ax => Fin.ext ?_)
  match ax with
  | ⟨0, _⟩ => rfl
  | ⟨1, _⟩ => rfl

/-- The sum over the 1024 rows of feature j. -/
theorem colSum_at (src : FVec Ideal S1024x128 .f32) (j : Fin 128) :
    multiReduction (F := Ideal) .add [0] S128 src 0x00000000#32 reduces_S1024x128_S128 (.inl rfl) rfl (ix1 j)
      = ∑ p : Fin 1024, src (ix2 p j) := by
  refine (Ideal.multiReduction_add_single src 0x00000000#32 reduces_S1024x128_S128 (.inl rfl) rfl (ix1 j)).trans ?_
  refine Finset.sum_congr rfl fun k _ => congrArg src (funext fun ax => Fin.ext ?_)
  match ax with
  | ⟨0, _⟩ => rfl
  | ⟨1, _⟩ => rfl

/-- The sum over the 1024 rows of a one-feature column. -/
theorem colSum1_at (src : FVec Ideal S1024x1 .f32) (u : Fin 1) :
    multiReduction (F := Ideal) .add [0] S1 src 0x00000000#32 reduces_S1024x1_S1 (.inl rfl) rfl (ix1 u)
      = ∑ p : Fin 1024, src (ix2 p (0 : Fin 1)) := by
  refine (Ideal.multiReduction_add_single src 0x00000000#32 reduces_S1024x1_S1 (.inl rfl) rfl (ix1 u)).trans ?_
  refine Finset.sum_congr rfl fun k _ => congrArg src (funext fun ax => Fin.ext ?_)
  match ax with
  | ⟨0, _⟩ => rfl
  | ⟨1, _⟩ =>
    show u.val = 0
    omega

/-! ## The fused projection and its four column slices

Column 128 * b + j of the fused weights is column j of the b-th projection (b = 0 keys, 1 values, 2 queries,
3 precision logits); likewise for the fused bias. -/

/-- The fused projection at row p, column c: the row times column c of the fused weights, plus the fused bias at c.
    The change of format on the way into the product is the identity on extended reals. -/
theorem fused_at (x0 : Vec Ideal S1024x2048 .f32) (w : Vec Ideal S2048x512 .bf16) (bias : Vec Ideal S512 .f32)
    (p : Fin 1024) (c : Fin 512) :
    k0_pay7 x0 w bias (ix2 p c) = (∑ k : Fin 2048, x0 (ix2 p k) * w (ix2 k c)) + bias (ix1 c) := by
  show matmul dot_S1024x2048_S2048x512_S1024x512_1_0_0_1_n_n none (truncf .bf16 x0 bitsLt_bf16_f32)
        (shapeCast S2048x512 w shapeCasts_S2048x512_S2048x512) (constant (F := Ideal) S1024x512 .f32 0x00000000#32) (ix2 p c)
      + broadcastTo S1024x512 (shapeCast S1x512 (shapeCast S512 bias shapeCasts_S512_S512) shapeCasts_S512_S1x512)
          broadcasts_S1x512_S1024x512 (ix2 p c) = _
  rw [matmul_wide_at, broadcastTo_1b_ab_apply, shapeCast_a_1a_apply, shapeCast_self, shapeCast_self]
  rfl

section Slices
variable (x0 : Vec Ideal S1024x2048 .f32) (w : Vec Ideal S2048x512 .bf16) (bias : Vec Ideal S512 .f32)
  (W : Fin 4 → Fin 2048 → Fin 128 → EReal)
  (hW : ∀ (b : Fin 4) (k : Fin 2048) (j : Fin 128), w (ix2 k ⟨128 * b.val + j.val, by omega⟩) = W b k j)
  (B : Fin 4 → Fin 128 → EReal)
  (hB : ∀ (b : Fin 4) (j : Fin 128), bias (ix1 ⟨128 * b.val + j.val, by omega⟩) = B b j)
  (p : Fin 1024) (j : Fin 128)
include hW hB

/-- The fused projection at column 128 * b + j is the b-th projection of the row at feature j. -/
theorem fused_col_at (b : Fin 4) :
    k0_pay7 x0 w bias (ix2 p ⟨128 * b.val + j.val, by omega⟩) = Spec.proj (fun k => x0 (ix2 p k)) (W b) (B b) j := by
  rw [fused_at, hB]
  unfold Spec.proj
  exact congrArg (· + B b j) (Finset.sum_congr rfl fun k _ => by rw [hW])

/-- A 128-wide column slice of the fused projection starting at column 128 * b. -/
theorem slice_at (b : Fin 4) (o : ℕ) (ho : o = 128 * b.val) (h : S1024x512.Slices ![0, o] S1024x128) :
    extractStridedSlice S1024x128 ![0, o] (k0_pay7 x0 w bias) h (ix2 p j) = Spec.proj (fun k => x0 (ix2 p k)) (W b) (B b) j := by
  subst ho
  exact (slice2_axis1_apply (128 * b.val) (k0_pay7 x0 w bias) h p j ⟨128 * b.val + j.val, by omega⟩ rfl).trans
    (fused_col_at x0 w bias W hW B hB p j b)

/-- The value projection (the slice at columns 128 to 255). -/
theorem value_at : k0_pay8 x0 w bias (ix2 p j) = Spec.proj (fun k => x0 (ix2 p k)) (W 1) (B 1) j :=
  slice_at x0 w bias W hW B hB p j 1 128 rfl slices_S1024x512_o0_128_S1024x128

/-- The precision logit (the slice at columns 384 to 511). -/
theorem logit_at : k0_pay9 x0 w bias (ix2 p j) = Spec.proj (fun k => x0 (ix2 p k)) (W 3) (B 3) j :=
  slice_at x0 w bias W hW B hB p j 3 384 rfl slices_S1024x512_o0_384_S1024x128

end Slices

/-! ## Division by the clamped Euclidean norm -/

/-- A [1024, 128] block t divided by the norm of each of its rows, clamped below: at (p, j) it is row p normalized, at feature j. -/
theorem normalize_at (t : FVec Ideal S1024x128 .f32) (p : Fin 1024) (j : Fin 128) :
    divf t (broadcastTo S1024x128
        (maximumf
          (sqrt (shapeCast S1024x1
            (multiReduction (F := Ideal) .add [1] S1024 (mulf t t) 0x00000000#32 reduces_S1024x128_S1024 (.inl rfl) rfl)
            shapeCasts_S1024_S1024x1))
          (broadcast S1024x1 (Scalar.ofBits (F := Ideal) .f32 0x2B8CBCCC#32)))
        broadcasts_S1024x1_S1024x128) (ix2 p j)
      = Spec.normalize (fun j => t (ix2 p j)) j := by
  refine (divf_apply _ _ _).trans ?_
  rw [broadcastTo_a1_ab_apply]
  show Ideal.div (t (ix2 p j))
      (max (Ideal.sqrt (shapeCast S1024x1
            (multiReduction (F := Ideal) .add [1] S1024 (mulf t t) 0x00000000#32 reduces_S1024x128_S1024 (.inl rfl) rfl)
            shapeCasts_S1024_S1024x1 (ix2 p (0 : Fin 1))))
        (Ideal.ofBits .f32 0x2B8CBCCC#32)) = _
  rw [shapeCast_a_a1_apply, laneSum_at]
  rfl

section Keys
variable (x0 : Vec Ideal S1024x2048 .f32) (w : Vec Ideal S2048x512 .bf16) (bias : Vec Ideal S512 .f32)
  (W : Fin 4 → Fin 2048 → Fin 128 → EReal)
  (hW : ∀ (b : Fin 4) (k : Fin 2048) (j : Fin 128), w (ix2 k ⟨128 * b.val + j.val, by omega⟩) = W b k j)
  (B : Fin 4 → Fin 128 → EReal)
  (hB : ∀ (b : Fin 4) (j : Fin 128), bias (ix1 ⟨128 * b.val + j.val, by omega⟩) = B b j)
  (p : Fin 1024) (j : Fin 128)
include hW hB

/-- The normalized key. -/
theorem key_at : k0_pay10 x0 w bias (ix2 p j) = Spec.key (fun k => x0 (ix2 p k)) (W 0) (B 0) j := by
  have e : (fun j => extractStridedSlice S1024x128 ![0, 0] (k0_pay7 x0 w bias) slices_S1024x512_o0_0_S1024x128 (ix2 p j))
      = Spec.proj (fun k => x0 (ix2 p k)) (W 0) (B 0) :=
    funext fun j => slice_at x0 w bias W hW B hB p j 0 0 rfl slices_S1024x512_o0_0_S1024x128
  unfold k0_pay10
  dsimp only
  refine (normalize_at _ p j).trans ?_
  rw [e]
  rfl

/-- The normalized query. -/
theorem query_at : k0_pay11 x0 w bias (ix2 p j) = Spec.normalize (Spec.proj (fun k => x0 (ix2 p k)) (W 2) (B 2)) j := by
  have e : (fun j => extractStridedSlice S1024x128 ![0, 256] (k0_pay7 x0 w bias) slices_S1024x512_o0_256_S1024x128 (ix2 p j))
      = Spec.proj (fun k => x0 (ix2 p k)) (W 2) (B 2) :=
    funext fun j => slice_at x0 w bias W hW B hB p j 2 256 rfl slices_S1024x512_o0_256_S1024x128
  unfold k0_pay11
  dsimp only
  refine (normalize_at _ p j).trans ?_
  rw [e]

end Keys

/-! ## The precision: softplus of the logit, plus 0.01

The body spells softplus with a guard `z - 0 ≠ z - 0` that is never true of an extended real, with `z + 0` in the
dead branch, and with `0 - |z - 0|` for `-|z|`. -/

/-- The body's spelling of softplus, at one number. -/
theorem softplus_spelt (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = Spec.softplus z := by
  have hc : Ideal.cmp .one (z - 0) (z - 0) = 0#1 := by
    show BitVec.ofBool (decide ((z - 0) ≠ (z - 0))) = 0#1
    rw [decide_eq_false (not_not.mpr rfl)]
    rfl
  rw [Ideal.ofBits_zero_f32, hc, select_zero, sub_zero, zero_sub]
  rfl

/-- The precision at (p, j), from the logit block z: the four pieces the body hands on (max z 0, the guard, z + 0,
    0 - |z - 0|) are all read at (p, j). -/
theorem prec_of_logit (z : FVec Ideal S1024x128 .f32) (p : Fin 1024) (j : Fin 128) :
    k0_pay17
        (maximumf z (broadcast S1024x128 (Scalar.ofBits (F := Ideal) .f32 0x00000000#32)))
        (cmpf .one (subf z (broadcast S1024x128 (Scalar.ofBits (F := Ideal) .f32 0x00000000#32)))
          (subf z (broadcast S1024x128 (Scalar.ofBits (F := Ideal) .f32 0x00000000#32))))
        (addf z (broadcast S1024x128 (Scalar.ofBits (F := Ideal) .f32 0x00000000#32)))
        (subf (broadcast S1024x128 (Scalar.ofBits (F := Ideal) .f32 0x00000000#32))
          (absf (subf z (broadcast S1024x128 (Scalar.ofBits (F := Ideal) .f32 0x00000000#32)))))
        (ix2 p j)
      = Spec.softplus (z (ix2 p j)) + Spec.c001 := by
  unfold k0_pay17
  show Scalar.select (Ideal.cmp .one (z (ix2 p j) - Ideal.ofBits .f32 0x00000000#32) (z (ix2 p j) - Ideal.ofBits .f32 0x00000000#32))
        (z (ix2 p j) + Ideal.ofBits .f32 0x00000000#32)
        (max (z (ix2 p j)) (Ideal.ofBits .f32 0x00000000#32)
          + Ideal.log1p (Ideal.exp (Ideal.ofBits .f32 0x00000000#32
              - max (z (ix2 p j) - Ideal.ofBits .f32 0x00000000#32) (-(z (ix2 p j) - Ideal.ofBits .f32 0x00000000#32)))))
      + Ideal.ofBits .f32 0x3C23D70A#32 = _
  rw [softplus_spelt]
  rfl

section Prec
variable (x0 : Vec Ideal S1024x2048 .f32) (w : Vec Ideal S2048x512 .bf16) (bias : Vec Ideal S512 .f32)
  (W : Fin 4 → Fin 2048 → Fin 128 → EReal)
  (hW : ∀ (b : Fin 4) (k : Fin 2048) (j : Fin 128), w (ix2 k ⟨128 * b.val + j.val, by omega⟩) = W b k j)
  (B : Fin 4 → Fin 128 → EReal)
  (hB : ∀ (b : Fin 4) (j : Fin 128), bias (ix1 ⟨128 * b.val + j.val, by omega⟩) = B b j)
  (p : Fin 1024) (j : Fin 128)
include hW hB

/-- The precision. -/
theorem prec_at :
    k0_pay17 (k0_pay12 x0 w bias) (k0_pay14 x0 w bias) (k0_pay15 x0 w bias) (k0_pay16 x0 w bias) (ix2 p j)
      = Spec.prec (fun k => x0 (ix2 p k)) (W 3) (B 3) j := by
  unfold k0_pay12 k0_pay14 k0_pay15 k0_pay16 k0_pay13
  dsimp only
  refine (prec_of_logit (k0_pay9 x0 w bias) p j).trans ?_
  rw [logit_at x0 w bias W hW B hB p j]
  rfl

end Prec

/-! ## The two gates -/

/-- A gate's scalar projection at row p: the row times the gate's weight column, plus its one bias. -/
theorem gate_proj_at (x0 : Vec Ideal S1024x2048 .f32) (g : Vec Ideal S2048x1 .f32) (gb : Vec Ideal S1 .f32) (p : Fin 1024) :
    addf (matmul (φ₁ := .f32) (φ₂ := .f32) dot_S1024x2048_S2048x1_S1024x1_1_0_0_1_n_n none x0 g (constant (F := Ideal) S1024x1 .f32 0x00000000#32))
        (broadcastTo S1024x1 (shapeCast S1x1 gb shapeCasts_S1_S1x1) broadcasts_S1x1_S1024x1) (ix2 p (0 : Fin 1))
      = Spec.proj1 (fun k => x0 (ix2 p k)) (fun k => g (ix2 k (0 : Fin 1))) (gb (ix1 (0 : Fin 1))) := by
  refine (addf_apply _ _ _).trans ?_
  rw [matmul_gate_at, broadcastTo_1b_ab_apply, shapeCast_a_1a_apply]
  rfl

/-- beta: the logistic of its scalar projection. -/
theorem beta_at (x0 : Vec Ideal S1024x2048 .f32) (wb : Vec Ideal S2048x1 .f32) (bb : Vec Ideal S1 .f32) (p : Fin 1024) :
    k0_pay18 x0 wb bb (ix2 p (0 : Fin 1))
      = Spec.beta (fun k => x0 (ix2 p k)) (fun k => wb (ix2 k (0 : Fin 1))) (bb (ix1 (0 : Fin 1))) := by
  unfold k0_pay18
  show Ideal.logistic (addf (matmul (φ₁ := .f32) (φ₂ := .f32) dot_S1024x2048_S2048x1_S1024x1_1_0_0_1_n_n none x0 wb (constant (F := Ideal) S1024x1 .f32 0x00000000#32))
        (broadcastTo S1024x1 (shapeCast S1x1 bb shapeCasts_S1_S1x1) broadcasts_S1x1_S1024x1) (ix2 p (0 : Fin 1))) = _
  rw [gate_proj_at]
  rfl

/-- tau: 1 + 19 times the logistic of its scalar projection. -/
theorem tau_at (x0 : Vec Ideal S1024x2048 .f32) (wt : Vec Ideal S2048x1 .f32) (bt : Vec Ideal S1 .f32) (p : Fin 1024) :
    k0_pay19 x0 wt bt (ix2 p (0 : Fin 1))
      = Spec.tau (fun k => x0 (ix2 p k)) (fun k => wt (ix2 k (0 : Fin 1))) (bt (ix1 (0 : Fin 1))) := by
  unfold k0_pay19
  show Ideal.ofBits .f32 0x3F800000#32 + Ideal.ofBits .f32 0x41980000#32
      * Ideal.logistic (addf (matmul (φ₁ := .f32) (φ₂ := .f32) dot_S1024x2048_S2048x1_S1024x1_1_0_0_1_n_n none x0 wt (constant (F := Ideal) S1024x1 .f32 0x00000000#32))
        (broadcastTo S1024x1 (shapeCast S1x1 bt shapeCasts_S1_S1x1) broadcasts_S1x1_S1024x1) (ix2 p (0 : Fin 1))) = _
  rw [gate_proj_at]
  rfl

/-! ## The retrieval error, the free energy and the clipped prediction error -/

/-- A block q times the memory matrix, at (p, j): row p of q mixed through the memory. -/
theorem mix_at (q : FVec Ideal S1024x128 .f32) (S : Vec Ideal S128x128 .f32) (p : Fin 1024) (j : Fin 128) :
    matmul (φ₁ := .f32) (φ₂ := .f32) dot_S1024x128_S128x128_S1024x128_1_0_0_1_n_n none q S (constant (F := Ideal) S1024x128 .f32 0x00000000#32) (ix2 p j)
      = Spec.mix (fun k => q (ix2 p k)) (fun k j => S (ix2 k j)) j :=
  matmul_mem_at q S p j

/-- The error from a query block q: the target minus q mixed through the memory. -/
theorem err_of_query (q : FVec Ideal S1024x128 .f32) (S : Vec Ideal S128x128 .f32) (tg : Vec Ideal S1024x128 .f32)
    (p : Fin 1024) (j : Fin 128) :
    k0_pay20 q S tg (ix2 p j) = tg (ix2 p j) - Spec.mix (fun k => q (ix2 p k)) (fun k j => S (ix2 k j)) j := by
  unfold k0_pay20
  refine (subf_apply _ _ _).trans ?_
  rw [mix_at]

/-- The free energy of row p from a precision block and an error block: the mean over the features of
    precision * error * error - log precision, as the body associates the product. -/
theorem free_of_blocks (pr er : FVec Ideal S1024x128 .f32) (p : Fin 1024) :
    divf (shapeCast S1024x1
          (multiReduction (F := Ideal) .add [1] S1024 (subf (mulf (mulf pr er) er) (log pr)) 0x00000000#32
            reduces_S1024x128_S1024 (.inl rfl) rfl)
          shapeCasts_S1024_S1024x1)
        (broadcast S1024x1 (Scalar.ofBits (F := Ideal) .f32 0x43000000#32)) (ix2 p (0 : Fin 1))
      = Ideal.div (∑ j : Fin 128, (pr (ix2 p j) * (er (ix2 p j) * er (ix2 p j)) - Ideal.log (pr (ix2 p j)))) Spec.c128 := by
  refine (divf_apply _ _ _).trans ?_
  rw [shapeCast_a_a1_apply, laneSum_at]
  refine congrArg (fun s => Ideal.div s Spec.c128) (Finset.sum_congr rfl fun j _ => ?_)
  show pr (ix2 p j) * er (ix2 p j) * er (ix2 p j) - Ideal.log (pr (ix2 p j)) = _
  rw [Spec.mul_sq_assoc]

section Composed
variable (x0 : Vec Ideal S1024x2048 .f32) (w : Vec Ideal S2048x512 .bf16) (bias : Vec Ideal S512 .f32)
  (W : Fin 4 → Fin 2048 → Fin 128 → EReal)
  (hW : ∀ (b : Fin 4) (k : Fin 2048) (j : Fin 128), w (ix2 k ⟨128 * b.val + j.val, by omega⟩) = W b k j)
  (B : Fin 4 → Fin 128 → EReal)
  (hB : ∀ (b : Fin 4) (j : Fin 128), bias (ix1 ⟨128 * b.val + j.val, by omega⟩) = B b j)
  (S : Vec Ideal S128x128 .f32) (tg : Vec Ideal S1024x128 .f32)
  (p : Fin 1024) (j : Fin 128)
include hW hB

/-- The retrieval error. -/
theorem err_at :
    k0_pay20 (k0_pay11 x0 w bias) S tg (ix2 p j)
      = Spec.err (fun k => x0 (ix2 p k)) (fun j => tg (ix2 p j)) (W 2) (B 2) (fun k j => S (ix2 k j)) j := by
  have e : (fun k => k0_pay11 x0 w bias (ix2 p k)) = Spec.normalize (Spec.proj (fun k => x0 (ix2 p k)) (W 2) (B 2)) :=
    funext fun k => query_at x0 w bias W hW B hB p k
  rw [err_of_query, e]
  rfl

/-- The free energy of the row. -/
theorem free_at :
    k0_pay21 (k0_pay11 x0 w bias) (k0_pay12 x0 w bias) (k0_pay14 x0 w bias) (k0_pay15 x0 w bias) (k0_pay16 x0 w bias) S tg
        (ix2 p (0 : Fin 1))
      = Spec.free (fun k => x0 (ix2 p k)) (fun j => tg (ix2 p j)) (W 2) (B 2) (W 3) (B 3) (fun k j => S (ix2 k j)) := by
  unfold k0_pay21
  refine (free_of_blocks _ _ p).trans ?_
  unfold Spec.free
  refine congrArg (fun s => Ideal.div s Spec.c128) (Finset.sum_congr rfl fun j _ => ?_)
  rw [prec_at x0 w bias W hW B hB p j, err_at x0 w bias W hW B hB S tg p j]

/-- The clipped prediction error: 2 * tanh of half of (key mixed through the memory, minus the value). -/
theorem erru_at :
    Spec.c2 * Ideal.tanh (k0_pay22 (k0_pay8 x0 w bias) (k0_pay10 x0 w bias) S (ix2 p j))
      = Spec.erru (fun k => x0 (ix2 p k)) (W 0) (B 0) (W 1) (B 1) (fun k j => S (ix2 k j)) j := by
  have e : (fun k => k0_pay10 x0 w bias (ix2 p k)) = Spec.key (fun k => x0 (ix2 p k)) (W 0) (B 0) :=
    funext fun k => key_at x0 w bias W hW B hB p k
  unfold k0_pay22
  unfold Spec.erru
  refine congrArg (fun t => Spec.c2 * Ideal.tanh t) ?_
  refine (divf_apply _ _ _).trans ?_
  refine congrArg (fun t => Ideal.div t Spec.c2) ?_
  refine (subf_apply _ _ _).trans ?_
  rw [mix_at, e, value_at x0 w bias W hW B hB p j]

end Composed

/-! ## The five accumulator updates: the loaded accumulator plus a column sum over the tile's 1024 rows -/

/-- An accumulator row plus the column sums of a [1024, 128] block. -/
theorem acc_row_at (src : FVec Ideal S1024x128 .f32) (acc : Vec Ideal S1x128 .f32) (j : Fin 128) :
    shapeCast S1x128
        (addf acc (shapeCast S1x128
          (multiReduction (F := Ideal) .add [0] S128 src 0x00000000#32 reduces_S1024x128_S128 (.inl rfl) rfl)
          shapeCasts_S128_S1x128))
        shapeCasts_S1x128_S1x128 (ix2 (0 : Fin 1) j)
      = acc (ix2 (0 : Fin 1) j) + ∑ p : Fin 1024, src (ix2 p j) := by
  rw [shapeCast_self]
  refine (addf_apply _ _ _).trans ?_
  rw [shapeCast_a_1a_apply, colSum_at]

/-- A one-entry accumulator plus the sum of a [1024, 1] column. -/
theorem acc_one_at (src : FVec Ideal S1024x1 .f32) (acc : Vec Ideal S1x1 .f32) :
    shapeCast S1x1
        (addf acc (shapeCast S1x1
          (multiReduction (F := Ideal) .add [0] S1 src 0x00000000#32 reduces_S1024x1_S1 (.inl rfl) rfl)
          shapeCasts_S1_S1x1))
        shapeCasts_S1x1_S1x1 (ix2 (0 : Fin 1) (0 : Fin 1))
      = acc (ix2 (0 : Fin 1) (0 : Fin 1)) + ∑ p : Fin 1024, src (ix2 p (0 : Fin 1)) := by
  rw [shapeCast_self]
  refine (addf_apply _ _ _).trans ?_
  rw [shapeCast_a_1a_apply, colSum1_at]

/-- The key accumulator's update, over any key block. -/
theorem acc_key_of (v24 : FVec Ideal S1024x128 .f32) (v86 : Vec Ideal S1x128 .f32) (j : Fin 128) :
    k0_pay23 v24 v86 (ix2 (0 : Fin 1) j) = v86 (ix2 (0 : Fin 1) j) + ∑ p : Fin 1024, v24 (ix2 p j) := by
  unfold k0_pay23
  exact acc_row_at v24 v86 j

/-- The clipped-error accumulator's update, over any block of half-differences: the summand is 2 * tanh of the block. -/
theorem acc_erru_of (v82 : FVec Ideal S1024x128 .f32) (v93 : Vec Ideal S1x128 .f32) (j : Fin 128) :
    k0_pay24 v82 v93 (ix2 (0 : Fin 1) j)
      = v93 (ix2 (0 : Fin 1) j) + ∑ p : Fin 1024, Spec.c2 * Ideal.tanh (v82 (ix2 p j)) := by
  unfold k0_pay24
  refine (acc_row_at _ v93 j).trans ?_
  rfl

/-- The precision accumulator's update, over any precision block. -/
theorem acc_prec_of (v48 : FVec Ideal S1024x128 .f32) (v100 : Vec Ideal S1x128 .f32) (j : Fin 128) :
    k0_pay25 v48 v100 (ix2 (0 : Fin 1) j) = v100 (ix2 (0 : Fin 1) j) + ∑ p : Fin 1024, v48 (ix2 p j) := by
  unfold k0_pay25
  exact acc_row_at v48 v100 j

/-- The beta accumulator's update, over any beta column. -/
theorem acc_beta_of (v55 : FVec Ideal S1024x1 .f32) (v107 : Vec Ideal S1x1 .f32) :
    k0_pay26 v55 v107 (ix2 (0 : Fin 1) (0 : Fin 1))
      = v107 (ix2 (0 : Fin 1) (0 : Fin 1)) + ∑ p : Fin 1024, v55 (ix2 p (0 : Fin 1)) := by
  unfold k0_pay26
  exact acc_one_at v55 v107

/-- The tau accumulator's update, over any tau column. -/
theorem acc_tau_of (v66 : FVec Ideal S1024x1 .f32) (v114 : Vec Ideal S1x1 .f32) :
    k0_pay27 v66 v114 (ix2 (0 : Fin 1) (0 : Fin 1))
      = v114 (ix2 (0 : Fin 1) (0 : Fin 1)) + ∑ p : Fin 1024, v66 (ix2 p (0 : Fin 1)) := by
  unfold k0_pay27
  exact acc_one_at v66 v114

/-! ## The five updates with the row quantities in place -/

section Updates
variable (x0 : Vec Ideal S1024x2048 .f32) (w : Vec Ideal S2048x512 .bf16) (bias : Vec Ideal S512 .f32)
  (W : Fin 4 → Fin 2048 → Fin 128 → EReal)
  (hW : ∀ (b : Fin 4) (k : Fin 2048) (j : Fin 128), w (ix2 k ⟨128 * b.val + j.val, by omega⟩) = W b k j)
  (B : Fin 4 → Fin 128 → EReal)
  (hB : ∀ (b : Fin 4) (j : Fin 128), bias (ix1 ⟨128 * b.val + j.val, by omega⟩) = B b j)
  (S : Vec Ideal S128x128 .f32) (j : Fin 128)
include hW hB

/-- The key accumulator gains the tile's column sum of the normalized keys. -/
theorem acc_key_at (v86 : Vec Ideal S1x128 .f32) :
    k0_pay23 (k0_pay10 x0 w bias) v86 (ix2 (0 : Fin 1) j)
      = v86 (ix2 (0 : Fin 1) j) + ∑ p : Fin 1024, Spec.key (fun k => x0 (ix2 p k)) (W 0) (B 0) j := by
  rw [acc_key_of]
  exact congrArg (v86 (ix2 (0 : Fin 1) j) + ·) (Finset.sum_congr rfl fun p _ => key_at x0 w bias W hW B hB p j)

/-- The clipped-error accumulator gains the tile's column sum of the clipped prediction errors. -/
theorem acc_erru_at (v93 : Vec Ideal S1x128 .f32) :
    k0_pay24 (k0_pay22 (k0_pay8 x0 w bias) (k0_pay10 x0 w bias) S) v93 (ix2 (0 : Fin 1) j)
      = v93 (ix2 (0 : Fin 1) j)
        + ∑ p : Fin 1024, Spec.erru (fun k => x0 (ix2 p k)) (W 0) (B 0) (W 1) (B 1) (fun k j => S (ix2 k j)) j := by
  rw [acc_erru_of]
  exact congrArg (v93 (ix2 (0 : Fin 1) j) + ·) (Finset.sum_congr rfl fun p _ => erru_at x0 w bias W hW B hB S p j)

/-- The precision accumulator gains the tile's column sum of the precisions. -/
theorem acc_prec_at (v100 : Vec Ideal S1x128 .f32) :
    k0_pay25 (k0_pay17 (k0_pay12 x0 w bias) (k0_pay14 x0 w bias) (k0_pay15 x0 w bias) (k0_pay16 x0 w bias)) v100 (ix2 (0 : Fin 1) j)
      = v100 (ix2 (0 : Fin 1) j) + ∑ p : Fin 1024, Spec.prec (fun k => x0 (ix2 p k)) (W 3) (B 3) j := by
  rw [acc_prec_of]
  exact congrArg (v100 (ix2 (0 : Fin 1) j) + ·) (Finset.sum_congr rfl fun p _ => prec_at x0 w bias W hW B hB p j)

end Updates

/-- The beta accumulator gains the tile's sum of the betas. -/
theorem acc_beta_at (x0 : Vec Ideal S1024x2048 .f32) (wb : Vec Ideal S2048x1 .f32) (bb : Vec Ideal S1 .f32) (v107 : Vec Ideal S1x1 .f32) :
    k0_pay26 (k0_pay18 x0 wb bb) v107 (ix2 (0 : Fin 1) (0 : Fin 1))
      = v107 (ix2 (0 : Fin 1) (0 : Fin 1))
        + ∑ p : Fin 1024, Spec.beta (fun k => x0 (ix2 p k)) (fun k => wb (ix2 k (0 : Fin 1))) (bb (ix1 (0 : Fin 1))) := by
  rw [acc_beta_of]
  exact congrArg (v107 (ix2 (0 : Fin 1) (0 : Fin 1)) + ·) (Finset.sum_congr rfl fun p _ => beta_at x0 wb bb p)

/-- The tau accumulator gains the tile's sum of the taus. -/
theorem acc_tau_at (x0 : Vec Ideal S1024x2048 .f32) (wt : Vec Ideal S2048x1 .f32) (bt : Vec Ideal S1 .f32) (v114 : Vec Ideal S1x1 .f32) :
    k0_pay27 (k0_pay19 x0 wt bt) v114 (ix2 (0 : Fin 1) (0 : Fin 1))
      = v114 (ix2 (0 : Fin 1) (0 : Fin 1))
        + ∑ p : Fin 1024, Spec.tau (fun k => x0 (ix2 p k)) (fun k => wt (ix2 k (0 : Fin 1))) (bt (ix1 (0 : Fin 1))) := by
  rw [acc_tau_of]
  exact congrArg (v114 (ix2 (0 : Fin 1) (0 : Fin 1)) + ·) (Finset.sum_congr rfl fun p _ => tau_at x0 wt bt p)

end Cert.PayloadAt

end
-- ==== Proof.HostOpsAt.lean ====
/-
  The host operations of the kernel's main program, each read at one index of its result, at the
  exact (extended-real) reading of the floats.

  The program glues the four weight matrices side by side into one [2048, 512] matrix and the four
  bias vectors end to end into one [512] vector: column `128 * b + j` of the glued matrix is column
  `j` of the `b`-th matrix.  Rounding the glued matrix to a narrower float format changes nothing at
  the exact reading.  After the grid has run, each of the five per-core partial sums is a [2, 1, 128]
  or [2, 1, 1] array whose sum over the core axis is the first core's entry plus the second core's.
  The remaining operations only move values between shapes: a reshape that drops a unit axis reads
  the same element, and a broadcast reads the operand at the coordinates it keeps.
-/
import proofs.«154947_j29875792511782_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.HostOpsAt

open Cert.KernelIdeal Cert.KernelIdeal.Facts₀ Idealize.ShloMosaic Idealize.ShloMosaic.ValueIdx

variable [Cert.KernelIdeal.Facts]

/-! ## Gluing four arrays along an axis -/

/-- Column `128 * b + j` of four 128-column blocks laid side by side lies below 512. -/
theorem col_lt_512 (b : Fin 4) (j : Fin 128) : 128 * b.val + j.val < 512 := by
  have := b.isLt; have := j.isLt; omega

/-- Four [2048, 128] matrices glued side by side, read at a column `c` known to be `128 * b + j`. -/
theorem concat_cols_apply_of_eq {α : Type} (u : Fin 4 → S2048x128.Idx → α) (k : Fin 2048) (b : Fin 4) (j : Fin 128)
    (c : Fin 512) (hc : c.val = 128 * b.val + j.val) :
    concatenate S2048x512 1 [⟨S2048x128, u 0⟩, ⟨S2048x128, u 1⟩, ⟨S2048x128, u 2⟩, ⟨S2048x128, u 3⟩]
        concatenates_S2048x128_S2048x128_S2048x128_S2048x128_S2048x512_d1 (ix2 k c)
      = u b (ix2 k j) := by
  have hi : ∀ a : Fin S2048x128.rank, a.cast (rfl : S2048x128.rank = S2048x512.rank) ≠ (1 : Fin S2048x512.rank) →
      ((ix2 k j : S2048x128.Idx) a).val = ((ix2 k c : S2048x512.Idx) (a.cast (rfl : S2048x128.rank = S2048x512.rank))).val :=
    fun a => match a with
      | ⟨0, _⟩ => fun _ => rfl
      | ⟨1, _⟩ => fun h => absurd rfl h
  match b, hc with
  | ⟨0, _⟩, hc =>
    refine concatenate_apply_piece 1 _ _ (ix2 k c) 0 ?_ S2048x128 (u 0) ?_ rfl 0 ?_ (ix2 k j) hi ?_
    · exact (by decide : (0 : Nat) < 4)
    · rfl
    · rfl
    · show 0 + j.val = c.val; rw [hc]; show 0 + j.val = 128 * 0 + j.val; omega
  | ⟨1, _⟩, hc =>
    refine concatenate_apply_piece 1 _ _ (ix2 k c) 1 ?_ S2048x128 (u 1) ?_ rfl 128 ?_ (ix2 k j) hi ?_
    · exact (by decide : (1 : Nat) < 4)
    · rfl
    · rfl
    · show 128 + j.val = c.val; rw [hc]; show 128 + j.val = 128 * 1 + j.val; omega
  | ⟨2, _⟩, hc =>
    refine concatenate_apply_piece 1 _ _ (ix2 k c) 2 ?_ S2048x128 (u 2) ?_ rfl 256 ?_ (ix2 k j) hi ?_
    · exact (by decide : (2 : Nat) < 4)
    · rfl
    · rfl
    · show 256 + j.val = c.val; rw [hc]; show 256 + j.val = 128 * 2 + j.val; omega
  | ⟨3, _⟩, hc =>
    refine concatenate_apply_piece 1 _ _ (ix2 k c) 3 ?_ S2048x128 (u 3) ?_ rfl 384 ?_ (ix2 k j) hi ?_
    · exact (by decide : (3 : Nat) < 4)
    · rfl
    · rfl
    · show 384 + j.val = c.val; rw [hc]; show 384 + j.val = 128 * 3 + j.val; omega

/-- Four [2048, 128] matrices glued side by side: the entry in row `k`, column `128 * b + j` of the
    glued [2048, 512] matrix is the entry in row `k`, column `j` of the `b`-th matrix. -/
theorem concat_cols_apply {α : Type} (u : Fin 4 → S2048x128.Idx → α) (k : Fin 2048) (b : Fin 4) (j : Fin 128) :
    concatenate S2048x512 1 [⟨S2048x128, u 0⟩, ⟨S2048x128, u 1⟩, ⟨S2048x128, u 2⟩, ⟨S2048x128, u 3⟩]
        concatenates_S2048x128_S2048x128_S2048x128_S2048x128_S2048x512_d1 (ix2 k ⟨128 * b.val + j.val, col_lt_512 b j⟩)
      = u b (ix2 k j) :=
  concat_cols_apply_of_eq u k b j ⟨128 * b.val + j.val, col_lt_512 b j⟩ rfl

/-- Four [128] vectors laid end to end, read at a position `c` known to be `128 * b + j`. -/
theorem concat_vecs_apply_of_eq {α : Type} (u : Fin 4 → S128.Idx → α) (b : Fin 4) (j : Fin 128)
    (c : Fin 512) (hc : c.val = 128 * b.val + j.val) :
    concatenate S512 0 [⟨S128, u 0⟩, ⟨S128, u 1⟩, ⟨S128, u 2⟩, ⟨S128, u 3⟩]
        concatenates_S128_S128_S128_S128_S512_d0 (ix1 c)
      = u b (ix1 j) := by
  have hi : ∀ a : Fin S128.rank, a.cast (rfl : S128.rank = S512.rank) ≠ (0 : Fin S512.rank) →
      ((ix1 j : S128.Idx) a).val = ((ix1 c : S512.Idx) (a.cast (rfl : S128.rank = S512.rank))).val :=
    fun a => match a with
      | ⟨0, _⟩ => fun h => absurd rfl h
  match b, hc with
  | ⟨0, _⟩, hc =>
    refine concatenate_apply_piece 0 _ _ (ix1 c) 0 ?_ S128 (u 0) ?_ rfl 0 ?_ (ix1 j) hi ?_
    · exact (by decide : (0 : Nat) < 4)
    · rfl
    · rfl
    · show 0 + j.val = c.val; rw [hc]; show 0 + j.val = 128 * 0 + j.val; omega
  | ⟨1, _⟩, hc =>
    refine concatenate_apply_piece 0 _ _ (ix1 c) 1 ?_ S128 (u 1) ?_ rfl 128 ?_ (ix1 j) hi ?_
    · exact (by decide : (1 : Nat) < 4)
    · rfl
    · rfl
    · show 128 + j.val = c.val; rw [hc]; show 128 + j.val = 128 * 1 + j.val; omega
  | ⟨2, _⟩, hc =>
    refine concatenate_apply_piece 0 _ _ (ix1 c) 2 ?_ S128 (u 2) ?_ rfl 256 ?_ (ix1 j) hi ?_
    · exact (by decide : (2 : Nat) < 4)
    · rfl
    · rfl
    · show 256 + j.val = c.val; rw [hc]; show 256 + j.val = 128 * 2 + j.val; omega
  | ⟨3, _⟩, hc =>
    refine concatenate_apply_piece 0 _ _ (ix1 c) 3 ?_ S128 (u 3) ?_ rfl 384 ?_ (ix1 j) hi ?_
    · exact (by decide : (3 : Nat) < 4)
    · rfl
    · rfl
    · show 384 + j.val = c.val; rw [hc]; show 384 + j.val = 128 * 3 + j.val; omega

/-- Four [128] vectors laid end to end: entry `128 * b + j` of the [512] vector is entry `j` of the
    `b`-th vector. -/
theorem concat_vecs_apply {α : Type} (u : Fin 4 → S128.Idx → α) (b : Fin 4) (j : Fin 128) :
    concatenate S512 0 [⟨S128, u 0⟩, ⟨S128, u 1⟩, ⟨S128, u 2⟩, ⟨S128, u 3⟩]
        concatenates_S128_S128_S128_S128_S512_d0 (ix1 ⟨128 * b.val + j.val, col_lt_512 b j⟩)
      = u b (ix1 j) :=
  concat_vecs_apply_of_eq u b j ⟨128 * b.val + j.val, col_lt_512 b j⟩ rfl

/-! ## A change of float format -/

/-- Rounding the glued [2048, 512] matrix to the narrower format is the identity at the exact reading. -/
theorem truncf_bf16_apply (x : FVec Ideal S2048x512 .f32) (i : S2048x512.Idx) :
    (truncf .bf16 x bitsLt_bf16_f32 : FVec Ideal S2048x512 .bf16) i = x i := rfl

/-- The same for the whole matrix at once. -/
theorem truncf_bf16_eq (x : FVec Ideal S2048x512 .f32) :
    (truncf .bf16 x bitsLt_bf16_f32 : FVec Ideal S2048x512 .bf16) = x := rfl

/-! ## Adding the two cores' partial sums -/

/-- The sum over the core axis of a [2, 1, 128] array of partial sums, started from `v`: at `(0, j)` it
    is `v` plus the first core's entry plus the second core's. -/
theorem reduceAdd_cores_apply_init (x : FVec Ideal S2x1x128 .f32) (v : FVec Ideal S_ .f32) (u : Fin 1) (j : Fin 128) :
    Host.reduceAdd (F := Ideal) x v reducesTo_S2x1x128_S1x128_d0 h_S_ (ix2 u j)
      = v ix0 + (x (ix3 (0 : Fin 2) (0 : Fin 1) j) + x (ix3 (1 : Fin 2) (0 : Fin 1) j)) := by
  have hR : S2x1x128.Reduces [0] S1x128 := by decide
  have hu : u = 0 := Fin.eq_zero u
  subst hu
  simp only [Host.reduceAdd, Ideal.hostReduceAdd_def]
  rw [Ideal.hostReduceAdd_single reducesTo_S2x1x128_S1x128_d0 hR]
  refine congrArg₂ (· + ·) (congrArg v (eq_ix0 _)) ?_
  refine (Fin.sum_univ_two (fun k : Fin 2 => x (hR.lift (ix2 (0 : Fin 1) j) k))).trans ?_
  refine congrArg₂ (· + ·) (congrArg x (funext fun a => Fin.ext ?_)) (congrArg x (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The same started from the zero the program passes: the first core's entry plus the second core's. -/
theorem reduceAdd_cores_apply (x : FVec Ideal S2x1x128 .f32) (u : Fin 1) (j : Fin 128) :
    Host.reduceAdd (F := Ideal) x (constant (F := Ideal) S_ .f32 0x00000000#32) reducesTo_S2x1x128_S1x128_d0 h_S_ (ix2 u j)
      = x (ix3 (0 : Fin 2) (0 : Fin 1) j) + x (ix3 (1 : Fin 2) (0 : Fin 1) j) := by
  rw [reduceAdd_cores_apply_init]
  show Ideal.ofBits .f32 0x00000000#32 + _ = _
  rw [Ideal.ofBits_zero_f32, zero_add]

/-- The two indices of a [2, 1, 1] array, by the core. -/
def coreIdx : Fin 2 ≃ S2x1x1.Idx where
  toFun c := ix3 c (0 : Fin 1) (0 : Fin 1)
  invFun i := ⟨(i 0).val, (i 0).isLt⟩
  left_inv _ := rfl
  right_inv i := by
    funext a
    match a with
    | ⟨0, _⟩ => rfl
    | ⟨1, _⟩ => exact Fin.ext (Nat.lt_one_iff.mp (i ⟨1, by decide⟩).isLt).symm
    | ⟨2, _⟩ => exact Fin.ext (Nat.lt_one_iff.mp (i ⟨2, by decide⟩).isLt).symm

/-- The sum over every axis of a [2, 1, 1] array of partial sums, started from `v`: `v` plus the first
    core's entry plus the second core's. -/
theorem reduceAdd_cores_total_apply_init (x : FVec Ideal S2x1x1 .f32) (v : FVec Ideal S_ .f32) (i : S_.Idx) :
    Host.reduceAdd (F := Ideal) x v reducesTo_S2x1x1_S_d0_1_2 h_S_ i
      = v ix0 + (x (ix3 (0 : Fin 2) (0 : Fin 1) (0 : Fin 1)) + x (ix3 (1 : Fin 2) (0 : Fin 1) (0 : Fin 1))) := by
  simp only [Host.reduceAdd, Ideal.hostReduceAdd_def]
  rw [Ideal.hostReduceAdd_total reducesTo_S2x1x1_S_d0_1_2 (fun b => b.elim0)]
  refine congrArg₂ (· + ·) (congrArg v (eq_ix0 _)) ?_
  rw [← Equiv.sum_comp coreIdx x]
  exact Fin.sum_univ_two (fun c : Fin 2 => x (coreIdx c))

/-- The same started from the zero the program passes. -/
theorem reduceAdd_cores_total_apply (x : FVec Ideal S2x1x1 .f32) (i : S_.Idx) :
    Host.reduceAdd (F := Ideal) x (constant (F := Ideal) S_ .f32 0x00000000#32) reducesTo_S2x1x1_S_d0_1_2 h_S_ i
      = x (ix3 (0 : Fin 2) (0 : Fin 1) (0 : Fin 1)) + x (ix3 (1 : Fin 2) (0 : Fin 1) (0 : Fin 1)) := by
  rw [reduceAdd_cores_total_apply_init]
  show Ideal.ofBits .f32 0x00000000#32 + _ = _
  rw [Ideal.ofBits_zero_f32, zero_add]

/-! ## Reshapes that drop a unit axis -/

/-- A [1, 128] array read as a [128] vector: entry `j` is the entry at `(0, j)`. -/
theorem reshape_row_apply {α : Type} (x : S1x128.Idx → α) (j : Fin 128) :
    shapeCast S128 x shapeCasts_S1x128_S128 (ix1 j) = x (ix2 (0 : Fin 1) j) :=
  shapeCast_1a_a_apply x shapeCasts_S1x128_S128 j

/-- A [32768, 1] array read as a [32768] vector: entry `r` is the entry at `(r, 0)`. -/
theorem reshape_col_apply {α : Type} (x : S32768x1.Idx → α) (r : Fin 32768) :
    shapeCast S32768 x shapeCasts_S32768x1_S32768 (ix1 r) = x (ix2 r (0 : Fin 1)) :=
  shapeCast_apply x shapeCasts_S32768x1_S32768 _ _ (by
    rw [Shape.rowMajor_val_two, Shape.rowMajor_val_one]
    show r.val * 1 + 0 = r.val
    omega)

/-! ## Broadcasts -/

/-- A scalar spread over a [128] vector: every entry is the scalar. -/
theorem bcast_scalar_vec_apply {α : Type} (x : S_.Idx → α) (j : Fin 128) :
    broadcastInDim S128 ![] bcast_S_S128 x (ix1 j) = x ix0 :=
  broadcastInDim_apply _ bcast_S_S128 x _ ix0 (fun a => a.elim0)

/-- A [128] vector stood up as a [128, 1] column: the entry at `(i, 0)` is entry `i`. -/
theorem bcast_vec_col_apply {α : Type} (x : S128.Idx → α) (i : Fin 128) (u : Fin 1) :
    broadcastInDim S128x1 ![0] bcast_S128_S128x1_0 x (ix2 i u) = x (ix1 i) :=
  broadcastInDim_apply _ bcast_S128_S128x1_0 x _ (ix1 i) (fun a => match a with
    | ⟨0, _⟩ => by show i.val = if (128 : Nat) = 1 then 0 else i.val; rw [if_neg (by decide)])

/-- A [128] vector laid down as a [1, 128] row: the entry at `(0, j)` is entry `j`. -/
theorem bcast_vec_row_apply {α : Type} (x : S128.Idx → α) (u : Fin 1) (j : Fin 128) :
    broadcastInDim S1x128 ![1] bcast_S128_S1x128_1 x (ix2 u j) = x (ix1 j) :=
  broadcastInDim_apply _ bcast_S128_S1x128_1 x _ (ix1 j) (fun a => match a with
    | ⟨0, _⟩ => by show j.val = if (128 : Nat) = 1 then 0 else j.val; rw [if_neg (by decide)])

/-- A [128, 1] column repeated across 128 columns: the entry at `(i, j)` is the column's entry `(i, 0)`. -/
theorem bcast_col_mat_apply {α : Type} (x : S128x1.Idx → α) (i j : Fin 128) :
    broadcastInDim S128x128 ![0, 1] bcast_S128x1_S128x128_0_1 x (ix2 i j) = x (ix2 i (0 : Fin 1)) :=
  broadcastInDim_apply _ bcast_S128x1_S128x128_0_1 x _ (ix2 i (0 : Fin 1)) (fun a => match a with
    | ⟨0, _⟩ => by show i.val = if (128 : Nat) = 1 then 0 else i.val; rw [if_neg (by decide)]
    | ⟨1, _⟩ => by show 0 = if (1 : Nat) = 1 then 0 else j.val; rw [if_pos rfl])

/-- A [1, 128] row repeated down 128 rows: the entry at `(i, j)` is the row's entry `(0, j)`. -/
theorem bcast_row_mat_apply {α : Type} (x : S1x128.Idx → α) (i j : Fin 128) :
    broadcastInDim S128x128 ![0, 1] bcast_S1x128_S128x128_0_1 x (ix2 i j) = x (ix2 (0 : Fin 1) j) :=
  broadcastInDim_apply _ bcast_S1x128_S128x128_0_1 x _ (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])

/-- A scalar spread over a [128, 128] matrix: every entry is the scalar. -/
theorem bcast_scalar_mat_apply {α : Type} (x : S_.Idx → α) (i j : Fin 128) :
    broadcastInDim S128x128 ![] bcast_S_S128x128 x (ix2 i j) = x ix0 :=
  broadcastInDim_apply _ bcast_S_S128x128 x _ ix0 (fun a => a.elim0)

end Cert.HostOpsAt

end
-- ==== Proof.BlocksAt.lean ====
/-
  What the region finds in its input windows, read at an index.

  Before the region the main program lays the four weight matrices side by side (and narrows the result, which
  changes nothing at the exact reading) and the four bias vectors end to end.  Column 128 * b + j of the fused
  matrix is column j of the b-th matrix; entry 128 * b + j of the fused bias is entry j of the b-th bias.
  The region's grid has 32 points.  The input and target windows move with the point: at point t their blocks are
  rows 1024 * t to 1024 * t + 1023 of their arrays.  The other seven input windows are whole arrays at every point.
-/
import proofs.«154947_j29875792511782_2_alg».proof.Proof.FrameBaseI
import proofs.«154947_j29875792511782_2_alg».proof.Proof.HostOpsAt
import Idealize.ShloMosaic.Lib.ValueIdx

noncomputable section

namespace Cert.BlocksAt

open Cert.KernelIdeal Cert.KernelIdeal.Gen Cert.KernelIdeal.Frame
open Idealize.ShloMosaic Idealize.ShloMosaic.TcCoe Idealize.ShloMosaic.Tactic Idealize.ShloMosaic.ValueIdx
open Idealize.SL.Sem

variable (m : (ℓ : Loc nD τ sig) → Buf (Elt Ideal) ℓ)

/-! ## The fused weights and the fused bias -/

/-- The four weight matrices (keys, values, queries, precision logits) as core c's launch memory holds them. -/
def Wsrc (c : Dev nD) (b : Fin 4) : S2048x128.Idx → EReal :=
  match b with
  | 0 => m (c, Proc.devRef .tc main_arg2)
  | 1 => m (c, Proc.devRef .tc main_arg4)
  | 2 => m (c, Proc.devRef .tc main_arg6)
  | 3 => m (c, Proc.devRef .tc main_arg10)

/-- The four bias vectors, likewise. -/
def Bsrc (c : Dev nD) (b : Fin 4) : S128.Idx → EReal :=
  match b with
  | 0 => m (c, Proc.devRef .tc main_arg3)
  | 1 => m (c, Proc.devRef .tc main_arg5)
  | 2 => m (c, Proc.devRef .tc main_arg7)
  | 3 => m (c, Proc.devRef .tc main_arg11)

/-- When the region is entered the fused-weights array is the four matrices side by side, narrowed. -/
theorem V_main_v1_eq (c : Dev nD) :
    (V m c main_v1 : S2048x512.Idx → EReal)
      = (truncf (F := Ideal) .bf16
          (concatenate S2048x512 1 [⟨S2048x128, Wsrc m c 0⟩, ⟨S2048x128, Wsrc m c 1⟩, ⟨S2048x128, Wsrc m c 2⟩, ⟨S2048x128, Wsrc m c 3⟩]
            concatenates_S2048x128_S2048x128_S2048x128_S2048x128_S2048x512_d1 : FVec Ideal S2048x512 .f32)
          bitsLt_bf16_f32 : FVec Ideal S2048x512 .bf16) := by
  show StableHlo.after hostOps0 (fun b => m (c, b)) (Proc.devRef .tc main_v1) = _
  after_results
  rfl

/-- The fused-bias array is the four biases end to end. -/
theorem V_main_v2_eq (c : Dev nD) :
    (V m c main_v2 : S512.Idx → EReal)
      = concatenate S512 0 [⟨S128, Bsrc m c 0⟩, ⟨S128, Bsrc m c 1⟩, ⟨S128, Bsrc m c 2⟩, ⟨S128, Bsrc m c 3⟩]
          concatenates_S128_S128_S128_S128_S512_d0 := by
  show StableHlo.after hostOps0 (fun b => m (c, b)) (Proc.devRef .tc main_v2) = _
  after_results
  rfl

/-- Column 128 * b + j of the fused weights is column j of the b-th matrix. -/
theorem fusedW_at (c : Dev nD) (b : Fin 4) (k : Fin 2048) (j : Fin 128) :
    V m c main_v1 (ix2 k ⟨128 * b.val + j.val, by omega⟩) = Wsrc m c b (ix2 k j) := by
  refine (congrFun (V_main_v1_eq m c) (ix2 k ⟨128 * b.val + j.val, by omega⟩)).trans ?_
  exact (HostOpsAt.truncf_bf16_apply _ _).trans (HostOpsAt.concat_cols_apply (Wsrc m c) k b j)

/-- Entry 128 * b + j of the fused bias is entry j of the b-th bias. -/
theorem fusedB_at (c : Dev nD) (b : Fin 4) (j : Fin 128) :
    V m c main_v2 (ix1 ⟨128 * b.val + j.val, by omega⟩) = Bsrc m c b (ix1 j) := by
  refine (congrFun (V_main_v2_eq m c) (ix1 ⟨128 * b.val + j.val, by omega⟩)).trans ?_
  exact HostOpsAt.concat_vecs_apply (Bsrc m c) b j

/-! ## The input windows' blocks

The block index of each window at each of the 32 grid points, decided once: the input and the target move with the
point along their rows; the other seven windows sit at block 0.  An element of a block sits in its array at
block index * block extent + 1 * (the coordinate inside the block), axis by axis. -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0 :=
  (by decide +kernel : ∀ t : Fin grid0.N, _)

/-- A grid point's number is below 32. -/
theorem point_lt (t : Fin cfg0.N) : t.val < 32 := Nat.lt_of_lt_of_eq t.isLt N_0

/-- Row p of point t's block is row 1024 * t + p of a 32768-row array. -/
theorem row_lt (t : Fin cfg0.N) (p : Fin 1024) : t.val * 1024 + p.val < 32768 := by
  have := point_lt t; have := p.isLt; omega

/-! ### The two windows that move with the point -/

/-- The input block at point t is rows 1024 * t onward of the input. -/
theorem blk0_at (c : Dev nD) (t : Fin cfg0.N) (p : Fin 1024) (k : Fin 2048) :
    iblk m c 0 t (ix2 p k) = V m c main_arg0 (ix2 ⟨t.val * 1024 + p.val, row_lt t p⟩ k) := by
  obtain ⟨e0, e1, -⟩ := idx_facts t
  have h : ((cfg0.win 0).blk t).view.emb (ix2 p k) = ix2 ⟨t.val * 1024 + p.val, row_lt t p⟩ k := by
    funext a; apply Fin.ext
    match a with
    | ⟨0, _⟩ => show win0_0.index t (0 : Fin 2) * 1024 + 1 * p.val = t.val * 1024 + p.val; omega
    | ⟨1, _⟩ => show win0_0.index t (1 : Fin 2) * 2048 + 1 * k.val = k.val; omega
  show V m c main_arg0 (((cfg0.win 0).blk t).view.emb (ix2 p k)) = _
  rw [h]

/-- The target block at point t is rows 1024 * t onward of the target. -/
theorem blk1_at (c : Dev nD) (t : Fin cfg0.N) (p : Fin 1024) (j : Fin 128) :
    iblk m c 1 t (ix2 p j) = V m c main_arg1 (ix2 ⟨t.val * 1024 + p.val, row_lt t p⟩ j) := by
  obtain ⟨-, -, e0, e1, -⟩ := idx_facts t
  have h : ((cfg0.win 1).blk t).view.emb (ix2 p j) = ix2 ⟨t.val * 1024 + p.val, row_lt t p⟩ j := by
    funext a; apply Fin.ext
    match a with
    | ⟨0, _⟩ => show win0_1.index t (0 : Fin 2) * 1024 + 1 * p.val = t.val * 1024 + p.val; omega
    | ⟨1, _⟩ => show win0_1.index t (1 : Fin 2) * 128 + 1 * j.val = j.val; omega
  show V m c main_arg1 (((cfg0.win 1).blk t).view.emb (ix2 p j)) = _
  rw [h]

/-! ### The seven whole-array windows -/

/-- The fused weights: the whole array at every point. -/
theorem blk2_at (c : Dev nD) (t : Fin cfg0.N) (k : Fin 2048) (q : Fin 512) :
    iblk m c 2 t (ix2 k q) = V m c main_v1 (ix2 k q) := by
  obtain ⟨-, -, -, -, e0, e1, -⟩ := idx_facts t
  have h : ((cfg0.win 2).blk t).view.emb (ix2 k q) = ix2 k q := by
    funext a; apply Fin.ext
    match a with
    | ⟨0, _⟩ => show win0_2.index t (0 : Fin 2) * 2048 + 1 * k.val = k.val; omega
    | ⟨1, _⟩ => show win0_2.index t (1 : Fin 2) * 512 + 1 * q.val = q.val; omega
  show V m c main_v1 (((cfg0.win 2).blk t).view.emb (ix2 k q)) = _
  rw [h]

/-- The fused bias. -/
theorem blk3_at (c : Dev nD) (t : Fin cfg0.N) (q : Fin 512) :
    iblk m c 3 t (ix1 q) = V m c main_v2 (ix1 q) := by
  obtain ⟨-, -, -, -, -, -, e0, -⟩ := idx_facts t
  have h : ((cfg0.win 3).blk t).view.emb (ix1 q) = ix1 q := by
    funext a; apply Fin.ext
    match a with
    | ⟨0, _⟩ => show win0_3.index t (0 : Fin 1) * 512 + 1 * q.val = q.val; omega
  show V m c main_v2 (((cfg0.win 3).blk t).view.emb (ix1 q)) = _
  rw [h]

/-- The beta gate's weight column. -/
theorem blk4_at (c : Dev nD) (t : Fin cfg0.N) (k : Fin 2048) (u : Fin 1) :
    iblk m c 4 t (ix2 k u) = V m c main_arg8 (ix2 k u) := by
  obtain ⟨-, -, -, -, -, -, -, e0, e1, -⟩ := idx_facts t
  have h : ((cfg0.win 4).blk t).view.emb (ix2 k u) = ix2 k u := by
    funext a; apply Fin.ext
    match a with
    | ⟨0, _⟩ => show win0_4.index t (0 : Fin 2) * 2048 + 1 * k.val = k.val; omega
    | ⟨1, _⟩ => show win0_4.index t (1 : Fin 2) * 1 + 1 * u.val = u.val; omega
  show V m c main_arg8 (((cfg0.win 4).blk t).view.emb (ix2 k u)) = _
  rw [h]

/-- The beta gate's bias. -/
theorem blk5_at (c : Dev nD) (t : Fin cfg0.N) (u : Fin 1) :
    iblk m c 5 t (ix1 u) = V m c main_arg9 (ix1 u) := by
  obtain ⟨-, -, -, -, -, -, -, -, -, e0, -⟩ := idx_facts t
  have h : ((cfg0.win 5).blk t).view.emb (ix1 u) = ix1 u := by
    funext a; apply Fin.ext
    match a with
    | ⟨0, _⟩ => show win0_5.index t (0 : Fin 1) * 1 + 1 * u.val = u.val; omega
  show V m c main_arg9 (((cfg0.win 5).blk t).view.emb (ix1 u)) = _
  rw [h]

/-- The tau gate's weight column. -/
theorem blk6_at (c : Dev nD) (t : Fin cfg0.N) (k : Fin 2048) (u : Fin 1) :
    iblk m c 6 t (ix2 k u) = V m c main_arg12 (ix2 k u) := by
  obtain ⟨-, -, -, -, -, -, -, -, -, -, e0, e1, -⟩ := idx_facts t
  have h : ((cfg0.win 6).blk t).view.emb (ix2 k u) = ix2 k u := by
    funext a; apply Fin.ext
    match a with
    | ⟨0, _⟩ => show win0_6.index t (0 : Fin 2) * 2048 + 1 * k.val = k.val; omega
    | ⟨1, _⟩ => show win0_6.index t (1 : Fin 2) * 1 + 1 * u.val = u.val; omega
  show V m c main_arg12 (((cfg0.win 6).blk t).view.emb (ix2 k u)) = _
  rw [h]

/-- The tau gate's bias. -/
theorem blk7_at (c : Dev nD) (t : Fin cfg0.N) (u : Fin 1) :
    iblk m c 7 t (ix1 u) = V m c main_arg13 (ix1 u) := by
  obtain ⟨-, -, -, -, -, -, -, -, -, -, -, -, e0, -⟩ := idx_facts t
  have h : ((cfg0.win 7).blk t).view.emb (ix1 u) = ix1 u := by
    funext a; apply Fin.ext
    match a with
    | ⟨0, _⟩ => show win0_7.index t (0 : Fin 1) * 1 + 1 * u.val = u.val; omega
  show V m c main_arg13 (((cfg0.win 7).blk t).view.emb (ix1 u)) = _
  rw [h]

/-- The memory matrix. -/
theorem blk8_at (c : Dev nD) (t : Fin cfg0.N) (i j : Fin 128) :
    iblk m c 8 t (ix2 i j) = V m c main_arg14 (ix2 i j) := by
  obtain ⟨-, -, -, -, -, -, -, -, -, -, -, -, -, e0, e1⟩ := idx_facts t
  have h : ((cfg0.win 8).blk t).view.emb (ix2 i j) = ix2 i j := by
    funext a; apply Fin.ext
    match a with
    | ⟨0, _⟩ => show win0_8.index t (0 : Fin 2) * 128 + 1 * i.val = i.val; omega
    | ⟨1, _⟩ => show win0_8.index t (1 : Fin 2) * 128 + 1 * j.val = j.val; omega
  show V m c main_arg14 (((cfg0.win 8).blk t).view.emb (ix2 i j)) = _
  rw [h]

/-! ### The fused blocks as the body loads them -/

/-- Column 128 * b + j of the loaded fused-weights block is column j of the b-th matrix. -/
theorem blkW_at (c : Dev nD) (t : Fin cfg0.N) (b : Fin 4) (k : Fin 2048) (j : Fin 128) :
    iblk m c 2 t (ix2 k ⟨128 * b.val + j.val, by omega⟩) = Wsrc m c b (ix2 k j) :=
  (blk2_at m c t k ⟨128 * b.val + j.val, by omega⟩).trans (fusedW_at m c b k j)

/-- Entry 128 * b + j of the loaded fused-bias block is entry j of the b-th bias. -/
theorem blkB_at (c : Dev nD) (t : Fin cfg0.N) (b : Fin 4) (j : Fin 128) :
    iblk m c 3 t (ix1 ⟨128 * b.val + j.val, by omega⟩) = Bsrc m c b (ix1 j) :=
  (blk3_at m c t ⟨128 * b.val + j.val, by omega⟩).trans (fusedB_at m c b j)

end Cert.BlocksAt

end
-- ==== Proof.PiecesI.lean ====
/-
  What the body's stores leave, buffer by buffer.

  At a grid point the body stores each of its eight output blocks and each of its five accumulators
  whole, so what a buffer holds afterwards is the value of the one store that covers it.  For the
  three row blocks that is the tile's free energy, precision and error; for an accumulator it is the
  old value plus the tile's column sum (the old value being the zero block the body has just stored
  when the tile is the first of its core); for the five partial-sum blocks it is a copy of the
  accumulator just written.
-/
import proofs.«154947_j29875792511782_2_alg».proof.Proof.FrameOutsI
import Idealize.ShloMosaic.Lib.Pipeline.Value

set_option maxRecDepth 16384

noncomputable section

namespace Cert.KernelIdeal.Pieces

open Cert.KernelIdeal Cert.KernelIdeal.Gen Cert.KernelIdeal.Frame
open Idealize.ShloMosaic Idealize.ShloMosaic.TcCoe Idealize.ShloMosaic.Tactic
open Idealize.SL.Sem

variable {F : FTy → Type} [FloatOps F]

/-- The zero offset of a rank-1 block. -/
theorem hz1 : (![0] : Fin 1 → Nat) = fun _ => 0 := funext fun a => by fin_cases a <;> rfl
/-- The zero offset of a rank-2 block. -/
theorem hz2 : (![0, 0] : Fin 2 → Nat) = fun _ => 0 := funext fun a => by fin_cases a <;> rfl
/-- The zero offset of a rank-3 block. -/
theorem hz3 : (![0, 0, 0] : Fin 3 → Nat) = fun _ => 0 := funext fun a => by fin_cases a <;> rfl

/-- A load of a whole buffer after several stores, the last of which covers it, reads what that last store wrote. -/
theorem readCov_cons_unit_zero {Val : EltTy → Type} [∀ e, Nonempty (Val e)] {S : Shape} {e : EltTy}
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

variable (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x512 .bf16) (harg4 : arg4.IsWhole) (arg5 : Memref sig .tc .vmem S512 .f32) (harg5 : arg5.IsWhole) (arg6 : Memref sig .tc .vmem S2048x1 .f32) (harg6 : arg6.IsWhole) (arg7 : Memref sig .tc .vmem S1 .f32) (harg7 : arg7.IsWhole) (arg8 : Memref sig .tc .vmem S2048x1 .f32) (harg8 : arg8.IsWhole) (arg9 : Memref sig .tc .vmem S1 .f32) (harg9 : arg9.IsWhole) (arg10 : Memref sig .tc .vmem S128x128 .f32) (harg10 : arg10.IsWhole) (arg11 : Memref sig .tc .vmem S1024x1 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x1 .f32) (harg17 : arg17.IsWhole) (arg18 : Memref sig .tc .vmem S1x1x1 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x1 .f32) (harg22 : arg22.IsWhole) (arg23 : Memref sig .tc .vmem S1x1 .f32) (harg23 : arg23.IsWhole)

/-! ## The first tile of a core: the accumulators start from the zero block -/

/-- At the first tile of a core, output block 9 holds the free energy block. -/
theorem out0_A_9_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay21 (k0_pay11 x0 x2 x3) (k0_pay12 x0 x2 x3) (k0_pay14 x0 x2 x3) (k0_pay15 x0 x2 x3) (k0_pay16 x0 x2 x3) x8 x1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 10 holds the precision block. -/
theorem out0_A_10_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay17 (k0_pay12 x0 x2 x3) (k0_pay14 x0 x2 x3) (k0_pay15 x0 x2 x3) (k0_pay16 x0 x2 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 11 holds the error block. -/
theorem out0_A_11_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay20 (k0_pay11 x0 x2 x3) x8 x1 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 12 holds a copy of the new key sum. -/
theorem out0_A_12_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay28 (k0_pay23 (k0_pay10 x0 x2 x3) k0_pay2) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz3, readCov_cons_unit_zero (S := S1x128) _ hz2,
    View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 13 holds a copy of the new clipped-error sum. -/
theorem out0_A_13_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay29 (k0_pay24 (k0_pay22 (k0_pay8 x0 x2 x3) (k0_pay10 x0 x2 x3) x8) k0_pay3) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz3, readCov_cons_unit_zero (S := S1x128) _ hz2,
    View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 14 holds a copy of the new precision sum. -/
theorem out0_A_14_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay30 (k0_pay25 (k0_pay17 (k0_pay12 x0 x2 x3) (k0_pay14 x0 x2 x3) (k0_pay15 x0 x2 x3) (k0_pay16 x0 x2 x3)) k0_pay4) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz3, readCov_cons_unit_zero (S := S1x128) _ hz2,
    View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 15 holds a copy of the new beta sum. -/
theorem out0_A_15_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay31 (k0_pay26 (k0_pay18 x0 x4 x5) k0_pay5) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz3, readCov_cons_unit_zero (S := S1x1) _ hz2,
    View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, output block 16 holds a copy of the new tau sum. -/
theorem out0_A_16_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay1 (k0_pay27 (k0_pay19 x0 x6 x7) k0_pay6) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_unit_zero hz3, readCov_cons_unit_zero (S := S1x1) _ hz2,
    View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, accumulator 0 holds the key sum: the zero block just stored plus the tile's column sum. -/
theorem sout0_A_0_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay23 (k0_pay10 x0 x2 x3) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, accumulator 1 holds the clipped-error sum: the zero block just stored plus the tile's column sum. -/
theorem sout0_A_1_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay24 (k0_pay22 (k0_pay8 x0 x2 x3) (k0_pay10 x0 x2 x3) x8) k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, accumulator 2 holds the precision sum: the zero block just stored plus the tile's column sum. -/
theorem sout0_A_2_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay25 (k0_pay17 (k0_pay12 x0 x2 x3) (k0_pay14 x0 x2 x3) (k0_pay15 x0 x2 x3) (k0_pay16 x0 x2 x3)) k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, accumulator 3 holds the beta sum: the zero block just stored plus the tile's column sum. -/
theorem sout0_A_3_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay26 (k0_pay18 x0 x4 x5) k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At the first tile of a core, accumulator 4 holds the tau sum: the zero block just stored plus the tile's column sum. -/
theorem sout0_A_4_eq (hc0 : cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8
      = k0_pay27 (k0_pay19 x0 x6 x7) k0_pay6 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-! ## A later tile: the accumulators start from what the tile before left -/

/-- At a later tile, output block 9 holds the free energy block. -/
theorem out0_B_9_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay21 (k0_pay11 x0 x2 x3) (k0_pay12 x0 x2 x3) (k0_pay14 x0 x2 x3) (k0_pay15 x0 x2 x3) (k0_pay16 x0 x2 x3) x8 x1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 10 holds the precision block. -/
theorem out0_B_10_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay17 (k0_pay12 x0 x2 x3) (k0_pay14 x0 x2 x3) (k0_pay15 x0 x2 x3) (k0_pay16 x0 x2 x3) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 11 holds the error block. -/
theorem out0_B_11_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay20 (k0_pay11 x0 x2 x3) x8 x1 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 12 holds a copy of the new key sum. -/
theorem out0_B_12_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay28 (k0_pay23 (k0_pay10 x0 x2 x3) xs0) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz3, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 13 holds a copy of the new clipped-error sum. -/
theorem out0_B_13_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay29 (k0_pay24 (k0_pay22 (k0_pay8 x0 x2 x3) (k0_pay10 x0 x2 x3) x8) xs1) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz3, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 14 holds a copy of the new precision sum. -/
theorem out0_B_14_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay30 (k0_pay25 (k0_pay17 (k0_pay12 x0 x2 x3) (k0_pay14 x0 x2 x3) (k0_pay15 x0 x2 x3) (k0_pay16 x0 x2 x3)) xs2) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz3, View.readCov_unit_zero (S := S1x128) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 15 holds a copy of the new beta sum. -/
theorem out0_B_15_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay31 (k0_pay26 (k0_pay18 x0 x4 x5) xs3) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz3, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, output block 16 holds a copy of the new tau sum. -/
theorem out0_B_16_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay1 (k0_pay27 (k0_pay19 x0 x6 x7) xs4) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz3, View.readCov_unit_zero (S := S1x1) _ hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, accumulator 0 holds the key sum: its old value plus the tile's column sum. -/
theorem sout0_B_0_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay23 (k0_pay10 x0 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, accumulator 1 holds the clipped-error sum: its old value plus the tile's column sum. -/
theorem sout0_B_1_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay24 (k0_pay22 (k0_pay8 x0 x2 x3) (k0_pay10 x0 x2 x3) x8) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, accumulator 2 holds the precision sum: its old value plus the tile's column sum. -/
theorem sout0_B_2_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay25 (k0_pay17 (k0_pay12 x0 x2 x3) (k0_pay14 x0 x2 x3) (k0_pay15 x0 x2 x3) (k0_pay16 x0 x2 x3)) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, accumulator 3 holds the beta sum: its old value plus the tile's column sum. -/
theorem sout0_B_3_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay26 (k0_pay18 x0 x4 x5) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

/-- At a later tile, accumulator 4 holds the tau sum: its old value plus the tile's column sum. -/
theorem sout0_B_4_eq (hc0 : ¬cond0_0 i) (x0 : Vec F S1024x2048 .f32) (x1 : Vec F S1024x128 .f32) (x2 : Vec F S2048x512 .bf16) (x3 : Vec F S512 .f32) (x4 : Vec F S2048x1 .f32) (x5 : Vec F S1 .f32) (x6 : Vec F S2048x1 .f32) (x7 : Vec F S1 .f32) (x8 : Vec F S128x128 .f32) (xs0 : Vec F S1x128 .f32) (xs1 : Vec F S1x128 .f32) (xs2 : Vec F S1x128 .f32) (xs3 : Vec F S1x1 .f32) (xs4 : Vec F S1x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4
      = k0_pay27 (k0_pay19 x0 x6 x7) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread,
    harg19.read_unread, harg20.read_unread, harg21.read_unread, harg22.read_unread, harg23.read_unread,
    View.ld_unit_zero (S := S1024x2048) hz2, View.ld_unit_zero (S := S1024x128) hz2,
    View.ld_unit_zero (S := S2048x512) hz2, View.ld_unit_zero (S := S512) hz1, View.ld_unit_zero (S := S2048x1) hz2,
    View.ld_unit_zero (S := S1) hz1, View.ld_unit_zero (S := S128x128) hz2, View.ld_unit_zero (S := S1x128) hz2,
    View.ld_unit_zero (S := S1x1) hz2]

end Cert.KernelIdeal.Pieces

end
-- ==== Proof.FinalsRowsI.lean ====
/-
  The three row-blocked outputs of the region as whole arrays.

  At grid point t the body stores, whole, the free energy, the precision and the retrieval error of the tile's 1024
  rows; the region writes each block back to rows 1024 * t onward of its array.  The 32 blocks tile the 32768 rows,
  so after the last point each array holds the row-by-row quantity of the specification at every index.
-/
import proofs.«154947_j29875792511782_2_alg».proof.Proof.FrameOutsI
import proofs.«154947_j29875792511782_2_alg».proof.Proof.ValueDefsI
import proofs.«154947_j29875792511782_2_alg».proof.Proof.PayloadAt
import proofs.«154947_j29875792511782_2_alg».proof.Proof.BlocksAt
import proofs.«154947_j29875792511782_2_alg».proof.Proof.PiecesI
import Idealize.ShloMosaic.Lib.ValueIdx
import Idealize.ShloMosaic.Lib.Pipeline.Value

noncomputable section

namespace Cert.KernelIdeal.ValueH

open Cert.KernelIdeal Cert.KernelIdeal.Gen Cert.KernelIdeal.Frame Cert.PayloadAt Cert.BlocksAt Cert.KernelIdeal.Pieces
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-! ## Where the three output windows' blocks lie

The block index of each of the three windows at each of the 32 grid points, decided once: block t along the rows,
block 0 along the columns. -/

theorem out_idx_facts : ∀ t : Fin cfg0.N,
    win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- An index of the array lies in point t's block of window 9 iff each coordinate lies in the block's range. -/
theorem mem_blk9 (t : Fin cfg0.N) (i : S32768x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v3_0).slice (win0_9.rect t)).set ↔ _
  rw [View.set_slice_whole, Rect.mem_set_unit]
  exact Iff.rfl

/-- Every index of window 9's array lies in the block of the point that holds its row: row r is in block r / 1024. -/
theorem cover9 (i : S32768x1.Idx) :
    ∃ t : Fin cfg0.N, (cfg0.win 9).flush t = true ∧ i ∈ ((cfg0.win 9).blk t).view.set := by
  have hi0 : (i 0).val < 32768 := (i 0).isLt
  have hi1 : (i 1).val < 1 := (i 1).isLt
  have ht : ∃ t : Fin cfg0.N, t.val = (i 0).val / 1024 :=
    ⟨⟨(i 0).val / 1024, Nat.lt_of_lt_of_eq (by omega : (i 0).val / 1024 < 32) N_0.symm⟩, rfl⟩
  obtain ⟨t, ht⟩ := ht
  obtain ⟨e0, e1, -⟩ := out_idx_facts t
  refine ⟨t, flush0_9 t, ?_⟩
  rw [mem_blk9]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 1 ≤ (i 1).val ∧ (i 1).val < win0_9.index t (1 : Fin 2) * 1 + 1
    omega

/-- An index of the array lies in point t's block of window 10 iff each coordinate lies in the block's range. -/
theorem mem_blk10 (t : Fin cfg0.N) (i : S32768x128.Idx) :
    i ∈ ((cfg0.win 10).blk t).view.set ↔ ∀ a : Fin 2, win0_10.index t a * S1024x128.size a ≤ (i a).val
      ∧ (i a).val < win0_10.index t a * S1024x128.size a + S1024x128.size a := by
  show i ∈ ((View.whole main_v3_1).slice (win0_10.rect t)).set ↔ _
  rw [View.set_slice_whole, Rect.mem_set_unit]
  exact Iff.rfl

/-- Every index of window 10's array lies in the block of the point that holds its row: row r is in block r / 1024. -/
theorem cover10 (i : S32768x128.Idx) :
    ∃ t : Fin cfg0.N, (cfg0.win 10).flush t = true ∧ i ∈ ((cfg0.win 10).blk t).view.set := by
  have hi0 : (i 0).val < 32768 := (i 0).isLt
  have hi1 : (i 1).val < 128 := (i 1).isLt
  have ht : ∃ t : Fin cfg0.N, t.val = (i 0).val / 1024 :=
    ⟨⟨(i 0).val / 1024, Nat.lt_of_lt_of_eq (by omega : (i 0).val / 1024 < 32) N_0.symm⟩, rfl⟩
  obtain ⟨t, ht⟩ := ht
  obtain ⟨-, -, e0, e1, -⟩ := out_idx_facts t
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 128 ≤ (i 1).val ∧ (i 1).val < win0_10.index t (1 : Fin 2) * 128 + 128
    omega

/-- An index of the array lies in point t's block of window 11 iff each coordinate lies in the block's range. -/
theorem mem_blk11 (t : Fin cfg0.N) (i : S32768x128.Idx) :
    i ∈ ((cfg0.win 11).blk t).view.set ↔ ∀ a : Fin 2, win0_11.index t a * S1024x128.size a ≤ (i a).val
      ∧ (i a).val < win0_11.index t a * S1024x128.size a + S1024x128.size a := by
  show i ∈ ((View.whole main_v3_2).slice (win0_11.rect t)).set ↔ _
  rw [View.set_slice_whole, Rect.mem_set_unit]
  exact Iff.rfl

/-- Every index of window 11's array lies in the block of the point that holds its row: row r is in block r / 1024. -/
theorem cover11 (i : S32768x128.Idx) :
    ∃ t : Fin cfg0.N, (cfg0.win 11).flush t = true ∧ i ∈ ((cfg0.win 11).blk t).view.set := by
  have hi0 : (i 0).val < 32768 := (i 0).isLt
  have hi1 : (i 1).val < 128 := (i 1).isLt
  have ht : ∃ t : Fin cfg0.N, t.val = (i 0).val / 1024 :=
    ⟨⟨(i 0).val / 1024, Nat.lt_of_lt_of_eq (by omega : (i 0).val / 1024 < 32) N_0.symm⟩, rfl⟩
  obtain ⟨t, ht⟩ := ht
  obtain ⟨-, -, -, -, e0, e1⟩ := out_idx_facts t
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    omega
  | ⟨1, _⟩ =>
    show win0_11.index t (1 : Fin 2) * 128 ≤ (i 1).val ∧ (i 1).val < win0_11.index t (1 : Fin 2) * 128 + 128
    omega

/-! ## The tile's rows among the batch's rows, and the arguments as the body's blocks hold them -/

/-- Row p of the input block at point t is row 1024 * t + p of the input. -/
theorem xrow_at (t : Fin cfg0.N) (p : Fin 1024) :
    (fun k => iblk m c 0 t (ix2 p k)) = aX m c ⟨t.val * 1024 + p.val, row_lt t p⟩ :=
  funext fun k => (blk0_at m c t p k).trans (by rw [V_main_arg0]; rfl)

/-- Row p of the target block at point t is row 1024 * t + p of the target. -/
theorem trow_at (t : Fin cfg0.N) (p : Fin 1024) :
    (fun j => iblk m c 1 t (ix2 p j)) = aT m c ⟨t.val * 1024 + p.val, row_lt t p⟩ :=
  funext fun j => (blk1_at m c t p j).trans (by rw [V_main_arg1]; rfl)

/-- The memory block at every point is the memory matrix. -/
theorem smat_at (t : Fin cfg0.N) : (fun k j => iblk m c 8 t (ix2 k j)) = aS m c :=
  funext fun k => funext fun j => (blk8_at m c t k j).trans (by rw [V_main_arg14]; rfl)

/-! ## What the body leaves in the three output buffers at point t, at an index

At a first tile and at a later one the stored values are the same terms of the point's input blocks; those terms are
the row quantities of the specification at row 1024 * t + p. -/

/-- The precision buffer. -/
theorem buf10_at (t : Fin cfg0.N) (p : Fin 1024) (j : Fin 128) :
    (outsAt0 m c t.val t.isLt).2.1 (ix2 p j)
      = Spec.prec (aX m c ⟨t.val * 1024 + p.val, row_lt t p⟩) (aWp m c) (abp m c) j := by
  have hpay : k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t)) (ix2 p j)
      = Spec.prec (aX m c ⟨t.val * 1024 + p.val, row_lt t p⟩) (aWp m c) (abp m c) j := by
    refine (prec_at (iblk m c 0 t) (iblk m c 2 t) (iblk m c 3 t) (fun b k j => Wsrc m c b (ix2 k j)) (fun b k j => blkW_at m c t b k j)
      (fun b j => Bsrc m c b (ix1 j)) (fun b j => blkB_at m c t b j) p j).trans ?_
    rw [xrow_at m c t p]
    rfl
  by_cases h0 : t.val % 16 = 0
  · refine (congrFun (congrArg (fun x => x.2.1) (outsAt0_A m c t h0)) (ix2 p j)).trans ?_
    dsimp only
    refine (congrFun (out0_A_10_eq ..) (ix2 p j)).trans ?_
    exact hpay
  · refine (congrFun (congrArg (fun x => x.2.1) (outsAt0_B m c t h0)) (ix2 p j)).trans ?_
    dsimp only
    refine (congrFun (out0_B_10_eq ..) (ix2 p j)).trans ?_
    exact hpay

/-- The error buffer. -/
theorem buf11_at (t : Fin cfg0.N) (p : Fin 1024) (j : Fin 128) :
    (outsAt0 m c t.val t.isLt).2.2.1 (ix2 p j)
      = Spec.err (aX m c ⟨t.val * 1024 + p.val, row_lt t p⟩) (aT m c ⟨t.val * 1024 + p.val, row_lt t p⟩) (aWq m c) (abq m c) (aS m c) j := by
  have hpay : k0_pay20 (k0_pay11 (iblk m c 0 t) (iblk m c 2 t) (iblk m c 3 t)) (iblk m c 8 t) (iblk m c 1 t) (ix2 p j)
      = Spec.err (aX m c ⟨t.val * 1024 + p.val, row_lt t p⟩) (aT m c ⟨t.val * 1024 + p.val, row_lt t p⟩) (aWq m c) (abq m c) (aS m c) j := by
    refine (err_at (iblk m c 0 t) (iblk m c 2 t) (iblk m c 3 t) (fun b k j => Wsrc m c b (ix2 k j)) (fun b k j => blkW_at m c t b k j)
      (fun b j => Bsrc m c b (ix1 j)) (fun b j => blkB_at m c t b j) (iblk m c 8 t) (iblk m c 1 t) p j).trans ?_
    rw [xrow_at m c t p, trow_at m c t p, smat_at m c t]
    rfl
  by_cases h0 : t.val % 16 = 0
  · refine (congrFun (congrArg (fun x => x.2.2.1) (outsAt0_A m c t h0)) (ix2 p j)).trans ?_
    dsimp only
    refine (congrFun (out0_A_11_eq ..) (ix2 p j)).trans ?_
    exact hpay
  · refine (congrFun (congrArg (fun x => x.2.2.1) (outsAt0_B m c t h0)) (ix2 p j)).trans ?_
    dsimp only
    refine (congrFun (out0_B_11_eq ..) (ix2 p j)).trans ?_
    exact hpay

/-- The free-energy buffer. -/
theorem buf9_at (t : Fin cfg0.N) (p : Fin 1024) :
    (outsAt0 m c t.val t.isLt).1 (ix2 p (0 : Fin 1))
      = Spec.free (aX m c ⟨t.val * 1024 + p.val, row_lt t p⟩) (aT m c ⟨t.val * 1024 + p.val, row_lt t p⟩) (aWq m c) (abq m c)
          (aWp m c) (abp m c) (aS m c) := by
  have hpay : k0_pay21 (k0_pay11 (iblk m c 0 t) (iblk m c 2 t) (iblk m c 3 t)) (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))
        (iblk m c 8 t) (iblk m c 1 t) (ix2 p (0 : Fin 1))
      = Spec.free (aX m c ⟨t.val * 1024 + p.val, row_lt t p⟩) (aT m c ⟨t.val * 1024 + p.val, row_lt t p⟩) (aWq m c) (abq m c)
          (aWp m c) (abp m c) (aS m c) := by
    refine (free_at (iblk m c 0 t) (iblk m c 2 t) (iblk m c 3 t) (fun b k j => Wsrc m c b (ix2 k j)) (fun b k j => blkW_at m c t b k j)
      (fun b j => Bsrc m c b (ix1 j)) (fun b j => blkB_at m c t b j) (iblk m c 8 t) (iblk m c 1 t) p).trans ?_
    rw [xrow_at m c t p, trow_at m c t p, smat_at m c t]
    rfl
  by_cases h0 : t.val % 16 = 0
  · refine (congrFun (congrArg (fun x => x.1) (outsAt0_A m c t h0)) (ix2 p (0 : Fin 1))).trans ?_
    dsimp only
    refine (congrFun (out0_A_9_eq ..) (ix2 p (0 : Fin 1))).trans ?_
    exact hpay
  · refine (congrFun (congrArg (fun x => x.1) (outsAt0_B m c t h0)) (ix2 p (0 : Fin 1))).trans ?_
    dsimp only
    refine (congrFun (out0_B_9_eq ..) (ix2 p (0 : Fin 1))).trans ?_
    exact hpay

/-! ## What each point writes back, and the arrays after the last point -/

/-- Point t writes back block t of the precision array. -/
theorem flushed10_eq (t : Fin cfg0.N) :
    (dats m 0 c).flushed 10 t = ((cfg0.win 10).blk t).view.read (Elt Ideal) (G10 m c) := by
  show (cfg0.win 10).cut (grid0.coords t) ((dats m 0 c).after 10 t) = _
  rw [after0_10]
  obtain ⟨-, -, e0, e1, -⟩ := out_idx_facts t
  funext y
  obtain ⟨p, j, rfl⟩ : ∃ (p : Fin 1024) (j : Fin 128), y = ix2 p j := ⟨y 0, y 1, eq_ix2 (n0 := 1024) (n1 := 128) y⟩
  have h : ((cfg0.win 10).blk t).view.emb (ix2 p j) = ix2 ⟨t.val * 1024 + p.val, row_lt t p⟩ j := by
    funext a; apply Fin.ext
    match a with
    | ⟨0, _⟩ => show win0_10.index t (0 : Fin 2) * 1024 + 1 * p.val = t.val * 1024 + p.val; omega
    | ⟨1, _⟩ => show win0_10.index t (1 : Fin 2) * 128 + 1 * j.val = j.val; omega
  show (outsAt0 m c t.val t.isLt).2.1 (ix2 p j) = G10 m c (((cfg0.win 10).blk t).view.emb (ix2 p j))
  rw [h, buf10_at m c t p j]
  rfl

/-- Point t writes back block t of the error array. -/
theorem flushed11_eq (t : Fin cfg0.N) :
    (dats m 0 c).flushed 11 t = ((cfg0.win 11).blk t).view.read (Elt Ideal) (G11 m c) := by
  show (cfg0.win 11).cut (grid0.coords t) ((dats m 0 c).after 11 t) = _
  rw [after0_11]
  obtain ⟨-, -, -, -, e0, e1⟩ := out_idx_facts t
  funext y
  obtain ⟨p, j, rfl⟩ : ∃ (p : Fin 1024) (j : Fin 128), y = ix2 p j := ⟨y 0, y 1, eq_ix2 (n0 := 1024) (n1 := 128) y⟩
  have h : ((cfg0.win 11).blk t).view.emb (ix2 p j) = ix2 ⟨t.val * 1024 + p.val, row_lt t p⟩ j := by
    funext a; apply Fin.ext
    match a with
    | ⟨0, _⟩ => show win0_11.index t (0 : Fin 2) * 1024 + 1 * p.val = t.val * 1024 + p.val; omega
    | ⟨1, _⟩ => show win0_11.index t (1 : Fin 2) * 128 + 1 * j.val = j.val; omega
  show (outsAt0 m c t.val t.isLt).2.2.1 (ix2 p j) = G11 m c (((cfg0.win 11).blk t).view.emb (ix2 p j))
  rw [h, buf11_at m c t p j]
  rfl

/-- Point t writes back block t of the free-energy column. -/
theorem flushed9_eq (t : Fin cfg0.N) :
    (dats m 0 c).flushed 9 t = ((cfg0.win 9).blk t).view.read (Elt Ideal) (G9 m c) := by
  show (cfg0.win 9).cut (grid0.coords t) ((dats m 0 c).after 9 t) = _
  rw [after0_9]
  obtain ⟨e0, e1, -⟩ := out_idx_facts t
  funext y
  obtain ⟨p, u, rfl⟩ : ∃ (p : Fin 1024) (u : Fin 1), y = ix2 p u := ⟨y 0, y 1, eq_ix2 (n0 := 1024) (n1 := 1) y⟩
  obtain rfl : u = (0 : Fin 1) := Fin.ext (by omega)
  have h : ((cfg0.win 9).blk t).view.emb (ix2 p (0 : Fin 1)) = ix2 ⟨t.val * 1024 + p.val, row_lt t p⟩ (0 : Fin 1) := by
    funext a; apply Fin.ext
    match a with
    | ⟨0, _⟩ => show win0_9.index t (0 : Fin 2) * 1024 + 1 * p.val = t.val * 1024 + p.val; omega
    | ⟨1, _⟩ => show win0_9.index t (1 : Fin 2) * 1 + 1 * 0 = 0; omega
  show (outsAt0 m c t.val t.isLt).1 (ix2 p (0 : Fin 1)) = G9 m c (((cfg0.win 9).blk t).view.emb (ix2 p (0 : Fin 1)))
  rw [h, buf9_at m c t p]
  rfl

/-- The free-energy column after the last point. -/
theorem final9 : (dats m 0 c).arrAt 9 cfg0.N = G9 m c :=
  (dats m 0 c).arrAt_eq_of_cover 9 (G9 m c) (fun t _ => flushed9_eq m c t) cover9

/-- The precision array after the last point. -/
theorem final10 : (dats m 0 c).arrAt 10 cfg0.N = G10 m c :=
  (dats m 0 c).arrAt_eq_of_cover 10 (G10 m c) (fun t _ => flushed10_eq m c t) cover10

/-- The error array after the last point. -/
theorem final11 : (dats m 0 c).arrAt 11 cfg0.N = G11 m c :=
  (dats m 0 c).arrAt_eq_of_cover 11 (G11 m c) (fun t _ => flushed11_eq m c t) cover11

end Cert.KernelIdeal.ValueH

end
-- ==== Proof.FinalsSumsI.lean ====
/-
  The five per-core sum outputs of the region, as whole arrays.

  Each of the five accumulators is set to zero at the first tile of a core and, at every tile, gains
  the sum over the tile's 1024 rows of its row quantity.  After the sixteenth tile of a core it
  therefore holds the sum over all the core's rows, and that is the tile at which its window is
  written back, into the core's slot of the output array.
-/
import proofs.«154947_j29875792511782_2_alg».proof.Proof.FrameOutsI
import proofs.«154947_j29875792511782_2_alg».proof.Proof.PayloadAt
import proofs.«154947_j29875792511782_2_alg».proof.Proof.BlocksAt
import proofs.«154947_j29875792511782_2_alg».proof.Proof.ValueDefsI
import proofs.«154947_j29875792511782_2_alg».proof.Proof.LibBlockSums
import Idealize.ShloMosaic.Lib.ValueLayout
import Idealize.ShloMosaic.Lib.Pipeline.Value

set_option maxRecDepth 16384

noncomputable section

namespace Cert.KernelIdeal.ValueH

open Cert.KernelIdeal Cert.KernelIdeal.Gen Cert.KernelIdeal.Frame Cert.BlocksAt
open Idealize.ShloMosaic Idealize.ShloMosaic.TcCoe Idealize.ShloMosaic.ValueIdx Idealize.SL.Sem
open Idealize.ShloMosaic.Pipeline (Dat)

/-! ## An accumulator that is zeroed at the first of every sixteen steps -/

section Arith
variable {M : Type*} [AddCommMonoid M]

/-- Steps are numbered `k * b + i`.  If, at every step below `N`, the accumulator starts from zero when
    the step is a multiple of `b` and from its previous value otherwise, and gains `g` of the step, then
    after step `i` of group `k` it holds the sum of `g` over the steps `0, …, i` of the group. -/
theorem accumulate_reset_below {b N : ℕ} (g acc : ℕ → M)
    (hacc : ∀ t, t < N → acc t = (if t % b = 0 then 0 else acc (t - 1)) + g t) (k : ℕ) :
    ∀ i, i < b → k * b + i < N → acc (k * b + i) = ∑ i' ∈ Finset.range (i + 1), g (k * b + i')
  | 0, _, hN => by
    rw [hacc _ hN, Nat.add_zero, if_pos (Nat.mul_mod_left k b), zero_add, Finset.sum_range_one, Nat.add_zero]
  | i + 1, hi, hN => by
    have hmod : (k * b + (i + 1)) % b ≠ 0 := by
      rw [Nat.mul_add_mod_self_right, Nat.mod_eq_of_lt hi]; exact Nat.succ_ne_zero i
    have hprev : k * b + (i + 1) - 1 = k * b + i := rfl
    rw [hacc _ hN, if_neg hmod, hprev,
      accumulate_reset_below g acc hacc k i (Nat.lt_of_succ_lt hi) (Nat.lt_of_succ_lt hN),
      Finset.sum_range_succ (fun i' => g (k * b + i')) (i + 1)]

/-- Thirty-two steps in two groups of sixteen: after the last step of group `k` the accumulator holds
    the sum of `g` over the group's sixteen steps. -/
theorem core_sum_of_step (A g : ℕ → M)
    (hstep : ∀ t, t < 32 → A t = (if t % 16 = 0 then 0 else A (t - 1)) + g t) (k : ℕ) (hk : k < 2) :
    A (k * 16 + 15) = ∑ q : Fin 16, g (k * 16 + q.val) := by
  rw [accumulate_reset_below g A hstep k 15 (by omega) (by omega),
    Fin.sum_univ_eq_sum_range (fun i' => g (k * 16 + i')) 16]

end Arith

/-! ## Rows of a tile -/

/-- Row `p` of tile `n`, for any `n`: reduced modulo the batch size, which changes nothing below 32. -/
def rowN (n : ℕ) (p : Fin 1024) : Fin 32768 := ⟨(n * 1024 + p.val) % 32768, Nat.mod_lt _ (by decide)⟩

theorem rowN_of_point (t : Fin cfg0.N) (p : Fin 1024) : rowN t.val p = ⟨t.val * 1024 + p.val, row_lt t p⟩ :=
  Fin.ext (Nat.mod_eq_of_lt (row_lt t p))

theorem rowN_core (k : Fin 2) (q : Fin 16) (p : Fin 1024) : rowN (k.val * 16 + q.val) p = rowOfCore k q p :=
  Fin.ext (Nat.mod_eq_of_lt (Cert.Lib.BlockSums.index_lt_32768 k q p))

/-- A quantity carried over the grid's 32 points that starts from zero at the first tile of a core and gains,
    at point `t`, the sum of `f` over the tile's rows, is after the core's last tile the sum of `f` over the
    core's rows. -/
theorem acc_last_eq (A : Fin cfg0.N → EReal) (f : Fin 32768 → EReal)
    (hstep : ∀ t : Fin cfg0.N, A t
        = (if t.val % 16 = 0 then 0 else A ⟨t.val - 1, Nat.lt_of_le_of_lt (Nat.sub_le _ _) t.isLt⟩)
          + ∑ p : Fin 1024, f ⟨t.val * 1024 + p.val, row_lt t p⟩)
    (t : Fin cfg0.N) (k : Fin 2) (ht : t.val = k.val * 16 + 15) :
    A t = ∑ q : Fin 16, ∑ p : Fin 1024, f (rowOfCore k q p) := by
  have h32 : cfg0.N = 32 := N_0
  have hs : ∀ n, n < 32 →
      (fun n => if h : n < cfg0.N then A ⟨n, h⟩ else 0) n
        = (if n % 16 = 0 then 0 else (fun n => if h : n < cfg0.N then A ⟨n, h⟩ else 0) (n - 1))
          + (fun n => ∑ p : Fin 1024, f (rowN n p)) n := by
    intro n hn
    have hn' : n < cfg0.N := Nat.lt_of_lt_of_eq hn h32.symm
    have hn1 : n - 1 < cfg0.N := Nat.lt_of_le_of_lt (Nat.sub_le _ _) hn'
    show (if h : n < cfg0.N then A ⟨n, h⟩ else 0)
      = (if n % 16 = 0 then 0 else (if h : n - 1 < cfg0.N then A ⟨n - 1, h⟩ else 0)) + ∑ p : Fin 1024, f (rowN n p)
    rw [dif_pos hn', dif_pos hn1, hstep ⟨n, hn'⟩]
    exact congrArg _ (Finset.sum_congr rfl fun p _ => congrArg f (rowN_of_point ⟨n, hn'⟩ p).symm)
  have key := core_sum_of_step _ _ hs k.val k.isLt
  have hA : A t = (fun n => if h : n < cfg0.N then A ⟨n, h⟩ else 0) (k.val * 16 + 15) := by
    show A t = if h : k.val * 16 + 15 < cfg0.N then A ⟨k.val * 16 + 15, h⟩ else 0
    rw [dif_pos (ht ▸ t.isLt)]
    exact congrArg A (Fin.ext ht)
  rw [hA]
  refine key.trans ?_
  exact Finset.sum_congr rfl fun q _ => Finset.sum_congr rfl fun p _ => congrArg f (rowN_core k q p)

/-! ## Where the five windows' blocks sit -/

/-- The block index of each of the five windows at each grid point, decided over the grid: the core's slot. -/
theorem idx_facts_sums : ∀ t : Fin cfg0.N,
    win0_12.index t (0 : Fin 3) = t.val / 16 ∧ win0_12.index t (1 : Fin 3) = 0 ∧ win0_12.index t (2 : Fin 3) = 0
    ∧ win0_13.index t (0 : Fin 3) = t.val / 16 ∧ win0_13.index t (1 : Fin 3) = 0 ∧ win0_13.index t (2 : Fin 3) = 0
    ∧ win0_14.index t (0 : Fin 3) = t.val / 16 ∧ win0_14.index t (1 : Fin 3) = 0 ∧ win0_14.index t (2 : Fin 3) = 0
    ∧ win0_15.index t (0 : Fin 3) = t.val / 16 ∧ win0_15.index t (1 : Fin 3) = 0 ∧ win0_15.index t (2 : Fin 3) = 0
    ∧ win0_16.index t (0 : Fin 3) = t.val / 16 ∧ win0_16.index t (1 : Fin 3) = 0 ∧ win0_16.index t (2 : Fin 3) = 0 :=
  (by decide +kernel : ∀ t : Fin grid0.N, _)

/-! ## The five windows' geometry -/

/-- Feature `j` of window 12's block at point `t` sits at `(t / 16, 0, j)` of its array. -/
theorem emb12 (t : Fin cfg0.N) (j : Fin 128) (hk : t.val / 16 < 2) :
    ((cfg0.win 12).blk t).view.emb (ix3 (0 : Fin 1) (0 : Fin 1) j) = ix3 (⟨t.val / 16, hk⟩ : Fin 2) (0 : Fin 1) j := by
  have e := idx_facts_sums t
  have e0 : win0_12.index t (0 : Fin 3) = t.val / 16 := e.1
  have e1 : win0_12.index t (1 : Fin 3) = 0 := e.2.1
  have e2 : win0_12.index t (2 : Fin 3) = 0 := e.2.2.1
  funext a; apply Fin.ext
  match a with
  | ⟨0, _⟩ => show win0_12.index t (0 : Fin 3) * 1 + 1 * 0 = t.val / 16; omega
  | ⟨1, _⟩ => show win0_12.index t (1 : Fin 3) * 1 + 1 * 0 = 0; omega
  | ⟨2, _⟩ => show win0_12.index t (2 : Fin 3) * 128 + 1 * j.val = j.val; omega

/-- An index of window 12's array is in point `t`'s block iff each coordinate is in the block's range. -/
theorem mem_blk12 (t : Fin cfg0.N) (i : S2x1x128.Idx) :
    i ∈ ((cfg0.win 12).blk t).view.set ↔ ∀ a : Fin 3, win0_12.index t a * S1x1x128.size a ≤ (i a).val
      ∧ (i a).val < win0_12.index t a * S1x1x128.size a + S1x1x128.size a := by
  show i ∈ ((View.whole main_v3_3).slice (win0_12.rect t)).set ↔ _
  rw [View.set_slice_whole, Rect.mem_set_unit]
  exact Iff.rfl

/-- Every index of window 12's array is in the block of a point at which the window is written back. -/
theorem cover12 (i : S2x1x128.Idx) :
    ∃ t : Fin cfg0.N, (cfg0.win 12).flush t = true ∧ i ∈ ((cfg0.win 12).blk t).view.set := by
  have h0 : (i 0).val < 2 := (i 0).isLt
  have h1 : (i 1).val < 1 := (i 1).isLt
  have h2 : (i 2).val < 128 := (i 2).isLt
  have hN : (i 0).val * 16 + 15 < cfg0.N := Nat.lt_of_lt_of_eq (by omega) N_0.symm
  refine ⟨⟨(i 0).val * 16 + 15, hN⟩, (flush0_12 _).mpr (by show ((i 0).val * 16 + 15) % 16 = 15; omega), ?_⟩
  rw [mem_blk12]
  have e := idx_facts_sums ⟨(i 0).val * 16 + 15, hN⟩
  have e0 : win0_12.index ⟨(i 0).val * 16 + 15, hN⟩ (0 : Fin 3) = (i 0).val := by
    rw [e.1]; show ((i 0).val * 16 + 15) / 16 = (i 0).val; omega
  have e1 : win0_12.index ⟨(i 0).val * 16 + 15, hN⟩ (1 : Fin 3) = 0 := e.2.1
  have e2 : win0_12.index ⟨(i 0).val * 16 + 15, hN⟩ (2 : Fin 3) = 0 := e.2.2.1
  intro a
  match a with
  | ⟨0, _⟩ =>
    show win0_12.index ⟨(i 0).val * 16 + 15, hN⟩ (0 : Fin 3) * 1 ≤ (i 0).val
      ∧ (i 0).val < win0_12.index ⟨(i 0).val * 16 + 15, hN⟩ (0 : Fin 3) * 1 + 1
    omega
  | ⟨1, _⟩ =>
    show win0_12.index ⟨(i 0).val * 16 + 15, hN⟩ (1 : Fin 3) * 1 ≤ (i 1).val
      ∧ (i 1).val < win0_12.index ⟨(i 0).val * 16 + 15, hN⟩ (1 : Fin 3) * 1 + 1
    omega
  | ⟨2, _⟩ =>
    show win0_12.index ⟨(i 0).val * 16 + 15, hN⟩ (2 : Fin 3) * 128 ≤ (i 2).val
      ∧ (i 2).val < win0_12.index ⟨(i 0).val * 16 + 15, hN⟩ (2 : Fin 3) * 128 + 128
    omega

/-- Feature `j` of window 13's block at point `t` sits at `(t / 16, 0, j)` of its array. -/
theorem emb13 (t : Fin cfg0.N) (j : Fin 128) (hk : t.val / 16 < 2) :
    ((cfg0.win 13).blk t).view.emb (ix3 (0 : Fin 1) (0 : Fin 1) j) = ix3 (⟨t.val / 16, hk⟩ : Fin 2) (0 : Fin 1) j := by
  have e := idx_facts_sums t
  have e0 : win0_13.index t (0 : Fin 3) = t.val / 16 := e.2.2.2.1
  have e1 : win0_13.index t (1 : Fin 3) = 0 := e.2.2.2.2.1
  have e2 : win0_13.index t (2 : Fin 3) = 0 := e.2.2.2.2.2.1
  funext a; apply Fin.ext
  match a with
  | ⟨0, _⟩ => show win0_13.index t (0 : Fin 3) * 1 + 1 * 0 = t.val / 16; omega
  | ⟨1, _⟩ => show win0_13.index t (1 : Fin 3) * 1 + 1 * 0 = 0; omega
  | ⟨2, _⟩ => show win0_13.index t (2 : Fin 3) * 128 + 1 * j.val = j.val; omega

/-- An index of window 13's array is in point `t`'s block iff each coordinate is in the block's range. -/
theorem mem_blk13 (t : Fin cfg0.N) (i : S2x1x128.Idx) :
    i ∈ ((cfg0.win 13).blk t).view.set ↔ ∀ a : Fin 3, win0_13.index t a * S1x1x128.size a ≤ (i a).val
      ∧ (i a).val < win0_13.index t a * S1x1x128.size a + S1x1x128.size a := by
  show i ∈ ((View.whole main_v3_4).slice (win0_13.rect t)).set ↔ _
  rw [View.set_slice_whole, Rect.mem_set_unit]
  exact Iff.rfl

/-- Every index of window 13's array is in the block of a point at which the window is written back. -/
theorem cover13 (i : S2x1x128.Idx) :
    ∃ t : Fin cfg0.N, (cfg0.win 13).flush t = true ∧ i ∈ ((cfg0.win 13).blk t).view.set := by
  have h0 : (i 0).val < 2 := (i 0).isLt
  have h1 : (i 1).val < 1 := (i 1).isLt
  have h2 : (i 2).val < 128 := (i 2).isLt
  have hN : (i 0).val * 16 + 15 < cfg0.N := Nat.lt_of_lt_of_eq (by omega) N_0.symm
  refine ⟨⟨(i 0).val * 16 + 15, hN⟩, (flush0_13 _).mpr (by show ((i 0).val * 16 + 15) % 16 = 15; omega), ?_⟩
  rw [mem_blk13]
  have e := idx_facts_sums ⟨(i 0).val * 16 + 15, hN⟩
  have e0 : win0_13.index ⟨(i 0).val * 16 + 15, hN⟩ (0 : Fin 3) = (i 0).val := by
    rw [e.2.2.2.1]; show ((i 0).val * 16 + 15) / 16 = (i 0).val; omega
  have e1 : win0_13.index ⟨(i 0).val * 16 + 15, hN⟩ (1 : Fin 3) = 0 := e.2.2.2.2.1
  have e2 : win0_13.index ⟨(i 0).val * 16 + 15, hN⟩ (2 : Fin 3) = 0 := e.2.2.2.2.2.1
  intro a
  match a with
  | ⟨0, _⟩ =>
    show win0_13.index ⟨(i 0).val * 16 + 15, hN⟩ (0 : Fin 3) * 1 ≤ (i 0).val
      ∧ (i 0).val < win0_13.index ⟨(i 0).val * 16 + 15, hN⟩ (0 : Fin 3) * 1 + 1
    omega
  | ⟨1, _⟩ =>
    show win0_13.index ⟨(i 0).val * 16 + 15, hN⟩ (1 : Fin 3) * 1 ≤ (i 1).val
      ∧ (i 1).val < win0_13.index ⟨(i 0).val * 16 + 15, hN⟩ (1 : Fin 3) * 1 + 1
    omega
  | ⟨2, _⟩ =>
    show win0_13.index ⟨(i 0).val * 16 + 15, hN⟩ (2 : Fin 3) * 128 ≤ (i 2).val
      ∧ (i 2).val < win0_13.index ⟨(i 0).val * 16 + 15, hN⟩ (2 : Fin 3) * 128 + 128
    omega

/-- Feature `j` of window 14's block at point `t` sits at `(t / 16, 0, j)` of its array. -/
theorem emb14 (t : Fin cfg0.N) (j : Fin 128) (hk : t.val / 16 < 2) :
    ((cfg0.win 14).blk t).view.emb (ix3 (0 : Fin 1) (0 : Fin 1) j) = ix3 (⟨t.val / 16, hk⟩ : Fin 2) (0 : Fin 1) j := by
  have e := idx_facts_sums t
  have e0 : win0_14.index t (0 : Fin 3) = t.val / 16 := e.2.2.2.2.2.2.1
  have e1 : win0_14.index t (1 : Fin 3) = 0 := e.2.2.2.2.2.2.2.1
  have e2 : win0_14.index t (2 : Fin 3) = 0 := e.2.2.2.2.2.2.2.2.1
  funext a; apply Fin.ext
  match a with
  | ⟨0, _⟩ => show win0_14.index t (0 : Fin 3) * 1 + 1 * 0 = t.val / 16; omega
  | ⟨1, _⟩ => show win0_14.index t (1 : Fin 3) * 1 + 1 * 0 = 0; omega
  | ⟨2, _⟩ => show win0_14.index t (2 : Fin 3) * 128 + 1 * j.val = j.val; omega

/-- An index of window 14's array is in point `t`'s block iff each coordinate is in the block's range. -/
theorem mem_blk14 (t : Fin cfg0.N) (i : S2x1x128.Idx) :
    i ∈ ((cfg0.win 14).blk t).view.set ↔ ∀ a : Fin 3, win0_14.index t a * S1x1x128.size a ≤ (i a).val
      ∧ (i a).val < win0_14.index t a * S1x1x128.size a + S1x1x128.size a := by
  show i ∈ ((View.whole main_v3_5).slice (win0_14.rect t)).set ↔ _
  rw [View.set_slice_whole, Rect.mem_set_unit]
  exact Iff.rfl

/-- Every index of window 14's array is in the block of a point at which the window is written back. -/
theorem cover14 (i : S2x1x128.Idx) :
    ∃ t : Fin cfg0.N, (cfg0.win 14).flush t = true ∧ i ∈ ((cfg0.win 14).blk t).view.set := by
  have h0 : (i 0).val < 2 := (i 0).isLt
  have h1 : (i 1).val < 1 := (i 1).isLt
  have h2 : (i 2).val < 128 := (i 2).isLt
  have hN : (i 0).val * 16 + 15 < cfg0.N := Nat.lt_of_lt_of_eq (by omega) N_0.symm
  refine ⟨⟨(i 0).val * 16 + 15, hN⟩, (flush0_14 _).mpr (by show ((i 0).val * 16 + 15) % 16 = 15; omega), ?_⟩
  rw [mem_blk14]
  have e := idx_facts_sums ⟨(i 0).val * 16 + 15, hN⟩
  have e0 : win0_14.index ⟨(i 0).val * 16 + 15, hN⟩ (0 : Fin 3) = (i 0).val := by
    rw [e.2.2.2.2.2.2.1]; show ((i 0).val * 16 + 15) / 16 = (i 0).val; omega
  have e1 : win0_14.index ⟨(i 0).val * 16 + 15, hN⟩ (1 : Fin 3) = 0 := e.2.2.2.2.2.2.2.1
  have e2 : win0_14.index ⟨(i 0).val * 16 + 15, hN⟩ (2 : Fin 3) = 0 := e.2.2.2.2.2.2.2.2.1
  intro a
  match a with
  | ⟨0, _⟩ =>
    show win0_14.index ⟨(i 0).val * 16 + 15, hN⟩ (0 : Fin 3) * 1 ≤ (i 0).val
      ∧ (i 0).val < win0_14.index ⟨(i 0).val * 16 + 15, hN⟩ (0 : Fin 3) * 1 + 1
    omega
  | ⟨1, _⟩ =>
    show win0_14.index ⟨(i 0).val * 16 + 15, hN⟩ (1 : Fin 3) * 1 ≤ (i 1).val
      ∧ (i 1).val < win0_14.index ⟨(i 0).val * 16 + 15, hN⟩ (1 : Fin 3) * 1 + 1
    omega
  | ⟨2, _⟩ =>
    show win0_14.index ⟨(i 0).val * 16 + 15, hN⟩ (2 : Fin 3) * 128 ≤ (i 2).val
      ∧ (i 2).val < win0_14.index ⟨(i 0).val * 16 + 15, hN⟩ (2 : Fin 3) * 128 + 128
    omega

/-- The one entry of window 15's block at point `t` sits at `(t / 16, 0, 0)` of its array. -/
theorem emb15 (t : Fin cfg0.N) (hk : t.val / 16 < 2) :
    ((cfg0.win 15).blk t).view.emb (ix3 (0 : Fin 1) (0 : Fin 1) (0 : Fin 1)) = ix3 (⟨t.val / 16, hk⟩ : Fin 2) (0 : Fin 1) (0 : Fin 1) := by
  have e := idx_facts_sums t
  have e0 : win0_15.index t (0 : Fin 3) = t.val / 16 := e.2.2.2.2.2.2.2.2.2.1
  have e1 : win0_15.index t (1 : Fin 3) = 0 := e.2.2.2.2.2.2.2.2.2.2.1
  have e2 : win0_15.index t (2 : Fin 3) = 0 := e.2.2.2.2.2.2.2.2.2.2.2.1
  funext a; apply Fin.ext
  match a with
  | ⟨0, _⟩ => show win0_15.index t (0 : Fin 3) * 1 + 1 * 0 = t.val / 16; omega
  | ⟨1, _⟩ => show win0_15.index t (1 : Fin 3) * 1 + 1 * 0 = 0; omega
  | ⟨2, _⟩ => show win0_15.index t (2 : Fin 3) * 1 + 1 * 0 = 0; omega

/-- An index of window 15's array is in point `t`'s block iff each coordinate is in the block's range. -/
theorem mem_blk15 (t : Fin cfg0.N) (i : S2x1x1.Idx) :
    i ∈ ((cfg0.win 15).blk t).view.set ↔ ∀ a : Fin 3, win0_15.index t a * S1x1x1.size a ≤ (i a).val
      ∧ (i a).val < win0_15.index t a * S1x1x1.size a + S1x1x1.size a := by
  show i ∈ ((View.whole main_v3_6).slice (win0_15.rect t)).set ↔ _
  rw [View.set_slice_whole, Rect.mem_set_unit]
  exact Iff.rfl

/-- Every index of window 15's array is in the block of a point at which the window is written back. -/
theorem cover15 (i : S2x1x1.Idx) :
    ∃ t : Fin cfg0.N, (cfg0.win 15).flush t = true ∧ i ∈ ((cfg0.win 15).blk t).view.set := by
  have h0 : (i 0).val < 2 := (i 0).isLt
  have h1 : (i 1).val < 1 := (i 1).isLt
  have h2 : (i 2).val < 1 := (i 2).isLt
  have hN : (i 0).val * 16 + 15 < cfg0.N := Nat.lt_of_lt_of_eq (by omega) N_0.symm
  refine ⟨⟨(i 0).val * 16 + 15, hN⟩, (flush0_15 _).mpr (by show ((i 0).val * 16 + 15) % 16 = 15; omega), ?_⟩
  rw [mem_blk15]
  have e := idx_facts_sums ⟨(i 0).val * 16 + 15, hN⟩
  have e0 : win0_15.index ⟨(i 0).val * 16 + 15, hN⟩ (0 : Fin 3) = (i 0).val := by
    rw [e.2.2.2.2.2.2.2.2.2.1]; show ((i 0).val * 16 + 15) / 16 = (i 0).val; omega
  have e1 : win0_15.index ⟨(i 0).val * 16 + 15, hN⟩ (1 : Fin 3) = 0 := e.2.2.2.2.2.2.2.2.2.2.1
  have e2 : win0_15.index ⟨(i 0).val * 16 + 15, hN⟩ (2 : Fin 3) = 0 := e.2.2.2.2.2.2.2.2.2.2.2.1
  intro a
  match a with
  | ⟨0, _⟩ =>
    show win0_15.index ⟨(i 0).val * 16 + 15, hN⟩ (0 : Fin 3) * 1 ≤ (i 0).val
      ∧ (i 0).val < win0_15.index ⟨(i 0).val * 16 + 15, hN⟩ (0 : Fin 3) * 1 + 1
    omega
  | ⟨1, _⟩ =>
    show win0_15.index ⟨(i 0).val * 16 + 15, hN⟩ (1 : Fin 3) * 1 ≤ (i 1).val
      ∧ (i 1).val < win0_15.index ⟨(i 0).val * 16 + 15, hN⟩ (1 : Fin 3) * 1 + 1
    omega
  | ⟨2, _⟩ =>
    show win0_15.index ⟨(i 0).val * 16 + 15, hN⟩ (2 : Fin 3) * 1 ≤ (i 2).val
      ∧ (i 2).val < win0_15.index ⟨(i 0).val * 16 + 15, hN⟩ (2 : Fin 3) * 1 + 1
    omega

/-- The one entry of window 16's block at point `t` sits at `(t / 16, 0, 0)` of its array. -/
theorem emb16 (t : Fin cfg0.N) (hk : t.val / 16 < 2) :
    ((cfg0.win 16).blk t).view.emb (ix3 (0 : Fin 1) (0 : Fin 1) (0 : Fin 1)) = ix3 (⟨t.val / 16, hk⟩ : Fin 2) (0 : Fin 1) (0 : Fin 1) := by
  have e := idx_facts_sums t
  have e0 : win0_16.index t (0 : Fin 3) = t.val / 16 := e.2.2.2.2.2.2.2.2.2.2.2.2.1
  have e1 : win0_16.index t (1 : Fin 3) = 0 := e.2.2.2.2.2.2.2.2.2.2.2.2.2.1
  have e2 : win0_16.index t (2 : Fin 3) = 0 := e.2.2.2.2.2.2.2.2.2.2.2.2.2.2
  funext a; apply Fin.ext
  match a with
  | ⟨0, _⟩ => show win0_16.index t (0 : Fin 3) * 1 + 1 * 0 = t.val / 16; omega
  | ⟨1, _⟩ => show win0_16.index t (1 : Fin 3) * 1 + 1 * 0 = 0; omega
  | ⟨2, _⟩ => show win0_16.index t (2 : Fin 3) * 1 + 1 * 0 = 0; omega

/-- An index of window 16's array is in point `t`'s block iff each coordinate is in the block's range. -/
theorem mem_blk16 (t : Fin cfg0.N) (i : S2x1x1.Idx) :
    i ∈ ((cfg0.win 16).blk t).view.set ↔ ∀ a : Fin 3, win0_16.index t a * S1x1x1.size a ≤ (i a).val
      ∧ (i a).val < win0_16.index t a * S1x1x1.size a + S1x1x1.size a := by
  show i ∈ ((View.whole main_v3_7).slice (win0_16.rect t)).set ↔ _
  rw [View.set_slice_whole, Rect.mem_set_unit]
  exact Iff.rfl

/-- Every index of window 16's array is in the block of a point at which the window is written back. -/
theorem cover16 (i : S2x1x1.Idx) :
    ∃ t : Fin cfg0.N, (cfg0.win 16).flush t = true ∧ i ∈ ((cfg0.win 16).blk t).view.set := by
  have h0 : (i 0).val < 2 := (i 0).isLt
  have h1 : (i 1).val < 1 := (i 1).isLt
  have h2 : (i 2).val < 1 := (i 2).isLt
  have hN : (i 0).val * 16 + 15 < cfg0.N := Nat.lt_of_lt_of_eq (by omega) N_0.symm
  refine ⟨⟨(i 0).val * 16 + 15, hN⟩, (flush0_16 _).mpr (by show ((i 0).val * 16 + 15) % 16 = 15; omega), ?_⟩
  rw [mem_blk16]
  have e := idx_facts_sums ⟨(i 0).val * 16 + 15, hN⟩
  have e0 : win0_16.index ⟨(i 0).val * 16 + 15, hN⟩ (0 : Fin 3) = (i 0).val := by
    rw [e.2.2.2.2.2.2.2.2.2.2.2.2.1]; show ((i 0).val * 16 + 15) / 16 = (i 0).val; omega
  have e1 : win0_16.index ⟨(i 0).val * 16 + 15, hN⟩ (1 : Fin 3) = 0 := e.2.2.2.2.2.2.2.2.2.2.2.2.2.1
  have e2 : win0_16.index ⟨(i 0).val * 16 + 15, hN⟩ (2 : Fin 3) = 0 := e.2.2.2.2.2.2.2.2.2.2.2.2.2.2
  intro a
  match a with
  | ⟨0, _⟩ =>
    show win0_16.index ⟨(i 0).val * 16 + 15, hN⟩ (0 : Fin 3) * 1 ≤ (i 0).val
      ∧ (i 0).val < win0_16.index ⟨(i 0).val * 16 + 15, hN⟩ (0 : Fin 3) * 1 + 1
    omega
  | ⟨1, _⟩ =>
    show win0_16.index ⟨(i 0).val * 16 + 15, hN⟩ (1 : Fin 3) * 1 ≤ (i 1).val
      ∧ (i 1).val < win0_16.index ⟨(i 0).val * 16 + 15, hN⟩ (1 : Fin 3) * 1 + 1
    omega
  | ⟨2, _⟩ =>
    show win0_16.index ⟨(i 0).val * 16 + 15, hN⟩ (2 : Fin 3) * 1 ≤ (i 2).val
      ∧ (i 2).val < win0_16.index ⟨(i 0).val * 16 + 15, hN⟩ (2 : Fin 3) * 1 + 1
    omega

/-! ## The blocks the body loads, as the curried arguments -/

variable (m : (ℓ : Loc nD τ sig) → Buf (Elt Ideal) ℓ) (c : Dev nD)

/-- A row of the input block at point `t` is the batch's row `1024 * t + p`. -/
theorem xrow_at (t : Fin cfg0.N) (p : Fin 1024) :
    (fun k : Fin 2048 => iblk m c 0 t (ix2 p k)) = aX m c ⟨t.val * 1024 + p.val, row_lt t p⟩ :=
  funext fun k => (blk0_at m c t p k).trans (congrFun (V_main_arg0 m c) _)

theorem W0_eq : (fun (k : Fin 2048) (j : Fin 128) => Wsrc m c 0 (ix2 k j)) = aWk m c := rfl
theorem B0_eq : (fun (j : Fin 128) => Bsrc m c 0 (ix1 j)) = abk m c := rfl
theorem W1_eq : (fun (k : Fin 2048) (j : Fin 128) => Wsrc m c 1 (ix2 k j)) = aWv m c := rfl
theorem B1_eq : (fun (j : Fin 128) => Bsrc m c 1 (ix1 j)) = abv m c := rfl
theorem W3_eq : (fun (k : Fin 2048) (j : Fin 128) => Wsrc m c 3 (ix2 k j)) = aWp m c := rfl
theorem B3_eq : (fun (j : Fin 128) => Bsrc m c 3 (ix1 j)) = abp m c := rfl

/-- The memory block at every point is the memory matrix. -/
theorem S_at (t : Fin cfg0.N) : (fun (k j : Fin 128) => iblk m c 8 t (ix2 k j)) = aS m c :=
  funext fun k => funext fun j => (blk8_at m c t k j).trans (congrFun (V_main_arg14 m c) _)

/-- The beta gate's weights and bias at every point. -/
theorem wbeta_at (t : Fin cfg0.N) : (fun k : Fin 2048 => iblk m c 4 t (ix2 k (0 : Fin 1))) = aWbeta m c :=
  funext fun k => (blk4_at m c t k 0).trans (congrFun (V_main_arg8 m c) _)
theorem bbeta_at (t : Fin cfg0.N) : iblk m c 5 t (ix1 (0 : Fin 1)) = abbeta m c :=
  (blk5_at m c t 0).trans (congrFun (V_main_arg9 m c) _)

/-- The tau gate's weights and bias at every point. -/
theorem wtau_at (t : Fin cfg0.N) : (fun k : Fin 2048 => iblk m c 6 t (ix2 k (0 : Fin 1))) = aWtau m c :=
  funext fun k => (blk6_at m c t k 0).trans (congrFun (V_main_arg12 m c) _)
theorem btau_at (t : Fin cfg0.N) : iblk m c 7 t (ix1 (0 : Fin 1)) = abtau m c :=
  (blk7_at m c t 0).trans (congrFun (V_main_arg13 m c) _)

/-! ## The five accumulators at an index -/

/-- The accumulator of the normalized keys after point `t`, at feature `j`. -/
def acc0At (t : Fin cfg0.N) (j : Fin 128) : EReal :=
  (outsAt0 m c t.val t.isLt).2.2.2.2.2.2.2.2.1 (ix2 (0 : Fin 1) j)

/-- The accumulator of the clipped prediction errors after point `t`, at feature `j`. -/
def acc1At (t : Fin cfg0.N) (j : Fin 128) : EReal :=
  (outsAt0 m c t.val t.isLt).2.2.2.2.2.2.2.2.2.1 (ix2 (0 : Fin 1) j)

/-- The accumulator of the precisions after point `t`, at feature `j`. -/
def acc2At (t : Fin cfg0.N) (j : Fin 128) : EReal :=
  (outsAt0 m c t.val t.isLt).2.2.2.2.2.2.2.2.2.2.1 (ix2 (0 : Fin 1) j)

/-- The accumulator of the gates beta after point `t`. -/
def acc3At (t : Fin cfg0.N) : EReal :=
  (outsAt0 m c t.val t.isLt).2.2.2.2.2.2.2.2.2.2.2.1 (ix2 (0 : Fin 1) (0 : Fin 1))

/-- The accumulator of the time constants tau after point `t`. -/
def acc4At (t : Fin cfg0.N) : EReal :=
  (outsAt0 m c t.val t.isLt).2.2.2.2.2.2.2.2.2.2.2.2 (ix2 (0 : Fin 1) (0 : Fin 1))

/-! ## What the two cases of the body leave

The facts about the body's two cases that this module rests on, gathered in one record: at a first tile each
accumulator is its update of a block that reads zero, at a later tile its update of what the point before
left, and each of the five windows' staging buffers is the new accumulator with two unit axes in front. -/

/-- The facts about the body's two cases, for the launch memory `m` and core `c`. -/
structure PieceFacts where
  Z0 : Vec Ideal S1x128 .f32
  hZ0 : ∀ j : Fin 128, Z0 (ix2 (0 : Fin 1) j) = 0
  accA0 : ∀ (t : Fin cfg0.N), t.val % 16 = 0 →
    (outsAt0 m c t.val t.isLt).2.2.2.2.2.2.2.2.1 = k0_pay23 (k0_pay10 (iblk m c 0 t) (iblk m c 2 t) (iblk m c 3 t)) Z0
  accB0 : ∀ (t : Fin cfg0.N), ¬t.val % 16 = 0 →
    (outsAt0 m c t.val t.isLt).2.2.2.2.2.2.2.2.1 = k0_pay23 (k0_pay10 (iblk m c 0 t) (iblk m c 2 t) (iblk m c 3 t)) ((outsAt0 m c (t.val - 1) (Nat.lt_of_le_of_lt (Nat.sub_le _ _) t.isLt)).2.2.2.2.2.2.2.2.1)
  outW12 : ∀ (t : Fin cfg0.N),
    (outsAt0 m c t.val t.isLt).2.2.2.1 = k0_pay28 ((outsAt0 m c t.val t.isLt).2.2.2.2.2.2.2.2.1)
  Z1 : Vec Ideal S1x128 .f32
  hZ1 : ∀ j : Fin 128, Z1 (ix2 (0 : Fin 1) j) = 0
  accA1 : ∀ (t : Fin cfg0.N), t.val % 16 = 0 →
    (outsAt0 m c t.val t.isLt).2.2.2.2.2.2.2.2.2.1 = k0_pay24 (k0_pay22 (k0_pay8 (iblk m c 0 t) (iblk m c 2 t) (iblk m c 3 t)) (k0_pay10 (iblk m c 0 t) (iblk m c 2 t) (iblk m c 3 t)) (iblk m c 8 t)) Z1
  accB1 : ∀ (t : Fin cfg0.N), ¬t.val % 16 = 0 →
    (outsAt0 m c t.val t.isLt).2.2.2.2.2.2.2.2.2.1 = k0_pay24 (k0_pay22 (k0_pay8 (iblk m c 0 t) (iblk m c 2 t) (iblk m c 3 t)) (k0_pay10 (iblk m c 0 t) (iblk m c 2 t) (iblk m c 3 t)) (iblk m c 8 t)) ((outsAt0 m c (t.val - 1) (Nat.lt_of_le_of_lt (Nat.sub_le _ _) t.isLt)).2.2.2.2.2.2.2.2.2.1)
  outW13 : ∀ (t : Fin cfg0.N),
    (outsAt0 m c t.val t.isLt).2.2.2.2.1 = k0_pay29 ((outsAt0 m c t.val t.isLt).2.2.2.2.2.2.2.2.2.1)
  Z2 : Vec Ideal S1x128 .f32
  hZ2 : ∀ j : Fin 128, Z2 (ix2 (0 : Fin 1) j) = 0
  accA2 : ∀ (t : Fin cfg0.N), t.val % 16 = 0 →
    (outsAt0 m c t.val t.isLt).2.2.2.2.2.2.2.2.2.2.1 = k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) Z2
  accB2 : ∀ (t : Fin cfg0.N), ¬t.val % 16 = 0 →
    (outsAt0 m c t.val t.isLt).2.2.2.2.2.2.2.2.2.2.1 = k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) ((outsAt0 m c (t.val - 1) (Nat.lt_of_le_of_lt (Nat.sub_le _ _) t.isLt)).2.2.2.2.2.2.2.2.2.2.1)
  outW14 : ∀ (t : Fin cfg0.N),
    (outsAt0 m c t.val t.isLt).2.2.2.2.2.1 = k0_pay30 ((outsAt0 m c t.val t.isLt).2.2.2.2.2.2.2.2.2.2.1)
  Z3 : Vec Ideal S1x1 .f32
  hZ3 : Z3 (ix2 (0 : Fin 1) (0 : Fin 1)) = 0
  accA3 : ∀ (t : Fin cfg0.N), t.val % 16 = 0 →
    (outsAt0 m c t.val t.isLt).2.2.2.2.2.2.2.2.2.2.2.1 = k0_pay26 (k0_pay18 (iblk m c 0 t) (iblk m c 4 t) (iblk m c 5 t)) Z3
  accB3 : ∀ (t : Fin cfg0.N), ¬t.val % 16 = 0 →
    (outsAt0 m c t.val t.isLt).2.2.2.2.2.2.2.2.2.2.2.1 = k0_pay26 (k0_pay18 (iblk m c 0 t) (iblk m c 4 t) (iblk m c 5 t)) ((outsAt0 m c (t.val - 1) (Nat.lt_of_le_of_lt (Nat.sub_le _ _) t.isLt)).2.2.2.2.2.2.2.2.2.2.2.1)
  outW15 : ∀ (t : Fin cfg0.N),
    (outsAt0 m c t.val t.isLt).2.2.2.2.2.2.1 = k0_pay31 ((outsAt0 m c t.val t.isLt).2.2.2.2.2.2.2.2.2.2.2.1)
  Z4 : Vec Ideal S1x1 .f32
  hZ4 : Z4 (ix2 (0 : Fin 1) (0 : Fin 1)) = 0
  accA4 : ∀ (t : Fin cfg0.N), t.val % 16 = 0 →
    (outsAt0 m c t.val t.isLt).2.2.2.2.2.2.2.2.2.2.2.2 = k0_pay27 (k0_pay19 (iblk m c 0 t) (iblk m c 6 t) (iblk m c 7 t)) Z4
  accB4 : ∀ (t : Fin cfg0.N), ¬t.val % 16 = 0 →
    (outsAt0 m c t.val t.isLt).2.2.2.2.2.2.2.2.2.2.2.2 = k0_pay27 (k0_pay19 (iblk m c 0 t) (iblk m c 6 t) (iblk m c 7 t)) ((outsAt0 m c (t.val - 1) (Nat.lt_of_le_of_lt (Nat.sub_le _ _) t.isLt)).2.2.2.2.2.2.2.2.2.2.2.2)
  outW16 : ∀ (t : Fin cfg0.N),
    (outsAt0 m c t.val t.isLt).2.2.2.2.2.2.2.1 = k0_pay1 ((outsAt0 m c t.val t.isLt).2.2.2.2.2.2.2.2.2.2.2.2)

variable (P : PieceFacts m c)
include P

/-! ## The five accumulators and their windows -/

/-! ### Window 12: the normalized keys -/

/-- One step of that accumulator: zero at the first tile of a core, otherwise its previous value, plus the tile's sum. -/
theorem acc0_step (j : Fin 128) (t : Fin cfg0.N) :
    acc0At m c t j
      = (if t.val % 16 = 0 then 0 else acc0At m c ⟨t.val - 1, Nat.lt_of_le_of_lt (Nat.sub_le _ _) t.isLt⟩ j)
        + ∑ p : Fin 1024, Spec.key (aX m c ⟨t.val * 1024 + p.val, row_lt t p⟩) (aWk m c) (abk m c) j := by
  have hsum : ∀ v : Vec Ideal S1x128 .f32,
      (k0_pay23 (k0_pay10 (iblk m c 0 t) (iblk m c 2 t) (iblk m c 3 t)) v) (ix2 (0 : Fin 1) j)
        = v (ix2 (0 : Fin 1) j) + ∑ p : Fin 1024, Spec.key (aX m c ⟨t.val * 1024 + p.val, row_lt t p⟩) (aWk m c) (abk m c) j := by
    intro v
    refine (Cert.PayloadAt.acc_key_at (iblk m c 0 t) (iblk m c 2 t) (iblk m c 3 t)
      (fun b k j => Wsrc m c b (ix2 k j)) (fun b k j => blkW_at m c t b k j)
      (fun b j => Bsrc m c b (ix1 j)) (fun b j => blkB_at m c t b j) j v).trans ?_
    refine congrArg (v (ix2 (0 : Fin 1) j) + ·) (Finset.sum_congr rfl fun p _ => ?_)
    show Spec.key (fun k => iblk m c 0 t (ix2 p k)) (fun k j => Wsrc m c 0 (ix2 k j)) (fun j => Bsrc m c 0 (ix1 j)) j = _
    rw [xrow_at, W0_eq, B0_eq]
  unfold acc0At
  by_cases h0 : t.val % 16 = 0
  · rw [P.accA0 t h0, if_pos h0, hsum, P.hZ0]
  · rw [P.accB0 t h0, if_neg h0, hsum]

/-- After the last tile of core `k` that accumulator holds the sum over the core's rows. -/
theorem acc0_last (j : Fin 128) (t : Fin cfg0.N) (k : Fin 2) (ht : t.val = k.val * 16 + 15) :
    acc0At m c t j = ∑ q : Fin 16, ∑ p : Fin 1024, Spec.key (aX m c (rowOfCore k q p)) (aWk m c) (abk m c) j :=
  acc_last_eq (fun t => acc0At m c t j) (fun r => Spec.key (aX m c r) (aWk m c) (abk m c) j)
    (acc0_step m c P j) t k ht

/-- The staging buffer of window 12 after point `t` holds that accumulator. -/
theorem out12_at (t : Fin cfg0.N) (j : Fin 128) :
    (outsAt0 m c t.val t.isLt).2.2.2.1 (ix3 (0 : Fin 1) (0 : Fin 1) j) = acc0At m c t j := by
  rw [P.outW12 t]
  exact shapeCast_ab_1ab_apply _ Cert.KernelIdeal.Facts₀.shapeCasts_S1x128_S1x1x128 0 0 j

/-- What a point that writes window 12 back writes: its block of the per-core sums. -/
theorem flushed12_eq (t : Fin cfg0.N) (hf : (cfg0.win 12).flush t = true) :
    (dats m 0 c).flushed 12 t = ((cfg0.win 12).blk t).view.read (Elt Ideal) (G12 m c) := by
  have h15 : t.val % 16 = 15 := (flush0_12 t).mp hf
  have hk : t.val / 16 < 2 := by have := point_lt t; omega
  show (cfg0.win 12).cut (grid0.coords t) ((dats m 0 c).after 12 t) = _
  rw [after0_12]
  have key : ∀ y : S1x1x128.Idx,
      (outsAt0 m c t.val t.isLt).2.2.2.1 y = G12 m c (((cfg0.win 12).blk t).view.emb y) := by
    intro y
    obtain ⟨u, v, j, rfl⟩ : ∃ (u : Fin 1) (v : Fin 1) (j : Fin 128), y = ix3 u v j := ⟨y 0, y 1, y 2, eq_ix3 y⟩
    obtain rfl : u = 0 := Fin.eq_zero u
    obtain rfl : v = 0 := Fin.eq_zero v
    rw [emb12 t j hk, out12_at m c P t j,
      acc0_last m c P j t ⟨t.val / 16, hk⟩ (by show t.val = t.val / 16 * 16 + 15; omega)]
    rfl
  exact funext fun y => key y

/-- Window 12's array after the run: the per-core sums of the normalized keys. -/
theorem final12_of : (dats m 0 c).arrAt 12 cfg0.N = G12 m c :=
  (dats m 0 c).arrAt_eq_of_cover 12 (G12 m c) (fun t hf => flushed12_eq m c P t hf) cover12

/-! ### Window 13: the clipped prediction errors -/

/-- One step of that accumulator: zero at the first tile of a core, otherwise its previous value, plus the tile's sum. -/
theorem acc1_step (j : Fin 128) (t : Fin cfg0.N) :
    acc1At m c t j
      = (if t.val % 16 = 0 then 0 else acc1At m c ⟨t.val - 1, Nat.lt_of_le_of_lt (Nat.sub_le _ _) t.isLt⟩ j)
        + ∑ p : Fin 1024, Spec.erru (aX m c ⟨t.val * 1024 + p.val, row_lt t p⟩) (aWk m c) (abk m c) (aWv m c) (abv m c) (aS m c) j := by
  have hsum : ∀ v : Vec Ideal S1x128 .f32,
      (k0_pay24 (k0_pay22 (k0_pay8 (iblk m c 0 t) (iblk m c 2 t) (iblk m c 3 t)) (k0_pay10 (iblk m c 0 t) (iblk m c 2 t) (iblk m c 3 t)) (iblk m c 8 t)) v) (ix2 (0 : Fin 1) j)
        = v (ix2 (0 : Fin 1) j) + ∑ p : Fin 1024, Spec.erru (aX m c ⟨t.val * 1024 + p.val, row_lt t p⟩) (aWk m c) (abk m c) (aWv m c) (abv m c) (aS m c) j := by
    intro v
    refine (Cert.PayloadAt.acc_erru_at (iblk m c 0 t) (iblk m c 2 t) (iblk m c 3 t)
      (fun b k j => Wsrc m c b (ix2 k j)) (fun b k j => blkW_at m c t b k j)
      (fun b j => Bsrc m c b (ix1 j)) (fun b j => blkB_at m c t b j) (iblk m c 8 t) j v).trans ?_
    refine congrArg (v (ix2 (0 : Fin 1) j) + ·) (Finset.sum_congr rfl fun p _ => ?_)
    show Spec.erru (fun k => iblk m c 0 t (ix2 p k)) (fun k j => Wsrc m c 0 (ix2 k j)) (fun j => Bsrc m c 0 (ix1 j)) (fun k j => Wsrc m c 1 (ix2 k j)) (fun j => Bsrc m c 1 (ix1 j)) (fun k j => iblk m c 8 t (ix2 k j)) j = _
    rw [xrow_at, W0_eq, B0_eq, W1_eq, B1_eq, S_at]
  unfold acc1At
  by_cases h0 : t.val % 16 = 0
  · rw [P.accA1 t h0, if_pos h0, hsum, P.hZ1]
  · rw [P.accB1 t h0, if_neg h0, hsum]

/-- After the last tile of core `k` that accumulator holds the sum over the core's rows. -/
theorem acc1_last (j : Fin 128) (t : Fin cfg0.N) (k : Fin 2) (ht : t.val = k.val * 16 + 15) :
    acc1At m c t j = ∑ q : Fin 16, ∑ p : Fin 1024, Spec.erru (aX m c (rowOfCore k q p)) (aWk m c) (abk m c) (aWv m c) (abv m c) (aS m c) j :=
  acc_last_eq (fun t => acc1At m c t j) (fun r => Spec.erru (aX m c r) (aWk m c) (abk m c) (aWv m c) (abv m c) (aS m c) j)
    (acc1_step m c P j) t k ht

/-- The staging buffer of window 13 after point `t` holds that accumulator. -/
theorem out13_at (t : Fin cfg0.N) (j : Fin 128) :
    (outsAt0 m c t.val t.isLt).2.2.2.2.1 (ix3 (0 : Fin 1) (0 : Fin 1) j) = acc1At m c t j := by
  rw [P.outW13 t]
  exact shapeCast_ab_1ab_apply _ Cert.KernelIdeal.Facts₀.shapeCasts_S1x128_S1x1x128 0 0 j

/-- What a point that writes window 13 back writes: its block of the per-core sums. -/
theorem flushed13_eq (t : Fin cfg0.N) (hf : (cfg0.win 13).flush t = true) :
    (dats m 0 c).flushed 13 t = ((cfg0.win 13).blk t).view.read (Elt Ideal) (G13 m c) := by
  have h15 : t.val % 16 = 15 := (flush0_13 t).mp hf
  have hk : t.val / 16 < 2 := by have := point_lt t; omega
  show (cfg0.win 13).cut (grid0.coords t) ((dats m 0 c).after 13 t) = _
  rw [after0_13]
  have key : ∀ y : S1x1x128.Idx,
      (outsAt0 m c t.val t.isLt).2.2.2.2.1 y = G13 m c (((cfg0.win 13).blk t).view.emb y) := by
    intro y
    obtain ⟨u, v, j, rfl⟩ : ∃ (u : Fin 1) (v : Fin 1) (j : Fin 128), y = ix3 u v j := ⟨y 0, y 1, y 2, eq_ix3 y⟩
    obtain rfl : u = 0 := Fin.eq_zero u
    obtain rfl : v = 0 := Fin.eq_zero v
    rw [emb13 t j hk, out13_at m c P t j,
      acc1_last m c P j t ⟨t.val / 16, hk⟩ (by show t.val = t.val / 16 * 16 + 15; omega)]
    rfl
  exact funext fun y => key y

/-- Window 13's array after the run: the per-core sums of the clipped prediction errors. -/
theorem final13_of : (dats m 0 c).arrAt 13 cfg0.N = G13 m c :=
  (dats m 0 c).arrAt_eq_of_cover 13 (G13 m c) (fun t hf => flushed13_eq m c P t hf) cover13

/-! ### Window 14: the precisions -/

/-- One step of that accumulator: zero at the first tile of a core, otherwise its previous value, plus the tile's sum. -/
theorem acc2_step (j : Fin 128) (t : Fin cfg0.N) :
    acc2At m c t j
      = (if t.val % 16 = 0 then 0 else acc2At m c ⟨t.val - 1, Nat.lt_of_le_of_lt (Nat.sub_le _ _) t.isLt⟩ j)
        + ∑ p : Fin 1024, Spec.prec (aX m c ⟨t.val * 1024 + p.val, row_lt t p⟩) (aWp m c) (abp m c) j := by
  have hsum : ∀ v : Vec Ideal S1x128 .f32,
      (k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) v) (ix2 (0 : Fin 1) j)
        = v (ix2 (0 : Fin 1) j) + ∑ p : Fin 1024, Spec.prec (aX m c ⟨t.val * 1024 + p.val, row_lt t p⟩) (aWp m c) (abp m c) j := by
    intro v
    refine (Cert.PayloadAt.acc_prec_at (iblk m c 0 t) (iblk m c 2 t) (iblk m c 3 t)
      (fun b k j => Wsrc m c b (ix2 k j)) (fun b k j => blkW_at m c t b k j)
      (fun b j => Bsrc m c b (ix1 j)) (fun b j => blkB_at m c t b j) j v).trans ?_
    refine congrArg (v (ix2 (0 : Fin 1) j) + ·) (Finset.sum_congr rfl fun p _ => ?_)
    show Spec.prec (fun k => iblk m c 0 t (ix2 p k)) (fun k j => Wsrc m c 3 (ix2 k j)) (fun j => Bsrc m c 3 (ix1 j)) j = _
    rw [xrow_at, W3_eq, B3_eq]
  unfold acc2At
  by_cases h0 : t.val % 16 = 0
  · rw [P.accA2 t h0, if_pos h0, hsum, P.hZ2]
  · rw [P.accB2 t h0, if_neg h0, hsum]

/-- After the last tile of core `k` that accumulator holds the sum over the core's rows. -/
theorem acc2_last (j : Fin 128) (t : Fin cfg0.N) (k : Fin 2) (ht : t.val = k.val * 16 + 15) :
    acc2At m c t j = ∑ q : Fin 16, ∑ p : Fin 1024, Spec.prec (aX m c (rowOfCore k q p)) (aWp m c) (abp m c) j :=
  acc_last_eq (fun t => acc2At m c t j) (fun r => Spec.prec (aX m c r) (aWp m c) (abp m c) j)
    (acc2_step m c P j) t k ht

/-- The staging buffer of window 14 after point `t` holds that accumulator. -/
theorem out14_at (t : Fin cfg0.N) (j : Fin 128) :
    (outsAt0 m c t.val t.isLt).2.2.2.2.2.1 (ix3 (0 : Fin 1) (0 : Fin 1) j) = acc2At m c t j := by
  rw [P.outW14 t]
  exact shapeCast_ab_1ab_apply _ Cert.KernelIdeal.Facts₀.shapeCasts_S1x128_S1x1x128 0 0 j

/-- What a point that writes window 14 back writes: its block of the per-core sums. -/
theorem flushed14_eq (t : Fin cfg0.N) (hf : (cfg0.win 14).flush t = true) :
    (dats m 0 c).flushed 14 t = ((cfg0.win 14).blk t).view.read (Elt Ideal) (G14 m c) := by
  have h15 : t.val % 16 = 15 := (flush0_14 t).mp hf
  have hk : t.val / 16 < 2 := by have := point_lt t; omega
  show (cfg0.win 14).cut (grid0.coords t) ((dats m 0 c).after 14 t) = _
  rw [after0_14]
  have key : ∀ y : S1x1x128.Idx,
      (outsAt0 m c t.val t.isLt).2.2.2.2.2.1 y = G14 m c (((cfg0.win 14).blk t).view.emb y) := by
    intro y
    obtain ⟨u, v, j, rfl⟩ : ∃ (u : Fin 1) (v : Fin 1) (j : Fin 128), y = ix3 u v j := ⟨y 0, y 1, y 2, eq_ix3 y⟩
    obtain rfl : u = 0 := Fin.eq_zero u
    obtain rfl : v = 0 := Fin.eq_zero v
    rw [emb14 t j hk, out14_at m c P t j,
      acc2_last m c P j t ⟨t.val / 16, hk⟩ (by show t.val = t.val / 16 * 16 + 15; omega)]
    rfl
  exact funext fun y => key y

/-- Window 14's array after the run: the per-core sums of the precisions. -/
theorem final14_of : (dats m 0 c).arrAt 14 cfg0.N = G14 m c :=
  (dats m 0 c).arrAt_eq_of_cover 14 (G14 m c) (fun t hf => flushed14_eq m c P t hf) cover14

/-! ### Window 15: the gates beta -/

/-- One step of that accumulator: zero at the first tile of a core, otherwise its previous value, plus the tile's sum. -/
theorem acc3_step (t : Fin cfg0.N) :
    acc3At m c t
      = (if t.val % 16 = 0 then 0 else acc3At m c ⟨t.val - 1, Nat.lt_of_le_of_lt (Nat.sub_le _ _) t.isLt⟩)
        + ∑ p : Fin 1024, Spec.beta (aX m c ⟨t.val * 1024 + p.val, row_lt t p⟩) (aWbeta m c) (abbeta m c) := by
  have hsum : ∀ v : Vec Ideal S1x1 .f32,
      (k0_pay26 (k0_pay18 (iblk m c 0 t) (iblk m c 4 t) (iblk m c 5 t)) v) (ix2 (0 : Fin 1) (0 : Fin 1))
        = v (ix2 (0 : Fin 1) (0 : Fin 1)) + ∑ p : Fin 1024, Spec.beta (aX m c ⟨t.val * 1024 + p.val, row_lt t p⟩) (aWbeta m c) (abbeta m c) := by
    intro v
    refine (Cert.PayloadAt.acc_beta_at (iblk m c 0 t) (iblk m c 4 t) (iblk m c 5 t) v).trans ?_
    refine congrArg (v (ix2 (0 : Fin 1) (0 : Fin 1)) + ·) (Finset.sum_congr rfl fun p _ => ?_)
    show Spec.beta (fun k => iblk m c 0 t (ix2 p k)) (fun k => iblk m c 4 t (ix2 k (0 : Fin 1))) (iblk m c 5 t (ix1 (0 : Fin 1))) = _
    rw [xrow_at, wbeta_at, bbeta_at]
  unfold acc3At
  by_cases h0 : t.val % 16 = 0
  · rw [P.accA3 t h0, if_pos h0, hsum, P.hZ3]
  · rw [P.accB3 t h0, if_neg h0, hsum]

/-- After the last tile of core `k` that accumulator holds the sum over the core's rows. -/
theorem acc3_last (t : Fin cfg0.N) (k : Fin 2) (ht : t.val = k.val * 16 + 15) :
    acc3At m c t = ∑ q : Fin 16, ∑ p : Fin 1024, Spec.beta (aX m c (rowOfCore k q p)) (aWbeta m c) (abbeta m c) :=
  acc_last_eq (fun t => acc3At m c t) (fun r => Spec.beta (aX m c r) (aWbeta m c) (abbeta m c))
    (acc3_step m c P) t k ht

/-- The staging buffer of window 15 after point `t` holds that accumulator. -/
theorem out15_at (t : Fin cfg0.N) :
    (outsAt0 m c t.val t.isLt).2.2.2.2.2.2.1 (ix3 (0 : Fin 1) (0 : Fin 1) (0 : Fin 1)) = acc3At m c t := by
  rw [P.outW15 t]
  exact shapeCast_ab_1ab_apply _ Cert.KernelIdeal.Facts₀.shapeCasts_S1x1_S1x1x1 0 0 0

/-- What a point that writes window 15 back writes: its block of the per-core sums. -/
theorem flushed15_eq (t : Fin cfg0.N) (hf : (cfg0.win 15).flush t = true) :
    (dats m 0 c).flushed 15 t = ((cfg0.win 15).blk t).view.read (Elt Ideal) (G15 m c) := by
  have h15 : t.val % 16 = 15 := (flush0_15 t).mp hf
  have hk : t.val / 16 < 2 := by have := point_lt t; omega
  show (cfg0.win 15).cut (grid0.coords t) ((dats m 0 c).after 15 t) = _
  rw [after0_15]
  have key : ∀ y : S1x1x1.Idx,
      (outsAt0 m c t.val t.isLt).2.2.2.2.2.2.1 y = G15 m c (((cfg0.win 15).blk t).view.emb y) := by
    intro y
    obtain ⟨u, v, j, rfl⟩ : ∃ (u : Fin 1) (v : Fin 1) (j : Fin 1), y = ix3 u v j := ⟨y 0, y 1, y 2, eq_ix3 y⟩
    obtain rfl : u = 0 := Fin.eq_zero u
    obtain rfl : v = 0 := Fin.eq_zero v
    obtain rfl : j = 0 := Fin.eq_zero j
    rw [emb15 t hk, out15_at m c P t,
      acc3_last m c P t ⟨t.val / 16, hk⟩ (by show t.val = t.val / 16 * 16 + 15; omega)]
    rfl
  exact funext fun y => key y

/-- Window 15's array after the run: the per-core sums of the gates beta. -/
theorem final15_of : (dats m 0 c).arrAt 15 cfg0.N = G15 m c :=
  (dats m 0 c).arrAt_eq_of_cover 15 (G15 m c) (fun t hf => flushed15_eq m c P t hf) cover15

/-! ### Window 16: the time constants tau -/

/-- One step of that accumulator: zero at the first tile of a core, otherwise its previous value, plus the tile's sum. -/
theorem acc4_step (t : Fin cfg0.N) :
    acc4At m c t
      = (if t.val % 16 = 0 then 0 else acc4At m c ⟨t.val - 1, Nat.lt_of_le_of_lt (Nat.sub_le _ _) t.isLt⟩)
        + ∑ p : Fin 1024, Spec.tau (aX m c ⟨t.val * 1024 + p.val, row_lt t p⟩) (aWtau m c) (abtau m c) := by
  have hsum : ∀ v : Vec Ideal S1x1 .f32,
      (k0_pay27 (k0_pay19 (iblk m c 0 t) (iblk m c 6 t) (iblk m c 7 t)) v) (ix2 (0 : Fin 1) (0 : Fin 1))
        = v (ix2 (0 : Fin 1) (0 : Fin 1)) + ∑ p : Fin 1024, Spec.tau (aX m c ⟨t.val * 1024 + p.val, row_lt t p⟩) (aWtau m c) (abtau m c) := by
    intro v
    refine (Cert.PayloadAt.acc_tau_at (iblk m c 0 t) (iblk m c 6 t) (iblk m c 7 t) v).trans ?_
    refine congrArg (v (ix2 (0 : Fin 1) (0 : Fin 1)) + ·) (Finset.sum_congr rfl fun p _ => ?_)
    show Spec.tau (fun k => iblk m c 0 t (ix2 p k)) (fun k => iblk m c 6 t (ix2 k (0 : Fin 1))) (iblk m c 7 t (ix1 (0 : Fin 1))) = _
    rw [xrow_at, wtau_at, btau_at]
  unfold acc4At
  by_cases h0 : t.val % 16 = 0
  · rw [P.accA4 t h0, if_pos h0, hsum, P.hZ4]
  · rw [P.accB4 t h0, if_neg h0, hsum]

/-- After the last tile of core `k` that accumulator holds the sum over the core's rows. -/
theorem acc4_last (t : Fin cfg0.N) (k : Fin 2) (ht : t.val = k.val * 16 + 15) :
    acc4At m c t = ∑ q : Fin 16, ∑ p : Fin 1024, Spec.tau (aX m c (rowOfCore k q p)) (aWtau m c) (abtau m c) :=
  acc_last_eq (fun t => acc4At m c t) (fun r => Spec.tau (aX m c r) (aWtau m c) (abtau m c))
    (acc4_step m c P) t k ht

/-- The staging buffer of window 16 after point `t` holds that accumulator. -/
theorem out16_at (t : Fin cfg0.N) :
    (outsAt0 m c t.val t.isLt).2.2.2.2.2.2.2.1 (ix3 (0 : Fin 1) (0 : Fin 1) (0 : Fin 1)) = acc4At m c t := by
  rw [P.outW16 t]
  exact shapeCast_ab_1ab_apply _ Cert.KernelIdeal.Facts₀.shapeCasts_S1x1_S1x1x1 0 0 0

/-- What a point that writes window 16 back writes: its block of the per-core sums. -/
theorem flushed16_eq (t : Fin cfg0.N) (hf : (cfg0.win 16).flush t = true) :
    (dats m 0 c).flushed 16 t = ((cfg0.win 16).blk t).view.read (Elt Ideal) (G16 m c) := by
  have h15 : t.val % 16 = 15 := (flush0_16 t).mp hf
  have hk : t.val / 16 < 2 := by have := point_lt t; omega
  show (cfg0.win 16).cut (grid0.coords t) ((dats m 0 c).after 16 t) = _
  rw [after0_16]
  have key : ∀ y : S1x1x1.Idx,
      (outsAt0 m c t.val t.isLt).2.2.2.2.2.2.2.1 y = G16 m c (((cfg0.win 16).blk t).view.emb y) := by
    intro y
    obtain ⟨u, v, j, rfl⟩ : ∃ (u : Fin 1) (v : Fin 1) (j : Fin 1), y = ix3 u v j := ⟨y 0, y 1, y 2, eq_ix3 y⟩
    obtain rfl : u = 0 := Fin.eq_zero u
    obtain rfl : v = 0 := Fin.eq_zero v
    obtain rfl : j = 0 := Fin.eq_zero j
    rw [emb16 t hk, out16_at m c P t,
      acc4_last m c P t ⟨t.val / 16, hk⟩ (by show t.val = t.val / 16 * 16 + 15; omega)]
    rfl
  exact funext fun y => key y

/-- Window 16's array after the run: the per-core sums of the time constants tau. -/
theorem final16_of : (dats m 0 c).arrAt 16 cfg0.N = G16 m c :=
  (dats m 0 c).arrAt_eq_of_cover 16 (G16 m c) (fun t hf => flushed16_eq m c P t hf) cover16

end Cert.KernelIdeal.ValueH

end
-- ==== Proof.FinalsLinkI.lean ====
/-
  The five per-core sum outputs of the region as whole arrays, with the facts about the body's two cases
  supplied: at a first tile each accumulator is its update of the zero block, at a later tile its update of what
  the tile before left, and each window's staging buffer is the new accumulator with two unit axes in front.
-/
import proofs.«154947_j29875792511782_2_alg».proof.Proof.FinalsSumsI
import proofs.«154947_j29875792511782_2_alg».proof.Proof.PiecesI

set_option maxRecDepth 16384

noncomputable section

namespace Cert.KernelIdeal.ValueH

open Cert.KernelIdeal Cert.KernelIdeal.Gen Cert.KernelIdeal.Frame Cert.KernelIdeal.Pieces
open Idealize.ShloMosaic Idealize.ShloMosaic.TcCoe Idealize.ShloMosaic.ValueIdx Idealize.SL.Sem

/-! ## The zero blocks -/

/-- The block that accumulator 0 is set to at a first tile reads zero at every index. -/
theorem zero0_at (j : Fin 128) : (k0_pay2 (F := Ideal)) (ix2 (0 : Fin 1) j) = 0 := by
  unfold k0_pay2
  rw [shapeCast_self]
  exact Ideal.ofBits_zero_f32

/-- The block that accumulator 1 is set to at a first tile reads zero at every index. -/
theorem zero1_at (j : Fin 128) : (k0_pay3 (F := Ideal)) (ix2 (0 : Fin 1) j) = 0 := by
  unfold k0_pay3
  rw [shapeCast_self]
  exact Ideal.ofBits_zero_f32

/-- The block that accumulator 2 is set to at a first tile reads zero at every index. -/
theorem zero2_at (j : Fin 128) : (k0_pay4 (F := Ideal)) (ix2 (0 : Fin 1) j) = 0 := by
  unfold k0_pay4
  rw [shapeCast_self]
  exact Ideal.ofBits_zero_f32

/-- The block that accumulator 3 is set to at a first tile reads zero at every index. -/
theorem zero3_at : (k0_pay5 (F := Ideal)) (ix2 (0 : Fin 1) (0 : Fin 1)) = 0 := by
  unfold k0_pay5
  rw [shapeCast_self]
  exact Ideal.ofBits_zero_f32

/-- The block that accumulator 4 is set to at a first tile reads zero at every index. -/
theorem zero4_at : (k0_pay6 (F := Ideal)) (ix2 (0 : Fin 1) (0 : Fin 1)) = 0 := by
  unfold k0_pay6
  rw [shapeCast_self]
  exact Ideal.ofBits_zero_f32

variable (m : (ℓ : Loc nD τ sig) → Buf (Elt Ideal) ℓ) (c : Dev nD)

/-! ## What each case leaves, read off the body's two runs -/

/-! ### Accumulator 0 and window 12: the normalized keys -/

set_option maxHeartbeats 1000000 in
/-- At a first tile accumulator 0 is its update of the zero block. -/
theorem accA0_eq (t : Fin cfg0.N) (h0 : t.val % 16 = 0) :
    (outsAt0 m c t.val t.isLt).2.2.2.2.2.2.2.2.1 = k0_pay23 (k0_pay10 (iblk m c 0 t) (iblk m c 2 t) (iblk m c 3 t)) (k0_pay2 (F := Ideal)) := by
  rw [outsAt0_A m c t h0]
  dsimp only
  exact sout0_A_0_eq (F := Ideal) ..

set_option maxHeartbeats 1000000 in
/-- At a later tile accumulator 0 is its update of what the tile before left. -/
theorem accB0_eq (t : Fin cfg0.N) (h0 : ¬t.val % 16 = 0) :
    (outsAt0 m c t.val t.isLt).2.2.2.2.2.2.2.2.1
      = k0_pay23 (k0_pay10 (iblk m c 0 t) (iblk m c 2 t) (iblk m c 3 t)) ((outsAt0 m c (t.val - 1) (Nat.lt_of_le_of_lt (Nat.sub_le _ _) t.isLt)).2.2.2.2.2.2.2.2.1) := by
  rw [outsAt0_B m c t h0]
  dsimp only
  exact sout0_B_0_eq (F := Ideal) ..

set_option maxHeartbeats 1000000 in
/-- At a first tile window 12's staging buffer is the zero block's update with two unit axes in front. -/
theorem outA12_eq (t : Fin cfg0.N) (h0 : t.val % 16 = 0) :
    (outsAt0 m c t.val t.isLt).2.2.2.1 = k0_pay28 (k0_pay23 (k0_pay10 (iblk m c 0 t) (iblk m c 2 t) (iblk m c 3 t)) (k0_pay2 (F := Ideal))) := by
  rw [outsAt0_A m c t h0]
  dsimp only
  exact out0_A_12_eq (F := Ideal) ..

set_option maxHeartbeats 1000000 in
/-- At a later tile window 12's staging buffer is the carried accumulator's update with two unit axes in front. -/
theorem outB12_eq (t : Fin cfg0.N) (h0 : ¬t.val % 16 = 0) :
    (outsAt0 m c t.val t.isLt).2.2.2.1
      = k0_pay28 (k0_pay23 (k0_pay10 (iblk m c 0 t) (iblk m c 2 t) (iblk m c 3 t)) ((outsAt0 m c (t.val - 1) (Nat.lt_of_le_of_lt (Nat.sub_le _ _) t.isLt)).2.2.2.2.2.2.2.2.1)) := by
  rw [outsAt0_B m c t h0]
  dsimp only
  exact out0_B_12_eq (F := Ideal) ..

/-- At every tile window 12's staging buffer is the new accumulator 0 with two unit axes in front. -/
theorem outW12_eq (t : Fin cfg0.N) :
    (outsAt0 m c t.val t.isLt).2.2.2.1 = k0_pay28 ((outsAt0 m c t.val t.isLt).2.2.2.2.2.2.2.2.1) := by
  by_cases h0 : t.val % 16 = 0
  · rw [outA12_eq m c t h0, accA0_eq m c t h0]
  · rw [outB12_eq m c t h0, accB0_eq m c t h0]

/-! ### Accumulator 1 and window 13: the clipped prediction errors -/

set_option maxHeartbeats 1000000 in
/-- At a first tile accumulator 1 is its update of the zero block. -/
theorem accA1_eq (t : Fin cfg0.N) (h0 : t.val % 16 = 0) :
    (outsAt0 m c t.val t.isLt).2.2.2.2.2.2.2.2.2.1 = k0_pay24 (k0_pay22 (k0_pay8 (iblk m c 0 t) (iblk m c 2 t) (iblk m c 3 t)) (k0_pay10 (iblk m c 0 t) (iblk m c 2 t) (iblk m c 3 t)) (iblk m c 8 t)) (k0_pay3 (F := Ideal)) := by
  rw [outsAt0_A m c t h0]
  dsimp only
  exact sout0_A_1_eq (F := Ideal) ..

set_option maxHeartbeats 1000000 in
/-- At a later tile accumulator 1 is its update of what the tile before left. -/
theorem accB1_eq (t : Fin cfg0.N) (h0 : ¬t.val % 16 = 0) :
    (outsAt0 m c t.val t.isLt).2.2.2.2.2.2.2.2.2.1
      = k0_pay24 (k0_pay22 (k0_pay8 (iblk m c 0 t) (iblk m c 2 t) (iblk m c 3 t)) (k0_pay10 (iblk m c 0 t) (iblk m c 2 t) (iblk m c 3 t)) (iblk m c 8 t)) ((outsAt0 m c (t.val - 1) (Nat.lt_of_le_of_lt (Nat.sub_le _ _) t.isLt)).2.2.2.2.2.2.2.2.2.1) := by
  rw [outsAt0_B m c t h0]
  dsimp only
  exact sout0_B_1_eq (F := Ideal) ..

set_option maxHeartbeats 1000000 in
/-- At a first tile window 13's staging buffer is the zero block's update with two unit axes in front. -/
theorem outA13_eq (t : Fin cfg0.N) (h0 : t.val % 16 = 0) :
    (outsAt0 m c t.val t.isLt).2.2.2.2.1 = k0_pay29 (k0_pay24 (k0_pay22 (k0_pay8 (iblk m c 0 t) (iblk m c 2 t) (iblk m c 3 t)) (k0_pay10 (iblk m c 0 t) (iblk m c 2 t) (iblk m c 3 t)) (iblk m c 8 t)) (k0_pay3 (F := Ideal))) := by
  rw [outsAt0_A m c t h0]
  dsimp only
  exact out0_A_13_eq (F := Ideal) ..

set_option maxHeartbeats 1000000 in
/-- At a later tile window 13's staging buffer is the carried accumulator's update with two unit axes in front. -/
theorem outB13_eq (t : Fin cfg0.N) (h0 : ¬t.val % 16 = 0) :
    (outsAt0 m c t.val t.isLt).2.2.2.2.1
      = k0_pay29 (k0_pay24 (k0_pay22 (k0_pay8 (iblk m c 0 t) (iblk m c 2 t) (iblk m c 3 t)) (k0_pay10 (iblk m c 0 t) (iblk m c 2 t) (iblk m c 3 t)) (iblk m c 8 t)) ((outsAt0 m c (t.val - 1) (Nat.lt_of_le_of_lt (Nat.sub_le _ _) t.isLt)).2.2.2.2.2.2.2.2.2.1)) := by
  rw [outsAt0_B m c t h0]
  dsimp only
  exact out0_B_13_eq (F := Ideal) ..

/-- At every tile window 13's staging buffer is the new accumulator 1 with two unit axes in front. -/
theorem outW13_eq (t : Fin cfg0.N) :
    (outsAt0 m c t.val t.isLt).2.2.2.2.1 = k0_pay29 ((outsAt0 m c t.val t.isLt).2.2.2.2.2.2.2.2.2.1) := by
  by_cases h0 : t.val % 16 = 0
  · rw [outA13_eq m c t h0, accA1_eq m c t h0]
  · rw [outB13_eq m c t h0, accB1_eq m c t h0]

/-! ### Accumulator 2 and window 14: the precisions -/

set_option maxHeartbeats 1000000 in
/-- At a first tile accumulator 2 is its update of the zero block. -/
theorem accA2_eq (t : Fin cfg0.N) (h0 : t.val % 16 = 0) :
    (outsAt0 m c t.val t.isLt).2.2.2.2.2.2.2.2.2.2.1 = k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) (k0_pay4 (F := Ideal)) := by
  rw [outsAt0_A m c t h0]
  dsimp only
  exact sout0_A_2_eq (F := Ideal) ..

set_option maxHeartbeats 1000000 in
/-- At a later tile accumulator 2 is its update of what the tile before left. -/
theorem accB2_eq (t : Fin cfg0.N) (h0 : ¬t.val % 16 = 0) :
    (outsAt0 m c t.val t.isLt).2.2.2.2.2.2.2.2.2.2.1
      = k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) ((outsAt0 m c (t.val - 1) (Nat.lt_of_le_of_lt (Nat.sub_le _ _) t.isLt)).2.2.2.2.2.2.2.2.2.2.1) := by
  rw [outsAt0_B m c t h0]
  dsimp only
  exact sout0_B_2_eq (F := Ideal) ..

set_option maxHeartbeats 1000000 in
/-- At a first tile window 14's staging buffer is the zero block's update with two unit axes in front. -/
theorem outA14_eq (t : Fin cfg0.N) (h0 : t.val % 16 = 0) :
    (outsAt0 m c t.val t.isLt).2.2.2.2.2.1 = k0_pay30 (k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) (k0_pay4 (F := Ideal))) := by
  rw [outsAt0_A m c t h0]
  dsimp only
  exact out0_A_14_eq (F := Ideal) ..

set_option maxHeartbeats 1000000 in
/-- At a later tile window 14's staging buffer is the carried accumulator's update with two unit axes in front. -/
theorem outB14_eq (t : Fin cfg0.N) (h0 : ¬t.val % 16 = 0) :
    (outsAt0 m c t.val t.isLt).2.2.2.2.2.1
      = k0_pay30 (k0_pay25 (k0_pay17 (k0_pay12 (iblk m c 0 t) (iblk m c 2 t) (iblk m c 3 t)) (k0_pay14 (iblk m c 0 t) (iblk m c 2 t) (iblk m c 3 t)) (k0_pay15 (iblk m c 0 t) (iblk m c 2 t) (iblk m c 3 t)) (k0_pay16 (iblk m c 0 t) (iblk m c 2 t) (iblk m c 3 t))) ((outsAt0 m c (t.val - 1) (Nat.lt_of_le_of_lt (Nat.sub_le _ _) t.isLt)).2.2.2.2.2.2.2.2.2.2.1)) := by
  rw [outsAt0_B m c t h0]
  dsimp only
  exact out0_B_14_eq (F := Ideal) ..

/-- At every tile window 14's staging buffer is the new accumulator 2 with two unit axes in front. -/
theorem outW14_eq (t : Fin cfg0.N) :
    (outsAt0 m c t.val t.isLt).2.2.2.2.2.1 = k0_pay30 ((outsAt0 m c t.val t.isLt).2.2.2.2.2.2.2.2.2.2.1) := by
  by_cases h0 : t.val % 16 = 0
  · rw [outA14_eq m c t h0, accA2_eq m c t h0]
  · rw [outB14_eq m c t h0, accB2_eq m c t h0]

/-! ### Accumulator 3 and window 15: the gates beta -/

set_option maxHeartbeats 1000000 in
/-- At a first tile accumulator 3 is its update of the zero block. -/
theorem accA3_eq (t : Fin cfg0.N) (h0 : t.val % 16 = 0) :
    (outsAt0 m c t.val t.isLt).2.2.2.2.2.2.2.2.2.2.2.1 = k0_pay26 (k0_pay18 (iblk m c 0 t) (iblk m c 4 t) (iblk m c 5 t)) (k0_pay5 (F := Ideal)) := by
  rw [outsAt0_A m c t h0]
  dsimp only
  exact sout0_A_3_eq (F := Ideal) ..

set_option maxHeartbeats 1000000 in
/-- At a later tile accumulator 3 is its update of what the tile before left. -/
theorem accB3_eq (t : Fin cfg0.N) (h0 : ¬t.val % 16 = 0) :
    (outsAt0 m c t.val t.isLt).2.2.2.2.2.2.2.2.2.2.2.1
      = k0_pay26 (k0_pay18 (iblk m c 0 t) (iblk m c 4 t) (iblk m c 5 t)) ((outsAt0 m c (t.val - 1) (Nat.lt_of_le_of_lt (Nat.sub_le _ _) t.isLt)).2.2.2.2.2.2.2.2.2.2.2.1) := by
  rw [outsAt0_B m c t h0]
  dsimp only
  exact sout0_B_3_eq (F := Ideal) ..

set_option maxHeartbeats 1000000 in
/-- At a first tile window 15's staging buffer is the zero block's update with two unit axes in front. -/
theorem outA15_eq (t : Fin cfg0.N) (h0 : t.val % 16 = 0) :
    (outsAt0 m c t.val t.isLt).2.2.2.2.2.2.1 = k0_pay31 (k0_pay26 (k0_pay18 (iblk m c 0 t) (iblk m c 4 t) (iblk m c 5 t)) (k0_pay5 (F := Ideal))) := by
  rw [outsAt0_A m c t h0]
  dsimp only
  exact out0_A_15_eq (F := Ideal) ..

set_option maxHeartbeats 1000000 in
/-- At a later tile window 15's staging buffer is the carried accumulator's update with two unit axes in front. -/
theorem outB15_eq (t : Fin cfg0.N) (h0 : ¬t.val % 16 = 0) :
    (outsAt0 m c t.val t.isLt).2.2.2.2.2.2.1
      = k0_pay31 (k0_pay26 (k0_pay18 (iblk m c 0 t) (iblk m c 4 t) (iblk m c 5 t)) ((outsAt0 m c (t.val - 1) (Nat.lt_of_le_of_lt (Nat.sub_le _ _) t.isLt)).2.2.2.2.2.2.2.2.2.2.2.1)) := by
  rw [outsAt0_B m c t h0]
  dsimp only
  exact out0_B_15_eq (F := Ideal) ..

/-- At every tile window 15's staging buffer is the new accumulator 3 with two unit axes in front. -/
theorem outW15_eq (t : Fin cfg0.N) :
    (outsAt0 m c t.val t.isLt).2.2.2.2.2.2.1 = k0_pay31 ((outsAt0 m c t.val t.isLt).2.2.2.2.2.2.2.2.2.2.2.1) := by
  by_cases h0 : t.val % 16 = 0
  · rw [outA15_eq m c t h0, accA3_eq m c t h0]
  · rw [outB15_eq m c t h0, accB3_eq m c t h0]

/-! ### Accumulator 4 and window 16: the time constants tau -/

set_option maxHeartbeats 1000000 in
/-- At a first tile accumulator 4 is its update of the zero block. -/
theorem accA4_eq (t : Fin cfg0.N) (h0 : t.val % 16 = 0) :
    (outsAt0 m c t.val t.isLt).2.2.2.2.2.2.2.2.2.2.2.2 = k0_pay27 (k0_pay19 (iblk m c 0 t) (iblk m c 6 t) (iblk m c 7 t)) (k0_pay6 (F := Ideal)) := by
  rw [outsAt0_A m c t h0]
  dsimp only
  exact sout0_A_4_eq (F := Ideal) ..

set_option maxHeartbeats 1000000 in
/-- At a later tile accumulator 4 is its update of what the tile before left. -/
theorem accB4_eq (t : Fin cfg0.N) (h0 : ¬t.val % 16 = 0) :
    (outsAt0 m c t.val t.isLt).2.2.2.2.2.2.2.2.2.2.2.2
      = k0_pay27 (k0_pay19 (iblk m c 0 t) (iblk m c 6 t) (iblk m c 7 t)) ((outsAt0 m c (t.val - 1) (Nat.lt_of_le_of_lt (Nat.sub_le _ _) t.isLt)).2.2.2.2.2.2.2.2.2.2.2.2) := by
  rw [outsAt0_B m c t h0]
  dsimp only
  exact sout0_B_4_eq (F := Ideal) ..

set_option maxHeartbeats 1000000 in
/-- At a first tile window 16's staging buffer is the zero block's update with two unit axes in front. -/
theorem outA16_eq (t : Fin cfg0.N) (h0 : t.val % 16 = 0) :
    (outsAt0 m c t.val t.isLt).2.2.2.2.2.2.2.1 = k0_pay1 (k0_pay27 (k0_pay19 (iblk m c 0 t) (iblk m c 6 t) (iblk m c 7 t)) (k0_pay6 (F := Ideal))) := by
  rw [outsAt0_A m c t h0]
  dsimp only
  exact out0_A_16_eq (F := Ideal) ..

set_option maxHeartbeats 1000000 in
/-- At a later tile window 16's staging buffer is the carried accumulator's update with two unit axes in front. -/
theorem outB16_eq (t : Fin cfg0.N) (h0 : ¬t.val % 16 = 0) :
    (outsAt0 m c t.val t.isLt).2.2.2.2.2.2.2.1
      = k0_pay1 (k0_pay27 (k0_pay19 (iblk m c 0 t) (iblk m c 6 t) (iblk m c 7 t)) ((outsAt0 m c (t.val - 1) (Nat.lt_of_le_of_lt (Nat.sub_le _ _) t.isLt)).2.2.2.2.2.2.2.2.2.2.2.2)) := by
  rw [outsAt0_B m c t h0]
  dsimp only
  exact out0_B_16_eq (F := Ideal) ..

/-- At every tile window 16's staging buffer is the new accumulator 4 with two unit axes in front. -/
theorem outW16_eq (t : Fin cfg0.N) :
    (outsAt0 m c t.val t.isLt).2.2.2.2.2.2.2.1 = k0_pay1 ((outsAt0 m c t.val t.isLt).2.2.2.2.2.2.2.2.2.2.2.2) := by
  by_cases h0 : t.val % 16 = 0
  · rw [outA16_eq m c t h0, accA4_eq m c t h0]
  · rw [outB16_eq m c t h0, accB4_eq m c t h0]

/-! ## The facts gathered -/

/-- What the two cases of the body leave in the five accumulators and the five windows' staging buffers. -/
def pieceFacts : PieceFacts m c where
  Z0 := k0_pay2 (F := Ideal)
  hZ0 := zero0_at
  accA0 := accA0_eq m c
  accB0 := accB0_eq m c
  outW12 := outW12_eq m c
  Z1 := k0_pay3 (F := Ideal)
  hZ1 := zero1_at
  accA1 := accA1_eq m c
  accB1 := accB1_eq m c
  outW13 := outW13_eq m c
  Z2 := k0_pay4 (F := Ideal)
  hZ2 := zero2_at
  accA2 := accA2_eq m c
  accB2 := accB2_eq m c
  outW14 := outW14_eq m c
  Z3 := k0_pay5 (F := Ideal)
  hZ3 := zero3_at
  accA3 := accA3_eq m c
  accB3 := accB3_eq m c
  outW15 := outW15_eq m c
  Z4 := k0_pay6 (F := Ideal)
  hZ4 := zero4_at
  accA4 := accA4_eq m c
  accB4 := accB4_eq m c
  outW16 := outW16_eq m c

/-! ## The five arrays -/

/-- Window 12's array after the run: per core, the sum of the normalized keys over the core's rows. -/
theorem final12 : (dats m 0 c).arrAt 12 cfg0.N = G12 m c := final12_of m c (pieceFacts m c)

/-- Window 13's array after the run: per core, the sum of the clipped prediction errors over the core's rows. -/
theorem final13 : (dats m 0 c).arrAt 13 cfg0.N = G13 m c := final13_of m c (pieceFacts m c)

/-- Window 14's array after the run: per core, the sum of the precisions over the core's rows. -/
theorem final14 : (dats m 0 c).arrAt 14 cfg0.N = G14 m c := final14_of m c (pieceFacts m c)

/-- Window 15's array after the run: per core, the sum of the gates beta over the core's rows. -/
theorem final15 : (dats m 0 c).arrAt 15 cfg0.N = G15 m c := final15_of m c (pieceFacts m c)

/-- Window 16's array after the run: per core, the sum of the time constants tau over the core's rows. -/
theorem final16 : (dats m 0 c).arrAt 16 cfg0.N = G16 m c := final16_of m c (pieceFacts m c)

end Cert.KernelIdeal.ValueH

end
-- ==== Proof.EpilogueAt.lean ====
/-
  The host operations that follow the grid in the kernel's main program, as three functions of the
  arrays the grid leaves, and what each computes at one index.

  The grid leaves, for each of five quantities, the two cores' partial column sums over their halves
  of the batch.  The host adds the two partial sums and divides by the batch size, which gives the
  column mean, and then forms the new momentum
      0.9 * mom + 0.1 * (kmean ⊗ (betamean * precmean * errmean))
  and the new memory
      (1 - (1 - decay) / taumean) * S - 0.01 * (new momentum),
  with decay = 1 / (1 + exp 0.1) + 0.5 spelt out operation by operation.  The free energy only loses
  a unit axis.
-/
import proofs.«154947_j29875792511782_2_alg».proof.KernelIdeal
import proofs.«154947_j29875792511782_2_alg».proof.Proof.Spec
import proofs.«154947_j29875792511782_2_alg».proof.Proof.HostOpsAt
import Idealize.ShloMosaic.Lib.ValueIdx

noncomputable section

namespace Cert.EpilogueAt

open Cert.KernelIdeal Cert.KernelIdeal.Facts₀ Idealize.ShloMosaic Idealize.ShloMosaic.ValueIdx Cert.HostOpsAt

variable [Cert.KernelIdeal.Facts]

/-! ## The three functions -/

/-- The free energy per row: the [32768, 1] array the grid leaves, read as a [32768] vector. -/
def epiF (A9 : FVec Ideal S32768x1 .f32) : FVec Ideal S32768 .f32 :=
  shapeCast S32768 A9 shapeCasts_S32768x1_S32768

/-- The new momentum, from the per-core partial sums of the keys (`A12`), the clipped errors (`A13`),
    the precisions (`A14`) and the gate beta (`A15`), and the old momentum. -/
def epiMom (A12 A13 A14 : FVec Ideal S2x1x128 .f32) (A15 : FVec Ideal S2x1x1 .f32) (MOM : FVec Ideal S128x128 .f32) :
    FVec Ideal S128x128 .f32 :=
  addf
    (mulf (broadcastInDim S128x128 ![] bcast_S_S128x128 (constant (F := Ideal) S_ .f32 0x3F666666#32)) MOM)
    (mulf (broadcastInDim S128x128 ![] bcast_S_S128x128 (constant (F := Ideal) S_ .f32 0x3DCCCCCD#32))
      (mulf
        (broadcastInDim S128x128 ![0, 1] bcast_S128x1_S128x128_0_1
          (broadcastInDim S128x1 ![0] bcast_S128_S128x1_0
            (Host.divf (F := Ideal)
              (shapeCast S128 (Host.reduceAdd (F := Ideal) A12 (constant (F := Ideal) S_ .f32 0x00000000#32) reducesTo_S2x1x128_S1x128_d0 h_S_) shapeCasts_S1x128_S128)
              (broadcastInDim S128 ![] bcast_S_S128 (constant (F := Ideal) S_ .f32 0x47000000#32)))))
        (broadcastInDim S128x128 ![0, 1] bcast_S1x128_S128x128_0_1
          (broadcastInDim S1x128 ![1] bcast_S128_S1x128_1
            (mulf
              (mulf
                (broadcastInDim S128 ![] bcast_S_S128
                  (Host.divf (F := Ideal) (Host.reduceAdd (F := Ideal) A15 (constant (F := Ideal) S_ .f32 0x00000000#32) reducesTo_S2x1x1_S_d0_1_2 h_S_) (constant (F := Ideal) S_ .f32 0x47000000#32)))
                (Host.divf (F := Ideal)
                  (shapeCast S128 (Host.reduceAdd (F := Ideal) A14 (constant (F := Ideal) S_ .f32 0x00000000#32) reducesTo_S2x1x128_S1x128_d0 h_S_) shapeCasts_S1x128_S128)
                  (broadcastInDim S128 ![] bcast_S_S128 (constant (F := Ideal) S_ .f32 0x47000000#32))))
              (Host.divf (F := Ideal)
                (shapeCast S128 (Host.reduceAdd (F := Ideal) A13 (constant (F := Ideal) S_ .f32 0x00000000#32) reducesTo_S2x1x128_S1x128_d0 h_S_) shapeCasts_S1x128_S128)
                (broadcastInDim S128 ![] bcast_S_S128 (constant (F := Ideal) S_ .f32 0x47000000#32))))))))

/-- The new memory, from the same partial sums, those of the time constant tau (`A16`), the old
    memory and the old momentum. -/
def epiMem (A12 A13 A14 : FVec Ideal S2x1x128 .f32) (A15 A16 : FVec Ideal S2x1x1 .f32) (S MOM : FVec Ideal S128x128 .f32) :
    FVec Ideal S128x128 .f32 :=
  subf
    (mulf
      (broadcastInDim S128x128 ![] bcast_S_S128x128
        (subf (constant (F := Ideal) S_ .f32 0x3F800000#32)
          (Host.divf (F := Ideal)
            (subf (constant (F := Ideal) S_ .f32 0x3F800000#32)
              (addf
                (Host.divf (F := Ideal) (constant (F := Ideal) S_ .f32 0x3F800000#32)
                  (addf (constant (F := Ideal) S_ .f32 0x3F800000#32)
                    (Host.exp (F := Ideal) (Host.negf (F := Ideal) (constant (F := Ideal) S_ .f32 0xBDCCCCCD#32)))))
                (constant (F := Ideal) S_ .f32 0x3F000000#32)))
            (Host.divf (F := Ideal) (Host.reduceAdd (F := Ideal) A16 (constant (F := Ideal) S_ .f32 0x00000000#32) reducesTo_S2x1x1_S_d0_1_2 h_S_) (constant (F := Ideal) S_ .f32 0x47000000#32)))))
      S)
    (mulf (broadcastInDim S128x128 ![] bcast_S_S128x128 (constant (F := Ideal) S_ .f32 0x3C23D70A#32))
      (epiMom A12 A13 A14 A15 MOM))

/-! ## The column means -/

/-- The mean over the batch of one feature's column, from the two cores' partial sums. -/
def kmeanOf (A : FVec Ideal S2x1x128 .f32) (j : Fin 128) : EReal :=
  Ideal.div (A (ix3 (0 : Fin 2) (0 : Fin 1) j) + A (ix3 (1 : Fin 2) (0 : Fin 1) j)) Cert.Spec.cB

/-- The mean over the batch of a scalar column, from the two cores' partial sums. -/
def smeanOf (A : FVec Ideal S2x1x1 .f32) : EReal :=
  Ideal.div (A (ix3 (0 : Fin 2) (0 : Fin 1) (0 : Fin 1)) + A (ix3 (1 : Fin 2) (0 : Fin 1) (0 : Fin 1))) Cert.Spec.cB

/-! ## The host's pointwise operations at an index -/

/-- The host's division at an index is the division of the extended reals. -/
theorem hostDivf_apply {s : Shape} {φ : FTy} (a b : FVec Ideal s φ) (i : s.Idx) :
    Host.divf (F := Ideal) a b i = Ideal.div (a i) (b i) := rfl

/-- The host's negation at an index. -/
theorem hostNegf_apply {s : Shape} {φ : FTy} (a : FVec Ideal s φ) (i : s.Idx) :
    Host.negf (F := Ideal) a i = -(a i) := rfl

/-- The host's exponential at an index. -/
theorem hostExp_apply {s : Shape} {φ : FTy} (a : FVec Ideal s φ) (i : s.Idx) :
    Host.exp (F := Ideal) a i = Ideal.exp (a i) := rfl

/-- A per-feature column mean as the program spells it, read at a feature. -/
theorem colmean_apply (A : FVec Ideal S2x1x128 .f32) (j : Fin 128) :
    Host.divf (F := Ideal)
        (shapeCast S128 (Host.reduceAdd (F := Ideal) A (constant (F := Ideal) S_ .f32 0x00000000#32) reducesTo_S2x1x128_S1x128_d0 h_S_) shapeCasts_S1x128_S128)
        (broadcastInDim S128 ![] bcast_S_S128 (constant (F := Ideal) S_ .f32 0x47000000#32)) (ix1 j)
      = kmeanOf A j := by
  rw [hostDivf_apply, reshape_row_apply, reduceAdd_cores_apply, bcast_scalar_vec_apply]
  rfl

/-- A scalar column mean as the program spells it. -/
theorem scalmean_apply (A : FVec Ideal S2x1x1 .f32) (i : S_.Idx) :
    Host.divf (F := Ideal) (Host.reduceAdd (F := Ideal) A (constant (F := Ideal) S_ .f32 0x00000000#32) reducesTo_S2x1x1_S_d0_1_2 h_S_)
        (constant (F := Ideal) S_ .f32 0x47000000#32) i
      = smeanOf A := by
  rw [hostDivf_apply, reduceAdd_cores_total_apply]
  rfl

/-! ## The three results at an index -/

/-- The free energy of row `r` is the entry `(r, 0)` of what the grid leaves. -/
theorem epiF_apply (A9 : FVec Ideal S32768x1 .f32) (r : Fin 32768) :
    epiF A9 (ix1 r) = A9 (ix2 r (0 : Fin 1)) :=
  reshape_col_apply A9 r

/-- The new momentum at `(i, j)`. -/
theorem epiMom_apply (A12 A13 A14 : FVec Ideal S2x1x128 .f32) (A15 : FVec Ideal S2x1x1 .f32) (MOM : FVec Ideal S128x128 .f32)
    (i j : Fin 128) :
    epiMom A12 A13 A14 A15 MOM (ix2 i j)
      = Cert.Spec.momNew (kmeanOf A12) (kmeanOf A13) (kmeanOf A14) (smeanOf A15) (fun i j => MOM (ix2 i j)) i j := by
  unfold epiMom
  rw [addf_apply, mulf_apply, mulf_apply, mulf_apply, bcast_scalar_mat_apply, bcast_scalar_mat_apply,
    bcast_col_mat_apply, bcast_vec_col_apply, bcast_row_mat_apply, bcast_vec_row_apply,
    mulf_apply, mulf_apply, bcast_scalar_vec_apply, colmean_apply, colmean_apply, colmean_apply, scalmean_apply]
  rfl

/-- The new memory at `(i, j)`. -/
theorem epiMem_apply (A12 A13 A14 : FVec Ideal S2x1x128 .f32) (A15 A16 : FVec Ideal S2x1x1 .f32) (S MOM : FVec Ideal S128x128 .f32)
    (i j : Fin 128) :
    epiMem A12 A13 A14 A15 A16 S MOM (ix2 i j)
      = Cert.Spec.memNew (kmeanOf A12) (kmeanOf A13) (kmeanOf A14) (smeanOf A15) (smeanOf A16)
          (fun i j => S (ix2 i j)) (fun i j => MOM (ix2 i j)) i j := by
  unfold epiMem
  rw [subf_apply, mulf_apply, mulf_apply, bcast_scalar_mat_apply, bcast_scalar_mat_apply, epiMom_apply,
    subf_apply, hostDivf_apply, subf_apply, addf_apply, hostDivf_apply, addf_apply, hostExp_apply, hostNegf_apply,
    scalmean_apply]
  rfl

end Cert.EpilogueAt

end
-- ==== Proof.TailBaseI.lean ====
/-
  The host epilogue of the kernel program, read off the run: after the region, the three results the epilogue writes
  (the free energy reshaped to a vector, the new momentum, the new memory) are the epilogue's operations applied to
  the region's final arrays and to the untouched arguments.
-/
import proofs.«154947_j29875792511782_2_alg».proof.Proof.FrameBaseI
import proofs.«154947_j29875792511782_2_alg».proof.Proof.EpilogueAt
import Idealize.ShloMosaic.Lib.StableHlo.Run
import Idealize.ShloMosaic.PureOps.Ideal
import Idealize.ShloMosaic.PureOps.Ideal.Laws

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ)
variable (dats : (p : Fin 1) → (c : Dev nD) → Dat τ (Elt Ideal) Unit ℕ (UR sig nD τ) ℕ (cfgs p) c) (c : Dev nD)

/-- After the region a staged array holds what the write-backs assembled. -/
theorem wa (w : Fin 17) :
    Pipeline.withArrays (cfgs 0).spec c (V0 m c) (fun w => (dats 0 c).arrAt w (cfgs 0).N) (Proc.devRef .tc (Pipeline.arrRef spec0 w))
      = (dats 0 c).arrAt w (cfgs 0).N :=
  Pipeline.withArrays_arr spec0 launch0.win.arr_inj c (V0 m c) (fun w => (dats 0 c).arrAt w (cfgs 0).N) w

theorem wa9 : Pipeline.withArrays (cfgs 0).spec c (V0 m c) (fun w => (dats 0 c).arrAt w (cfgs 0).N) (Proc.devRef .tc main_v3_0) = (dats 0 c).arrAt 9 (cfgs 0).N := wa m dats c 9
theorem wa12 : Pipeline.withArrays (cfgs 0).spec c (V0 m c) (fun w => (dats 0 c).arrAt w (cfgs 0).N) (Proc.devRef .tc main_v3_3) = (dats 0 c).arrAt 12 (cfgs 0).N := wa m dats c 12
theorem wa13 : Pipeline.withArrays (cfgs 0).spec c (V0 m c) (fun w => (dats 0 c).arrAt w (cfgs 0).N) (Proc.devRef .tc main_v3_4) = (dats 0 c).arrAt 13 (cfgs 0).N := wa m dats c 13
theorem wa14 : Pipeline.withArrays (cfgs 0).spec c (V0 m c) (fun w => (dats 0 c).arrAt w (cfgs 0).N) (Proc.devRef .tc main_v3_5) = (dats 0 c).arrAt 14 (cfgs 0).N := wa m dats c 14
theorem wa15 : Pipeline.withArrays (cfgs 0).spec c (V0 m c) (fun w => (dats 0 c).arrAt w (cfgs 0).N) (Proc.devRef .tc main_v3_6) = (dats 0 c).arrAt 15 (cfgs 0).N := wa m dats c 15
theorem wa16 : Pipeline.withArrays (cfgs 0).spec c (V0 m c) (fun w => (dats 0 c).arrAt w (cfgs 0).N) (Proc.devRef .tc main_v3_7) = (dats 0 c).arrAt 16 (cfgs 0).N := wa m dats c 16

/-- The memory and momentum arguments are no array the region writes: the epilogue reads them as launched. -/
theorem waS : Pipeline.withArrays (cfgs 0).spec c (V0 m c) (fun w => (dats 0 c).arrAt w (cfgs 0).N) (Proc.devRef .tc main_arg14) = (dats 0 c).arrAt 8 (cfgs 0).N := wa m dats c 8
theorem waMom : Pipeline.withArrays (cfgs 0).spec c (V0 m c) (fun w => (dats 0 c).arrAt w (cfgs 0).N) (Proc.devRef .tc main_arg15) = m ((c : Thread nD τ).loc main_arg15) :=
  (Pipeline.withArrays_of_ne _ c (V0 m c) _ main_arg15 (by exact (by decide : ∀ w, Pipeline.arrRef spec0 w ≠ main_arg15))).trans (V_main_arg15 m c)

/-- The memory argument is an input window's array: it ends as the region found it, which is as launched. -/
theorem waS' (hA : ∀ w, (dats 0 c).A w = V m c (Pipeline.arrRef spec0 w)) :
    Pipeline.withArrays (cfgs 0).spec c (V0 m c) (fun w => (dats 0 c).arrAt w (cfgs 0).N) (Proc.devRef .tc main_arg14) = m ((c : Thread nD τ).loc main_arg14) :=
  (waS m dats c).trans (((dats 0 c).arrAt_in 8 rfl _).trans ((hA 8).trans (V_main_arg14 m c)))

end Cert.KernelIdeal.ValueH

end
-- ==== Proof.TailFI.lean ====
/-
  The free energy result of the kernel program, read off the host epilogue.
-/
import proofs.«154947_j29875792511782_2_alg».proof.Proof.TailBaseI
import Idealize.ShloMosaic.Lib.StableHlo.Run
import Idealize.ShloMosaic.PureOps.Ideal
import Idealize.ShloMosaic.PureOps.Ideal.Laws

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ)
variable (dats : (p : Fin 1) → (c : Dev nD) → Dat τ (Elt Ideal) Unit ℕ (UR sig nD τ) ℕ (cfgs p) c) (c : Dev nD)

set_option maxHeartbeats 32000000 in
/-- The free energy result is the region's column reshaped to a vector. -/
theorem tail_v4 : Pipeline.afterTail₀ cfgs dats 0 (V0 m) [hostOps1] c main_v4 = Cert.EpilogueAt.epiF ((dats 0 c).arrAt 9 (cfgs 0).N) := by
  unfold Pipeline.afterTail₀
  show StableHlo.after hostOps1 _ (Proc.devRef .tc main_v4) = _
  after_results
  rw [wa9 m dats c]
  rfl

end Cert.KernelIdeal.ValueH

end
-- ==== Proof.TailMomI.lean ====
/-
  The new momentum of the kernel program, read off the host epilogue.
-/
import proofs.«154947_j29875792511782_2_alg».proof.Proof.TailBaseI
import Idealize.ShloMosaic.Lib.StableHlo.Run
import Idealize.ShloMosaic.PureOps.Ideal
import Idealize.ShloMosaic.PureOps.Ideal.Laws

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ)
variable (dats : (p : Fin 1) → (c : Dev nD) → Dat τ (Elt Ideal) Unit ℕ (UR sig nD τ) ℕ (cfgs p) c) (c : Dev nD)

set_option maxHeartbeats 32000000 in
/-- The new momentum is the epilogue's momentum update of the five per-core sum arrays and the momentum argument. -/
theorem tail_v41 : Pipeline.afterTail₀ cfgs dats 0 (V0 m) [hostOps1] c main_v41
    = Cert.EpilogueAt.epiMom ((dats 0 c).arrAt 12 (cfgs 0).N) ((dats 0 c).arrAt 13 (cfgs 0).N) ((dats 0 c).arrAt 14 (cfgs 0).N) ((dats 0 c).arrAt 15 (cfgs 0).N) (m ((c : Thread nD τ).loc main_arg15)) := by
  unfold Pipeline.afterTail₀
  show StableHlo.after hostOps1 _ (Proc.devRef .tc main_v41) = _
  after_results
  rw [wa12 m dats c, wa13 m dats c, wa14 m dats c, wa15 m dats c, waMom m dats c]
  rfl

end Cert.KernelIdeal.ValueH

end
-- ==== Proof.TailMemI.lean ====
/-
  The new memory of the kernel program, read off the host epilogue.
-/
import proofs.«154947_j29875792511782_2_alg».proof.Proof.TailBaseI
import Idealize.ShloMosaic.Lib.StableHlo.Run
import Idealize.ShloMosaic.PureOps.Ideal
import Idealize.ShloMosaic.PureOps.Ideal.Laws

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ)
variable (dats : (p : Fin 1) → (c : Dev nD) → Dat τ (Elt Ideal) Unit ℕ (UR sig nD τ) ℕ (cfgs p) c) (c : Dev nD)

set_option maxHeartbeats 32000000 in
/-- The new memory is the epilogue's memory update of the same arrays, the tau sums, and the memory and momentum arguments. -/
theorem tail_v46 (hA : ∀ w, (dats 0 c).A w = V m c (Pipeline.arrRef spec0 w)) : Pipeline.afterTail₀ cfgs dats 0 (V0 m) [hostOps1] c main_v46
    = Cert.EpilogueAt.epiMem ((dats 0 c).arrAt 12 (cfgs 0).N) ((dats 0 c).arrAt 13 (cfgs 0).N) ((dats 0 c).arrAt 14 (cfgs 0).N) ((dats 0 c).arrAt 15 (cfgs 0).N) ((dats 0 c).arrAt 16 (cfgs 0).N) (m ((c : Thread nD τ).loc main_arg14)) (m ((c : Thread nD τ).loc main_arg15)) := by
  unfold Pipeline.afterTail₀
  show StableHlo.after hostOps1 _ (Proc.devRef .tc main_v46) = _
  after_results
  rw [wa12 m dats c, wa13 m dats c, wa14 m dats c, wa15 m dats c, wa16 m dats c, waS' m dats c hA, waMom m dats c]
  rfl

end Cert.KernelIdeal.ValueH

end
-- ==== Proof.TailI.lean ====
/-
  The three results the kernel program's host epilogue writes, gathered.
-/
import proofs.«154947_j29875792511782_2_alg».proof.Proof.TailFI
import proofs.«154947_j29875792511782_2_alg».proof.Proof.TailMomI
import proofs.«154947_j29875792511782_2_alg».proof.Proof.TailMemI
-- ==== Proof.MeansBridge.lean ====
/-
  The epilogue applied to the kernel's region outputs is the specification.

  The kernel leaves, per core, the sums over the core's 16 tiles of 1024 rows.  The 32768 rows of
  the batch are exactly the rows (core * 16 + tile) * 1024 + row-in-tile, so the first core's sum
  plus the second core's is the sum over the whole batch, and dividing by the batch size gives the
  specification's column mean.  With the five means identified, the new momentum and the new memory
  the host computes from them are the specification's, and the free energy is the specification's
  row by row.
-/
import proofs.«154947_j29875792511782_2_alg».proof.Proof.ValueDefsI
import proofs.«154947_j29875792511782_2_alg».proof.Proof.EpilogueAt
import proofs.«154947_j29875792511782_2_alg».proof.Proof.LibBlockSums
import proofs.«154947_j29875792511782_2_alg».proof.Proof.Spec

noncomputable section

namespace Cert.MeansBridge

open Cert.KernelIdeal Cert.KernelIdeal.ValueH Cert.EpilogueAt
open Idealize.ShloMosaic Idealize.ShloMosaic.TcCoe Idealize.ShloMosaic.ValueIdx Idealize.SL.Sem

variable [Cert.KernelIdeal.Facts]

/-! ## Two per-core sums make the whole-batch sum -/

/-- If a [2, 1, 128] array holds at `(k, 0, j)` the sum of `f` over the rows of core `k`, then its two
    entries added and divided by the batch size are the mean of `f` over the batch. -/
theorem kmeanOf_eq_colmean (A : FVec Ideal S2x1x128 .f32) (j : Fin 128) (f : Fin 32768 → EReal)
    (hA : ∀ k : Fin 2, A (ix3 k (0 : Fin 1) j) = ∑ q : Fin 16, ∑ p : Fin 1024, f (rowOfCore k q p)) :
    kmeanOf A j = Cert.Spec.colmean f := by
  unfold kmeanOf Cert.Spec.colmean
  rw [hA 0, hA 1, Cert.Lib.BlockSums.sum_fin_32768 f, Fin.sum_univ_two]
  rfl

/-- The same for a [2, 1, 1] array of per-core sums of a scalar column. -/
theorem smeanOf_eq_colmean (A : FVec Ideal S2x1x1 .f32) (f : Fin 32768 → EReal)
    (hA : ∀ k : Fin 2, A (ix3 k (0 : Fin 1) (0 : Fin 1)) = ∑ q : Fin 16, ∑ p : Fin 1024, f (rowOfCore k q p)) :
    smeanOf A = Cert.Spec.colmean f := by
  unfold smeanOf Cert.Spec.colmean
  rw [hA 0, hA 1, Cert.Lib.BlockSums.sum_fin_32768 f, Fin.sum_univ_two]
  rfl

variable (m : (ℓ : Loc nD τ sig) → Buf (Elt Ideal) ℓ) (c : Dev nD)

/-! ## The five column means -/

/-- The mean of the normalized keys. -/
theorem kmean_G12 (j : Fin 128) : kmeanOf (G12 m c) j = Cert.Spec.kMean (aX m c) (aWk m c) (abk m c) j :=
  kmeanOf_eq_colmean (G12 m c) j (fun r => Cert.Spec.key (aX m c r) (aWk m c) (abk m c) j) (fun _ => rfl)

/-- The mean of the clipped prediction errors. -/
theorem kmean_G13 (j : Fin 128) :
    kmeanOf (G13 m c) j = Cert.Spec.errMean (aX m c) (aWk m c) (abk m c) (aWv m c) (abv m c) (aS m c) j :=
  kmeanOf_eq_colmean (G13 m c) j (fun r => Cert.Spec.erru (aX m c r) (aWk m c) (abk m c) (aWv m c) (abv m c) (aS m c) j) (fun _ => rfl)

/-- The mean of the precisions. -/
theorem kmean_G14 (j : Fin 128) : kmeanOf (G14 m c) j = Cert.Spec.precMean (aX m c) (aWp m c) (abp m c) j :=
  kmeanOf_eq_colmean (G14 m c) j (fun r => Cert.Spec.prec (aX m c r) (aWp m c) (abp m c) j) (fun _ => rfl)

/-- The mean of the gates beta. -/
theorem smean_G15 : smeanOf (G15 m c) = Cert.Spec.betaMean (aX m c) (aWbeta m c) (abbeta m c) :=
  smeanOf_eq_colmean (G15 m c) (fun r => Cert.Spec.beta (aX m c r) (aWbeta m c) (abbeta m c)) (fun _ => rfl)

/-- The mean of the time constants tau. -/
theorem smean_G16 : smeanOf (G16 m c) = Cert.Spec.tauMean (aX m c) (aWtau m c) (abtau m c) :=
  smeanOf_eq_colmean (G16 m c) (fun r => Cert.Spec.tau (aX m c r) (aWtau m c) (abtau m c)) (fun _ => rfl)

/-- The three per-feature means as functions of the feature. -/
theorem kmean_G12_fun : kmeanOf (G12 m c) = Cert.Spec.kMean (aX m c) (aWk m c) (abk m c) := funext (kmean_G12 m c)
theorem kmean_G13_fun : kmeanOf (G13 m c) = Cert.Spec.errMean (aX m c) (aWk m c) (abk m c) (aWv m c) (abv m c) (aS m c) :=
  funext (kmean_G13 m c)
theorem kmean_G14_fun : kmeanOf (G14 m c) = Cert.Spec.precMean (aX m c) (aWp m c) (abp m c) := funext (kmean_G14 m c)

/-! ## The three results, index by index -/

/-- The free energy of row `r`. -/
theorem epiF_G9 (r : Fin 32768) :
    epiF (G9 m c) (ix1 r) = Cert.Spec.resF (aX m c) (aT m c) (aWq m c) (abq m c) (aWp m c) (abp m c) (aS m c) r :=
  epiF_apply (G9 m c) r

/-- The new momentum at `(i, j)`. -/
theorem epiMom_G (i j : Fin 128) :
    epiMom (G12 m c) (G13 m c) (G14 m c) (G15 m c) (m ((c : Thread nD τ).loc main_arg15) : S128x128.Idx → EReal) (ix2 i j)
      = Cert.Spec.resMom (aX m c) (aWk m c) (abk m c) (aWv m c) (abv m c) (aWbeta m c) (abbeta m c) (aWp m c) (abp m c)
          (aS m c) (aMom m c) i j := by
  rw [epiMom_apply, kmean_G12_fun, kmean_G13_fun, kmean_G14_fun, smean_G15]
  rfl

/-- The new memory at `(i, j)`. -/
theorem epiMem_G (i j : Fin 128) :
    epiMem (G12 m c) (G13 m c) (G14 m c) (G15 m c) (G16 m c)
        (m ((c : Thread nD τ).loc main_arg14) : S128x128.Idx → EReal) (m ((c : Thread nD τ).loc main_arg15) : S128x128.Idx → EReal) (ix2 i j)
      = Cert.Spec.resMem (aX m c) (aWk m c) (abk m c) (aWv m c) (abv m c) (aWbeta m c) (abbeta m c) (aWp m c) (abp m c)
          (aWtau m c) (abtau m c) (aS m c) (aMom m c) i j := by
  rw [epiMem_apply, kmean_G12_fun, kmean_G13_fun, kmean_G14_fun, smean_G15, smean_G16]
  rfl

/-! ## The three results as whole arrays -/

/-- The free energy as a whole vector. -/
theorem epiF_G9_eq :
    epiF (G9 m c) = fun idx : S32768.Idx =>
      Cert.Spec.resF (aX m c) (aT m c) (aWq m c) (abq m c) (aWp m c) (abp m c) (aS m c) (idx 0) := by
  funext idx
  obtain ⟨r, rfl⟩ : ∃ r : Fin 32768, idx = ix1 r := ⟨idx 0, eq_ix1 idx⟩
  exact epiF_G9 m c r

/-- The new momentum as a whole matrix. -/
theorem epiMom_G_eq :
    epiMom (G12 m c) (G13 m c) (G14 m c) (G15 m c) (m ((c : Thread nD τ).loc main_arg15) : S128x128.Idx → EReal)
      = fun idx : S128x128.Idx =>
          Cert.Spec.resMom (aX m c) (aWk m c) (abk m c) (aWv m c) (abv m c) (aWbeta m c) (abbeta m c) (aWp m c) (abp m c)
            (aS m c) (aMom m c) (idx 0) (idx 1) := by
  funext idx
  obtain ⟨i, j, rfl⟩ : ∃ (i j : Fin 128), idx = ix2 i j := ⟨idx 0, idx 1, eq_ix2 idx⟩
  exact epiMom_G m c i j

/-- The new memory as a whole matrix. -/
theorem epiMem_G_eq :
    epiMem (G12 m c) (G13 m c) (G14 m c) (G15 m c) (G16 m c)
        (m ((c : Thread nD τ).loc main_arg14) : S128x128.Idx → EReal) (m ((c : Thread nD τ).loc main_arg15) : S128x128.Idx → EReal)
      = fun idx : S128x128.Idx =>
          Cert.Spec.resMem (aX m c) (aWk m c) (abk m c) (aWv m c) (abv m c) (aWbeta m c) (abbeta m c) (aWp m c) (abp m c)
            (aWtau m c) (abtau m c) (aS m c) (aMom m c) (idx 0) (idx 1) := by
  funext idx
  obtain ⟨i, j, rfl⟩ : ∃ (i j : Fin 128), idx = ix2 i j := ⟨idx 0, idx 1, eq_ix2 idx⟩
  exact epiMem_G m c i j

end Cert.MeansBridge

end
-- ==== Proof.ResultsI.lean ====
/-
  The three results the host epilogue writes, as the specification's functions of the sixteen arguments: the free
  energy of each row as a vector, the new memory and the new momentum.
-/
import proofs.«154947_j29875792511782_2_alg».proof.Proof.ValueDefsI

noncomputable section

namespace Cert.KernelIdeal.ValueH

open Cert.KernelIdeal
open Idealize.ShloMosaic Idealize.ShloMosaic.TcCoe Idealize.ShloMosaic.ValueIdx Idealize.SL.Sem

variable (m : (ℓ : Loc nD τ sig) → Buf (Elt Ideal) ℓ)

/-- The five results as functions of the arguments. -/
def rF (c : Dev nD) : S32768.Idx → EReal := fun idx => Spec.resF (aX m c) (aT m c) (aWq m c) (abq m c) (aWp m c) (abp m c) (aS m c) (idx 0)
def rMem (c : Dev nD) : S128x128.Idx → EReal := fun idx => Spec.resMem (aX m c) (aWk m c) (abk m c) (aWv m c) (abv m c) (aWbeta m c) (abbeta m c) (aWp m c) (abp m c) (aWtau m c) (abtau m c) (aS m c) (aMom m c) (idx 0) (idx 1)
def rMom (c : Dev nD) : S128x128.Idx → EReal := fun idx => Spec.resMom (aX m c) (aWk m c) (abk m c) (aWv m c) (abv m c) (aWbeta m c) (abbeta m c) (aWp m c) (abp m c) (aS m c) (aMom m c) (idx 0) (idx 1)

end Cert.KernelIdeal.ValueH

end
-- ==== Proof.ResVI.lean ====
/-
  The three results the host epilogue writes are the specification's: the epilogue applied to the region's final arrays,
  which are the whole-array functions, regrouped into the whole-batch means.
-/
import proofs.«154947_j29875792511782_2_alg».proof.Proof.FrameOutsI
import proofs.«154947_j29875792511782_2_alg».proof.Proof.FinalsRowsI
import proofs.«154947_j29875792511782_2_alg».proof.Proof.FinalsLinkI
import proofs.«154947_j29875792511782_2_alg».proof.Proof.TailI
import proofs.«154947_j29875792511782_2_alg».proof.Proof.MeansBridge
import proofs.«154947_j29875792511782_2_alg».proof.Proof.ResultsI

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- The free energy vector the epilogue writes is the specification's. -/
theorem res_v4 (c : Dev nD) : Pipeline.afterTail₀ cfgs (dats m) 0 (V0 m) [hostOps1] c main_v4 = rF m c := by
  rw [tail_v4 m (dats m) c, final9 m c]; exact Cert.MeansBridge.epiF_G9_eq m c

/-- The new momentum the epilogue writes is the specification's. -/
theorem res_v41 (c : Dev nD) : Pipeline.afterTail₀ cfgs (dats m) 0 (V0 m) [hostOps1] c main_v41 = rMom m c := by
  rw [tail_v41 m (dats m) c, final12 m c, final13 m c, final14 m c, final15 m c]; exact Cert.MeansBridge.epiMom_G_eq m c

/-- The new memory the epilogue writes is the specification's. -/
theorem res_v46 (c : Dev nD) : Pipeline.afterTail₀ cfgs (dats m) 0 (V0 m) [hostOps1] c main_v46 = rMem m c := by
  rw [tail_v46 m (dats m) c (fun w => A_eq m c w), final12 m c, final13 m c, final14 m c, final15 m c, final16 m c]; exact Cert.MeansBridge.epiMem_G_eq m c

end Cert.KernelIdeal.ValueH

end
-- ==== Proof.RunI.lean ====
/-
  The idealized kernel program's run with its five results named: the free energy of each row, the precision, the
  retrieval error, the new memory and the new momentum, each the specification's function of the sixteen arguments;
  and the arguments unchanged.
-/
import proofs.«154947_j29875792511782_2_alg».proof.Proof.FrameI
import proofs.«154947_j29875792511782_2_alg».proof.Proof.ResVI

set_option maxRecDepth 16384

noncomputable section

namespace Cert.KernelIdeal.ValueH

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- Every weakly fair execution of the idealized kernel program terminates without a fault, with its five results at the
    specification's functions of the arguments and the arguments unchanged. -/
theorem run : θ_run defs (onTc (τ := τ) (main (F := Ideal))) ⟨m, fun _ => 0, ρ⟩ (fun r => ∀ c : Dev nD,
      r.2.mem ((c.tc : Thread nD τ).loc main_v4) = rF m c
      ∧ r.2.mem ((c.tc : Thread nD τ).loc main_v3_1) = G10 m c
      ∧ r.2.mem ((c.tc : Thread nD τ).loc main_v3_2) = G11 m c
      ∧ r.2.mem ((c.tc : Thread nD τ).loc main_v46) = rMem m c
      ∧ r.2.mem ((c.tc : Thread nD τ).loc main_v41) = rMom m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    ((h c).2 main_v4 (Pipeline.mem_restRefs_of main_v4 (by decide) (by decide))).trans (res_v4 m c),
    ((h c).1 10).trans (final10 m c),
    ((h c).1 11).trans (final11 m c),
    ((h c).2 main_v46 (Pipeline.mem_restRefs_of main_v46 (by decide) (by decide))).trans (res_v46 m c),
    ((h c).2 main_v41 (Pipeline.mem_restRefs_of main_v41 (by decide) (by decide))).trans (res_v41 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    (((h c).2 main_arg7 (Pipeline.mem_restRefs_of main_arg7 (by decide) (by decide))).trans (W_main_arg7 m (dats m) c)),
    ((h c).1 4).trans (((dats m 0 c).arrAt_in 4 rfl _).trans ((A_eq m c 4).trans (V_main_arg8 m c))),
    ((h c).1 5).trans (((dats m 0 c).arrAt_in 5 rfl _).trans ((A_eq m c 5).trans (V_main_arg9 m c))),
    (((h c).2 main_arg10 (Pipeline.mem_restRefs_of main_arg10 (by decide) (by decide))).trans (W_main_arg10 m (dats m) c)),
    (((h c).2 main_arg11 (Pipeline.mem_restRefs_of main_arg11 (by decide) (by decide))).trans (W_main_arg11 m (dats m) c)),
    ((h c).1 6).trans (((dats m 0 c).arrAt_in 6 rfl _).trans ((A_eq m c 6).trans (V_main_arg12 m c))),
    ((h c).1 7).trans (((dats m 0 c).arrAt_in 7 rfl _).trans ((A_eq m c 7).trans (V_main_arg13 m c))),
    ((h c).1 8).trans (((dats m 0 c).arrAt_in 8 rfl _).trans ((A_eq m c 8).trans (V_main_arg14 m c))),
    (((h c).2 main_arg15 (Pipeline.mem_restRefs_of main_arg15 (by decide) (by decide))).trans (W_main_arg15 m (dats m) c))⟩) (run_main m ρ)

end Cert.KernelIdeal.ValueH

end
-- ==== Proof.RefIsSpec.lean ====
/-
  The reference program computes the specification.

  Each operation of the reference, read at one index, is one arithmetic step on the extended reals:
  a contraction over the 2048 input features or the 128 memory rows is a finite sum of products, a
  broadcast reads its operand at the coordinates it keeps, and a float sum is its (zero) initial
  value plus the sum over the reduced axis.  Composing these steps row by row gives the functions of
  the specification: the affine projections, the clamped Euclidean norm and the normalized vector,
  the softplus precision, the retrieval error, the row's free energy, the two logistic gates, the
  clipped prediction error, the five column means over the 32768 rows and the two state updates.
-/
import proofs.«154947_j29875792511782_2_alg».proof.Proof.Spec
import proofs.«154947_j29875792511782_2_alg».proof.Proof.Gen.ReferenceIdeal.Read
import Idealize.ShloMosaic.Lib.IdealHost

noncomputable section

namespace Cert.RefIsSpec

open Cert.ReferenceIdeal Cert.ReferenceIdeal.Gen Cert.ReferenceIdeal.Read Idealize.ShloMosaic Idealize.ShloMosaic.ValueIdx

/-! ## Arrays as functions of their coordinates -/

/-- A matrix as a function of its row and its column. -/
abbrev cur2 {n0 n1 : Nat} (a : (⟨2, ![n0, n1]⟩ : Shape).Idx → EReal) : Fin n0 → Fin n1 → EReal :=
  fun r k => a (ix2 r k)
/-- A vector as a function of its coordinate. -/
abbrev cur1 {n : Nat} (b : (⟨1, ![n]⟩ : Shape).Idx → EReal) : Fin n → EReal := fun j => b (ix1 j)
/-- A matrix with one column as the vector of its entries. -/
abbrev col {n : Nat} (a : (⟨2, ![n, 1]⟩ : Shape).Idx → EReal) : Fin n → EReal := fun k => a (ix2 k 0)
/-- A vector with one entry as that entry. -/
abbrev sc (b : (⟨1, ![1]⟩ : Shape).Idx → EReal) : EReal := b (ix1 0)

/-! ## A fact about single elements -/

/-- A selection on the bit of "x differs from y" is the corresponding case distinction. -/
theorem select_une (x y a b : EReal) :
    Scalar.select (Ideal.cmp .une x y) a b = if x ≠ y then a else b := by
  unfold Scalar.select Ideal.cmp
  by_cases h : x = y <;> simp [h]

/-! ## The affine projections

The four projections onto 128 features share one shape: a contraction of a row of the input with a
column of the weights, plus the bias of that column. -/

section Projections

variable (x0 : (⟨S32768x2048, .f32⟩ : BufTy).Contents (Elt Ideal))
  (W : (⟨S2048x128, .f32⟩ : BufTy).Contents (Elt Ideal)) (b : (⟨S128, .f32⟩ : BufTy).Contents (Elt Ideal))
  (r : Fin 32768) (j : Fin 128)

/-- The query projection. -/
theorem projQ : val_main_v3 (F := Ideal) x0 W b (ix2 r j) = Spec.proj (cur2 x0 r) (cur2 W) (cur1 b) j := by
  rw [val_main_v3_apply, val_main_v0_apply, val_main_v2_apply, val_main_v1_apply]
  have e1 : ∀ k : Fin 2048, lidx_main_v0 (ix2 r j) k = ix2 r k := fun k =>
    funext fun a => by match a with | ⟨0, _⟩ => rfl | ⟨1, _⟩ => rfl
  have e2 : ∀ k : Fin 2048, ridx_main_v0 (ix2 r j) k = ix2 k j := fun k =>
    funext fun a => by match a with | ⟨0, _⟩ => rfl | ⟨1, _⟩ => rfl
  have e3 : idx_main_v1 (idx_main_v2 (ix2 r j)) = ix1 j := funext fun a => by match a with | ⟨0, _⟩ => rfl
  simp only [e1, e2, e3]
  rfl

/-- The projection onto the precision logits. -/
theorem projP : val_main_v13 (F := Ideal) x0 W b (ix2 r j) = Spec.proj (cur2 x0 r) (cur2 W) (cur1 b) j := by
  rw [val_main_v13_apply, val_main_v10_apply, val_main_v12_apply, val_main_v11_apply]
  have e1 : ∀ k : Fin 2048, lidx_main_v10 (ix2 r j) k = ix2 r k := fun k =>
    funext fun a => by match a with | ⟨0, _⟩ => rfl | ⟨1, _⟩ => rfl
  have e2 : ∀ k : Fin 2048, ridx_main_v10 (ix2 r j) k = ix2 k j := fun k =>
    funext fun a => by match a with | ⟨0, _⟩ => rfl | ⟨1, _⟩ => rfl
  have e3 : idx_main_v11 (idx_main_v12 (ix2 r j)) = ix1 j := funext fun a => by match a with | ⟨0, _⟩ => rfl
  simp only [e1, e2, e3]
  rfl

/-- The key projection. -/
theorem projK : val_main_v28 (F := Ideal) x0 W b (ix2 r j) = Spec.proj (cur2 x0 r) (cur2 W) (cur1 b) j := by
  rw [val_main_v28_apply, val_main_v25_apply, val_main_v27_apply, val_main_v26_apply]
  have e1 : ∀ k : Fin 2048, lidx_main_v25 (ix2 r j) k = ix2 r k := fun k =>
    funext fun a => by match a with | ⟨0, _⟩ => rfl | ⟨1, _⟩ => rfl
  have e2 : ∀ k : Fin 2048, ridx_main_v25 (ix2 r j) k = ix2 k j := fun k =>
    funext fun a => by match a with | ⟨0, _⟩ => rfl | ⟨1, _⟩ => rfl
  have e3 : idx_main_v26 (idx_main_v27 (ix2 r j)) = ix1 j := funext fun a => by match a with | ⟨0, _⟩ => rfl
  simp only [e1, e2, e3]
  rfl

/-- The value projection. -/
theorem projV : val_main_v37 (F := Ideal) x0 W b (ix2 r j) = Spec.proj (cur2 x0 r) (cur2 W) (cur1 b) j := by
  rw [val_main_v37_apply, val_main_v34_apply, val_main_v36_apply, val_main_v35_apply]
  have e1 : ∀ k : Fin 2048, lidx_main_v34 (ix2 r j) k = ix2 r k := fun k =>
    funext fun a => by match a with | ⟨0, _⟩ => rfl | ⟨1, _⟩ => rfl
  have e2 : ∀ k : Fin 2048, ridx_main_v34 (ix2 r j) k = ix2 k j := fun k =>
    funext fun a => by match a with | ⟨0, _⟩ => rfl | ⟨1, _⟩ => rfl
  have e3 : idx_main_v35 (idx_main_v36 (ix2 r j)) = ix1 j := funext fun a => by match a with | ⟨0, _⟩ => rfl
  simp only [e1, e2, e3]
  rfl

end Projections

/-! ## The clamped norm and the normalized vector -/

section Norms

variable (x0 : (⟨S32768x2048, .f32⟩ : BufTy).Contents (Elt Ideal))
  (W : (⟨S2048x128, .f32⟩ : BufTy).Contents (Elt Ideal)) (b : (⟨S128, .f32⟩ : BufTy).Contents (Elt Ideal))
  (r : Fin 32768) (j : Fin 128) (z : Fin 1)

/-- The clamped norm of the query projection of a row. -/
theorem nrmQ : val_main_v6 (F := Ideal) x0 W b (ix2 r z) = Spec.nrm (Spec.proj (cur2 x0 r) (cur2 W) (cur1 b)) := by
  rw [val_main_v6_apply, val_main_v4_apply, val_main_call0_v2_apply, val_main_call0_v1_apply, val_main_call0_cst_apply,
    val_main_v5_apply, val_main_cst_apply]
  have e1 : ∀ k : Fin 128, idx_main_call0_v1 (idx_main_call0_v2 (ix2 r z)) k = ix2 r k := fun k =>
    funext fun a => by match a with | ⟨0, _⟩ => rfl | ⟨1, _⟩ => rfl
  simp only [e1, val_main_call0_v0_apply, projQ, Ideal.ofBits_def, Ideal.ofBits_zero_f32, zero_add,
    Ideal.hostUnary_sqrt_def, Ideal.maximumf_def, Ideal.mulf_def]
  rfl

/-- The normalized query of a row. -/
theorem normQ : val_main_v8 (F := Ideal) x0 W b (ix2 r j)
    = Spec.normalize (Spec.proj (cur2 x0 r) (cur2 W) (cur1 b)) j := by
  rw [val_main_v8_apply, val_main_v7_apply,
    show idx_main_v7 (ix2 r j) = ix2 r (0 : Fin 1) from
      funext fun a => by match a with | ⟨0, _⟩ => rfl | ⟨1, _⟩ => rfl,
    nrmQ, projQ]
  rfl

/-- The clamped norm of the key projection of a row. -/
theorem nrmK : val_main_v31 (F := Ideal) x0 W b (ix2 r z) = Spec.nrm (Spec.proj (cur2 x0 r) (cur2 W) (cur1 b)) := by
  rw [val_main_v31_apply, val_main_v29_apply, val_main_call2_v2_apply, val_main_call2_v1_apply, val_main_call2_cst_apply,
    val_main_v30_apply, val_main_cst_3_apply]
  have e1 : ∀ k : Fin 128, idx_main_call2_v1 (idx_main_call2_v2 (ix2 r z)) k = ix2 r k := fun k =>
    funext fun a => by match a with | ⟨0, _⟩ => rfl | ⟨1, _⟩ => rfl
  simp only [e1, val_main_call2_v0_apply, projK, Ideal.ofBits_def, Ideal.ofBits_zero_f32, zero_add,
    Ideal.hostUnary_sqrt_def, Ideal.maximumf_def, Ideal.mulf_def]
  rfl

/-- The normalized key of a row. -/
theorem keyAt : val_main_v33 (F := Ideal) x0 W b (ix2 r j) = Spec.key (cur2 x0 r) (cur2 W) (cur1 b) j := by
  rw [val_main_v33_apply, val_main_v32_apply,
    show idx_main_v32 (ix2 r j) = ix2 r (0 : Fin 1) from
      funext fun a => by match a with | ⟨0, _⟩ => rfl | ⟨1, _⟩ => rfl,
    nrmK, projK]
  rfl

end Norms

/-! ## Retrieval, error, precision and free energy of a row -/

section Row

variable (x0 : (⟨S32768x2048, .f32⟩ : BufTy).Contents (Elt Ideal))
  (x1 : (⟨S32768x128, .f32⟩ : BufTy).Contents (Elt Ideal))
  (W : (⟨S2048x128, .f32⟩ : BufTy).Contents (Elt Ideal)) (b : (⟨S128, .f32⟩ : BufTy).Contents (Elt Ideal))
  (Wp : (⟨S2048x128, .f32⟩ : BufTy).Contents (Elt Ideal)) (bp : (⟨S128, .f32⟩ : BufTy).Contents (Elt Ideal))
  (S : (⟨S128x128, .f32⟩ : BufTy).Contents (Elt Ideal))
  (r : Fin 32768) (j : Fin 128)

/-- The normalized query of a row times the memory matrix. -/
theorem mixQ : val_main_v9 (F := Ideal) x0 W b S (ix2 r j)
    = Spec.mix (Spec.normalize (Spec.proj (cur2 x0 r) (cur2 W) (cur1 b))) (cur2 S) j := by
  rw [val_main_v9_apply]
  have e1 : ∀ k : Fin 128, lidx_main_v9 (ix2 r j) k = ix2 r k := fun k =>
    funext fun a => by match a with | ⟨0, _⟩ => rfl | ⟨1, _⟩ => rfl
  have e2 : ∀ k : Fin 128, ridx_main_v9 (ix2 r j) k = ix2 k j := fun k =>
    funext fun a => by match a with | ⟨0, _⟩ => rfl | ⟨1, _⟩ => rfl
  simp only [e1, e2, normQ]
  rfl

/-- The retrieval error of a row. -/
theorem errAt : val_main_v17 (F := Ideal) x0 x1 W b S (ix2 r j)
    = Spec.err (cur2 x0 r) (cur2 x1 r) (cur2 W) (cur1 b) (cur2 S) j := by
  rw [val_main_v17_apply, mixQ]
  rfl

/-- The precision of a row: the guarded softplus of the logit, plus 0.01. -/
theorem precAt : val_main_v16 (F := Ideal) x0 Wp bp (ix2 r j) = Spec.prec (cur2 x0 r) (cur2 Wp) (cur1 bp) j := by
  rw [val_main_v16_apply, val_main_v14_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply,
    val_main_v15_apply, val_main_cst_0_apply, projP]
  simp only [Ideal.ofBits_def, Ideal.ofBits_zero_f32, Ideal.cmpf_def, Ideal.addf_def, Ideal.subf_def, Ideal.maximumf_def,
    Ideal.hostUnary_log1p_def, Ideal.hostUnary_exp_def, Ideal.hostNegf_def, Ideal.negf_def, Ideal.hostAbsf_def,
    Ideal.absf_def, select_une, Spec.softplus_guarded]
  rfl

/-- One term of the free energy of a row. -/
theorem freeTerm : val_main_v21 (F := Ideal) x0 x1 W b Wp bp S (ix2 r j)
    = Spec.prec (cur2 x0 r) (cur2 Wp) (cur1 bp) j
        * (Spec.err (cur2 x0 r) (cur2 x1 r) (cur2 W) (cur1 b) (cur2 S) j
            * Spec.err (cur2 x0 r) (cur2 x1 r) (cur2 W) (cur1 b) (cur2 S) j)
      - Ideal.log (Spec.prec (cur2 x0 r) (cur2 Wp) (cur1 bp) j) := by
  rw [val_main_v21_apply, val_main_v19_apply, val_main_v20_apply, val_main_v18_apply, precAt, errAt]
  rfl

/-- The free energy of a row. -/
theorem freeAt : val_main_v24 (F := Ideal) x0 x1 W b Wp bp S (ix1 r)
    = Spec.free (cur2 x0 r) (cur2 x1 r) (cur2 W) (cur1 b) (cur2 Wp) (cur1 bp) (cur2 S) := by
  rw [val_main_v24_apply, val_main_v22_apply, val_main_cst_1_apply, val_main_v23_apply, val_main_cst_2_apply]
  have e1 : ∀ k : Fin 128, idx_main_v22 (ix1 r) k = ix2 r k := fun k =>
    funext fun a => by match a with | ⟨0, _⟩ => rfl | ⟨1, _⟩ => rfl
  simp only [e1, freeTerm, Ideal.ofBits_def, Ideal.ofBits_zero_f32, zero_add]
  rfl

end Row

/-! ## The two gates of a row and its clipped prediction error -/

section Gates

variable (x0 : (⟨S32768x2048, .f32⟩ : BufTy).Contents (Elt Ideal))
  (w : (⟨S2048x1, .f32⟩ : BufTy).Contents (Elt Ideal)) (b1 : (⟨S1, .f32⟩ : BufTy).Contents (Elt Ideal))
  (r : Fin 32768)

/-- The scalar projection under the gate beta. -/
theorem proj1B : val_main_v41 (F := Ideal) x0 w b1 (ix2 r (0 : Fin 1)) = Spec.proj1 (cur2 x0 r) (col w) (sc b1) := by
  rw [val_main_v41_apply, val_main_v38_apply, val_main_v40_apply, val_main_v39_apply]
  have e1 : ∀ k : Fin 2048, lidx_main_v38 (ix2 r (0 : Fin 1)) k = ix2 r k := fun k =>
    funext fun a => by match a with | ⟨0, _⟩ => rfl | ⟨1, _⟩ => rfl
  have e2 : ∀ k : Fin 2048, ridx_main_v38 (ix2 r (0 : Fin 1)) k = ix2 k (0 : Fin 1) := fun k =>
    funext fun a => by match a with | ⟨0, _⟩ => rfl | ⟨1, _⟩ => rfl
  have e3 : idx_main_v39 (idx_main_v40 (ix2 r (0 : Fin 1))) = ix1 (0 : Fin 1) :=
    funext fun a => by match a with | ⟨0, _⟩ => rfl
  simp only [e1, e2, e3]
  rfl

/-- The gate beta of a row: one over one plus the exponential of minus the projection. -/
theorem betaAt : val_main_v47 (F := Ideal) x0 w b1 (ix2 r (0 : Fin 1)) = Spec.beta (cur2 x0 r) (col w) (sc b1) := by
  rw [val_main_v47_apply, val_main_v46_apply, val_main_cst_5_apply, val_main_v45_apply, val_main_v44_apply,
    val_main_cst_4_apply, val_main_v43_apply, val_main_v42_apply, proj1B]
  simp only [Ideal.ofBits_def, Ideal.ofBits_one_f32, Ideal.hostDivf_def, Ideal.addf_def, Ideal.hostUnary_exp_def,
    Ideal.hostNegf_def, Ideal.negf_def]
  rfl

/-- The scalar projection under the time constant tau. -/
theorem proj1T : val_main_v51 (F := Ideal) x0 w b1 (ix2 r (0 : Fin 1)) = Spec.proj1 (cur2 x0 r) (col w) (sc b1) := by
  rw [val_main_v51_apply, val_main_v48_apply, val_main_v50_apply, val_main_v49_apply]
  have e1 : ∀ k : Fin 2048, lidx_main_v48 (ix2 r (0 : Fin 1)) k = ix2 r k := fun k =>
    funext fun a => by match a with | ⟨0, _⟩ => rfl | ⟨1, _⟩ => rfl
  have e2 : ∀ k : Fin 2048, ridx_main_v48 (ix2 r (0 : Fin 1)) k = ix2 k (0 : Fin 1) := fun k =>
    funext fun a => by match a with | ⟨0, _⟩ => rfl | ⟨1, _⟩ => rfl
  have e3 : idx_main_v49 (idx_main_v50 (ix2 r (0 : Fin 1))) = ix1 (0 : Fin 1) :=
    funext fun a => by match a with | ⟨0, _⟩ => rfl
  simp only [e1, e2, e3]
  rfl

/-- The time constant tau of a row. -/
theorem tauAt : val_main_v61 (F := Ideal) x0 w b1 (ix2 r (0 : Fin 1)) = Spec.tau (cur2 x0 r) (col w) (sc b1) := by
  rw [val_main_v61_apply, val_main_v60_apply, val_main_cst_9_apply, val_main_v59_apply, val_main_v58_apply,
    val_main_cst_8_apply, val_main_v57_apply, val_main_v56_apply, val_main_cst_7_apply, val_main_v55_apply,
    val_main_v54_apply, val_main_cst_6_apply, val_main_v53_apply, val_main_v52_apply, proj1T]
  unfold Spec.tau Spec.c1 Spec.c19 Ideal.logistic
  simp only [Ideal.ofBits_def, Ideal.ofBits_one_f32, Ideal.hostDivf_def, Ideal.addf_def, Ideal.mulf_def,
    Ideal.hostUnary_exp_def, Ideal.hostNegf_def, Ideal.negf_def]

end Gates

section Clipped

variable (x0 : (⟨S32768x2048, .f32⟩ : BufTy).Contents (Elt Ideal))
  (Wk : (⟨S2048x128, .f32⟩ : BufTy).Contents (Elt Ideal)) (bk : (⟨S128, .f32⟩ : BufTy).Contents (Elt Ideal))
  (Wv : (⟨S2048x128, .f32⟩ : BufTy).Contents (Elt Ideal)) (bv : (⟨S128, .f32⟩ : BufTy).Contents (Elt Ideal))
  (S : (⟨S128x128, .f32⟩ : BufTy).Contents (Elt Ideal))
  (r : Fin 32768) (j : Fin 128)

/-- The normalized key of a row times the memory matrix. -/
theorem mixK : val_main_v62 (F := Ideal) x0 Wk bk S (ix2 r j)
    = Spec.mix (Spec.key (cur2 x0 r) (cur2 Wk) (cur1 bk)) (cur2 S) j := by
  rw [val_main_v62_apply]
  have e1 : ∀ k : Fin 128, lidx_main_v62 (ix2 r j) k = ix2 r k := fun k =>
    funext fun a => by match a with | ⟨0, _⟩ => rfl | ⟨1, _⟩ => rfl
  have e2 : ∀ k : Fin 128, ridx_main_v62 (ix2 r j) k = ix2 k j := fun k =>
    funext fun a => by match a with | ⟨0, _⟩ => rfl | ⟨1, _⟩ => rfl
  simp only [e1, e2, keyAt]
  rfl

/-- The clipped prediction error of a row. -/
theorem erruAt : val_main_v68 (F := Ideal) x0 Wk bk Wv bv S (ix2 r j)
    = Spec.erru (cur2 x0 r) (cur2 Wk) (cur1 bk) (cur2 Wv) (cur1 bv) (cur2 S) j := by
  rw [val_main_v68_apply, val_main_v67_apply, val_main_cst_11_apply, val_main_v66_apply, val_main_v65_apply,
    val_main_v64_apply, val_main_cst_10_apply, val_main_v63_apply, mixK, projV]
  rfl

end Clipped

/-! ## The five column means over the 32768 rows

A float sum over the rows is its zero initial value plus the sum of the column; the sums themselves
are never opened. -/

section Means

variable (x0 : (⟨S32768x2048, .f32⟩ : BufTy).Contents (Elt Ideal))
  (x2 : (⟨S2048x128, .f32⟩ : BufTy).Contents (Elt Ideal)) (x3 : (⟨S128, .f32⟩ : BufTy).Contents (Elt Ideal))
  (x4 : (⟨S2048x128, .f32⟩ : BufTy).Contents (Elt Ideal)) (x5 : (⟨S128, .f32⟩ : BufTy).Contents (Elt Ideal))
  (x8 : (⟨S2048x1, .f32⟩ : BufTy).Contents (Elt Ideal)) (x9 : (⟨S1, .f32⟩ : BufTy).Contents (Elt Ideal))
  (x10 : (⟨S2048x128, .f32⟩ : BufTy).Contents (Elt Ideal)) (x11 : (⟨S128, .f32⟩ : BufTy).Contents (Elt Ideal))
  (x12 : (⟨S2048x1, .f32⟩ : BufTy).Contents (Elt Ideal)) (x13 : (⟨S1, .f32⟩ : BufTy).Contents (Elt Ideal))
  (x14 : (⟨S128x128, .f32⟩ : BufTy).Contents (Elt Ideal))
  (j : Fin 128) (i0 : S_.Idx)

/-- The mean of the normalized keys. -/
theorem kMeanAt : val_main_v71 (F := Ideal) x0 x2 x3 (ix1 j) = Spec.kMean (cur2 x0) (cur2 x2) (cur1 x3) j := by
  rw [val_main_v71_apply, val_main_v69_apply, val_main_cst_12_apply, val_main_v70_apply, val_main_cst_13_apply]
  have e1 : ∀ k : Fin 32768, idx_main_v69 (ix1 j) k = ix2 k j := fun k =>
    funext fun a => by match a with | ⟨0, _⟩ => rfl | ⟨1, _⟩ => rfl
  simp only [e1, keyAt, Ideal.ofBits_def, Ideal.ofBits_zero_f32, zero_add]
  rfl

/-- The mean of the clipped prediction errors. -/
theorem errMeanAt : val_main_v74 (F := Ideal) x0 x2 x3 x4 x5 x14 (ix1 j)
    = Spec.errMean (cur2 x0) (cur2 x2) (cur1 x3) (cur2 x4) (cur1 x5) (cur2 x14) j := by
  rw [val_main_v74_apply, val_main_v72_apply, val_main_cst_14_apply, val_main_v73_apply, val_main_cst_15_apply]
  have e1 : ∀ k : Fin 32768, idx_main_v72 (ix1 j) k = ix2 k j := fun k =>
    funext fun a => by match a with | ⟨0, _⟩ => rfl | ⟨1, _⟩ => rfl
  simp only [e1, erruAt, Ideal.ofBits_def, Ideal.ofBits_zero_f32, zero_add]
  rfl

/-- The mean of the precisions. -/
theorem precMeanAt : val_main_v77 (F := Ideal) x0 x10 x11 (ix1 j) = Spec.precMean (cur2 x0) (cur2 x10) (cur1 x11) j := by
  rw [val_main_v77_apply, val_main_v75_apply, val_main_cst_16_apply, val_main_v76_apply, val_main_cst_17_apply]
  have e1 : ∀ k : Fin 32768, idx_main_v75 (ix1 j) k = ix2 k j := fun k =>
    funext fun a => by match a with | ⟨0, _⟩ => rfl | ⟨1, _⟩ => rfl
  simp only [e1, precAt, Ideal.ofBits_def, Ideal.ofBits_zero_f32, zero_add]
  rfl

/-- The mean of the gates beta: a sum over a matrix with one column is the sum over its rows. -/
theorem betaMeanAt : val_main_v79 (F := Ideal) x0 x8 x9 i0 = Spec.betaMean (cur2 x0) (col x8) (sc x9) := by
  rw [val_main_v79_apply, val_main_v78_apply, val_main_cst_18_apply, val_main_cst_19_apply, sum_idx2]
  simp only [Fin.sum_univ_one, betaAt, Ideal.ofBits_def, Ideal.ofBits_zero_f32, zero_add]
  rfl

/-- The mean of the time constants tau. -/
theorem tauMeanAt : val_main_v81 (F := Ideal) x0 x12 x13 i0 = Spec.tauMean (cur2 x0) (col x12) (sc x13) := by
  rw [val_main_v81_apply, val_main_v80_apply, val_main_cst_20_apply, val_main_cst_21_apply, sum_idx2]
  simp only [Fin.sum_univ_one, tauAt, Ideal.ofBits_def, Ideal.ofBits_zero_f32, zero_add]
  rfl

end Means

/-! ## The five results -/

section Results

variable (x0 : (⟨S32768x2048, .f32⟩ : BufTy).Contents (Elt Ideal))
  (x1 : (⟨S32768x128, .f32⟩ : BufTy).Contents (Elt Ideal))
  (x2 : (⟨S2048x128, .f32⟩ : BufTy).Contents (Elt Ideal)) (x3 : (⟨S128, .f32⟩ : BufTy).Contents (Elt Ideal))
  (x4 : (⟨S2048x128, .f32⟩ : BufTy).Contents (Elt Ideal)) (x5 : (⟨S128, .f32⟩ : BufTy).Contents (Elt Ideal))
  (x6 : (⟨S2048x128, .f32⟩ : BufTy).Contents (Elt Ideal)) (x7 : (⟨S128, .f32⟩ : BufTy).Contents (Elt Ideal))
  (x8 : (⟨S2048x1, .f32⟩ : BufTy).Contents (Elt Ideal)) (x9 : (⟨S1, .f32⟩ : BufTy).Contents (Elt Ideal))
  (x10 : (⟨S2048x128, .f32⟩ : BufTy).Contents (Elt Ideal)) (x11 : (⟨S128, .f32⟩ : BufTy).Contents (Elt Ideal))
  (x12 : (⟨S2048x1, .f32⟩ : BufTy).Contents (Elt Ideal)) (x13 : (⟨S1, .f32⟩ : BufTy).Contents (Elt Ideal))
  (x14 x15 : (⟨S128x128, .f32⟩ : BufTy).Contents (Elt Ideal))

/-- The first result at a row: the free energy of that row. -/
theorem resF_at (r : Fin 32768) : val_main_v24 (F := Ideal) x0 x1 x6 x7 x10 x11 x14 (ix1 r)
    = Spec.resF (cur2 x0) (cur2 x1) (cur2 x6) (cur1 x7) (cur2 x10) (cur1 x11) (cur2 x14) r :=
  freeAt x0 x1 x6 x7 x10 x11 x14 r

/-- The second result at a row and a feature: the precision. -/
theorem resPrec_at (r : Fin 32768) (j : Fin 128) : val_main_v16 (F := Ideal) x0 x10 x11 (ix2 r j)
    = Spec.resPrec (cur2 x0) (cur2 x10) (cur1 x11) r j :=
  precAt x0 x10 x11 r j

/-- The third result at a row and a feature: the retrieval error. -/
theorem resErr_at (r : Fin 32768) (j : Fin 128) : val_main_v17 (F := Ideal) x0 x1 x6 x7 x14 (ix2 r j)
    = Spec.resErr (cur2 x0) (cur2 x1) (cur2 x6) (cur1 x7) (cur2 x14) r j :=
  errAt x0 x1 x6 x7 x14 r j

/-- The new momentum at an entry. -/
theorem resMom_at (i j : Fin 128) : val_main_v102 (F := Ideal) x0 x2 x3 x4 x5 x8 x9 x10 x11 x14 x15 (ix2 i j)
    = Spec.resMom (cur2 x0) (cur2 x2) (cur1 x3) (cur2 x4) (cur1 x5) (col x8) (sc x9) (cur2 x10) (cur1 x11)
        (cur2 x14) (cur2 x15) i j := by
  have e1 : idx_main_v93 (idx_main_v95 (ix2 i j)) = ix1 i := funext fun a => by match a with | ⟨0, _⟩ => rfl
  have e2 : idx_main_v94 (idx_main_v96 (ix2 i j)) = ix1 j := funext fun a => by match a with | ⟨0, _⟩ => rfl
  rw [val_main_v102_apply, val_main_v99_apply, val_main_v98_apply, val_main_cst_28_apply, val_main_v101_apply,
    val_main_v100_apply, val_main_cst_29_apply, val_main_v97_apply, val_main_v95_apply, val_main_v93_apply, e1,
    val_main_v96_apply, val_main_v94_apply, e2, val_main_v92_apply, val_main_v91_apply, val_main_v90_apply,
    kMeanAt, errMeanAt, precMeanAt, betaMeanAt]
  rfl

/-- The new memory at an entry. -/
theorem resMem_at (i j : Fin 128) :
    val_main_v107 (F := Ideal) x0 x2 x3 x4 x5 x8 x9 x10 x11 x12 x13 x14 x15 (ix2 i j)
    = Spec.resMem (cur2 x0) (cur2 x2) (cur1 x3) (cur2 x4) (cur1 x5) (col x8) (sc x9) (cur2 x10) (cur1 x11)
        (col x12) (sc x13) (cur2 x14) (cur2 x15) i j := by
  rw [val_main_v107_apply, val_main_v104_apply, val_main_v103_apply, val_main_v89_apply, val_main_cst_27_apply,
    val_main_v88_apply, val_main_v87_apply, val_main_cst_26_apply, val_main_v86_apply, val_main_v85_apply,
    val_main_cst_24_apply, val_main_v84_apply, val_main_cst_23_apply, val_main_v83_apply, val_main_v82_apply,
    val_main_cst_22_apply, val_main_cst_25_apply, val_main_v106_apply, val_main_v105_apply, val_main_cst_30_apply,
    resMom_at, tauMeanAt]
  rfl

/-! ### The results as whole arrays -/

/-- The first result, every row at once. -/
theorem resF_eq : val_main_v24 (F := Ideal) x0 x1 x6 x7 x10 x11 x14
    = fun idx => Spec.resF (cur2 x0) (cur2 x1) (cur2 x6) (cur1 x7) (cur2 x10) (cur1 x11) (cur2 x14) (idx 0) := by
  funext idx
  obtain ⟨r, rfl⟩ : ∃ r : Fin 32768, idx = ix1 r := ⟨idx 0, eq_ix1 idx⟩
  exact resF_at x0 x1 x6 x7 x10 x11 x14 r

/-- The second result, every entry at once. -/
theorem resPrec_eq : val_main_v16 (F := Ideal) x0 x10 x11
    = fun idx => Spec.resPrec (cur2 x0) (cur2 x10) (cur1 x11) (idx 0) (idx 1) := by
  funext idx
  obtain ⟨r, j, rfl⟩ : ∃ (r : Fin 32768) (j : Fin 128), idx = ix2 r j := ⟨idx 0, idx 1, eq_ix2 idx⟩
  exact resPrec_at x0 x10 x11 r j

/-- The third result, every entry at once. -/
theorem resErr_eq : val_main_v17 (F := Ideal) x0 x1 x6 x7 x14
    = fun idx => Spec.resErr (cur2 x0) (cur2 x1) (cur2 x6) (cur1 x7) (cur2 x14) (idx 0) (idx 1) := by
  funext idx
  obtain ⟨r, j, rfl⟩ : ∃ (r : Fin 32768) (j : Fin 128), idx = ix2 r j := ⟨idx 0, idx 1, eq_ix2 idx⟩
  exact resErr_at x0 x1 x6 x7 x14 r j

/-- The new momentum, every entry at once. -/
theorem resMom_eq : val_main_v102 (F := Ideal) x0 x2 x3 x4 x5 x8 x9 x10 x11 x14 x15
    = fun idx => Spec.resMom (cur2 x0) (cur2 x2) (cur1 x3) (cur2 x4) (cur1 x5) (col x8) (sc x9) (cur2 x10) (cur1 x11)
        (cur2 x14) (cur2 x15) (idx 0) (idx 1) := by
  funext idx
  obtain ⟨i, j, rfl⟩ : ∃ (i j : Fin 128), idx = ix2 i j := ⟨idx 0, idx 1, eq_ix2 idx⟩
  exact resMom_at x0 x2 x3 x4 x5 x8 x9 x10 x11 x14 x15 i j

/-- The new memory, every entry at once. -/
theorem resMem_eq : val_main_v107 (F := Ideal) x0 x2 x3 x4 x5 x8 x9 x10 x11 x12 x13 x14 x15
    = fun idx => Spec.resMem (cur2 x0) (cur2 x2) (cur1 x3) (cur2 x4) (cur1 x5) (col x8) (sc x9) (cur2 x10) (cur1 x11)
        (col x12) (sc x13) (cur2 x14) (cur2 x15) (idx 0) (idx 1) := by
  funext idx
  obtain ⟨i, j, rfl⟩ : ∃ (i j : Fin 128), idx = ix2 i j := ⟨idx 0, idx 1, eq_ix2 idx⟩
  exact resMem_at x0 x2 x3 x4 x5 x8 x9 x10 x11 x12 x13 x14 x15 i j

end Results

end Cert.RefIsSpec

end
-- ==== Proof.RefSideI.lean ====
/-
  The reference half of the equivalence.

  From a memory that agrees with the kernel program's on the sixteen arguments, the reference runs to
  its end and leaves in its five results the specification's functions of the KERNEL program's
  arguments: the free energy of each row, the precision, the retrieval error, the new memory and the
  new momentum; its own arguments are unchanged.
-/
import proofs.«154947_j29875792511782_2_alg».proof.Defs
import proofs.«154947_j29875792511782_2_alg».proof.Proof.Gen.ReferenceIdeal
import proofs.«154947_j29875792511782_2_alg».proof.Proof.Gen.Pre_finite_inputs
import proofs.«154947_j29875792511782_2_alg».proof.Proof.Gen.KernelIdeal
import proofs.«154947_j29875792511782_2_alg».proof.Proof.Gen.ReferenceIdeal.Read
import proofs.«154947_j29875792511782_2_alg».proof.Proof.RefIsSpec
import proofs.«154947_j29875792511782_2_alg».proof.Proof.ResultsI

noncomputable section

namespace Cert.RefSide

open Idealize.ShloMosaic Idealize.SL.Sem

set_option maxRecDepth 8192 in
/-- The reference, run from a memory agreeing with the kernel program's on the arguments, ends with the
    specification's five results of those arguments and with its own arguments unchanged. -/
theorem refSide [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = Cert.KernelIdeal.ValueH.rF m c
          ∧ r.2.mem ((c.tc : Thread Cert.ReferenceIdeal.nD Cert.ReferenceIdeal.τ).loc Cert.ReferenceIdeal.main_v16) = Cert.KernelIdeal.ValueH.G10 m c
          ∧ r.2.mem ((c.tc : Thread Cert.ReferenceIdeal.nD Cert.ReferenceIdeal.τ).loc Cert.ReferenceIdeal.main_v17) = Cert.KernelIdeal.ValueH.G11 m c
          ∧ r.2.mem ((c.tc : Thread Cert.ReferenceIdeal.nD Cert.ReferenceIdeal.τ).loc Cert.ReferenceIdeal.main_v107) = Cert.KernelIdeal.ValueH.rMem m c
          ∧ r.2.mem ((c.tc : Thread Cert.ReferenceIdeal.nD Cert.ReferenceIdeal.τ).loc Cert.ReferenceIdeal.main_v102) = Cert.KernelIdeal.ValueH.rMom m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run (Cert.ReferenceIdeal.defs (F := Ideal)) _ _).mono (fun r h c => by
    obtain ⟨e0, e1, e2, e3, e4, hargs⟩ := h c
    obtain ⟨a0, a1, a2, a3, a4, a5, a6, a7, a8, a9, a10, a11, a12, a13, a14, a15⟩ := hagree c
    refine ⟨?_, ?_, ?_, ?_, ?_, hargs⟩
    · rw [e0, Cert.ReferenceIdeal.Read.val_main_v24_eq, Cert.RefIsSpec.resF_eq, a0, a1, a6, a7, a10, a11, a14]
      rfl
    · refine (e1.trans (Cert.ReferenceIdeal.Read.val_main_v16_eq _ _ _)).trans ?_
      rw [Cert.RefIsSpec.resPrec_eq, a0, a10, a11]
      rfl
    · refine (e2.trans (Cert.ReferenceIdeal.Read.val_main_v17_eq _ _ _ _ _)).trans ?_
      rw [Cert.RefIsSpec.resErr_eq, a0, a1, a6, a7, a14]
      rfl
    · rw [e3, Cert.ReferenceIdeal.Read.val_main_v107_eq, Cert.RefIsSpec.resMem_eq, a0, a2, a3, a4, a5, a8, a9, a10, a11, a12,
        a13, a14, a15]
      rfl
    · rw [e4, Cert.ReferenceIdeal.Read.val_main_v102_eq, Cert.RefIsSpec.resMom_eq, a0, a2, a3, a4, a5, a8, a9, a10, a11, a14,
        a15]
      rfl)
    (Cert.ReferenceIdeal.Value.run (F := Ideal) m' g')

end Cert.RefSide

end
-- ==== Proof.lean ====
/-
  The certificate of a delta-rule memory head: a two-core, tile-pipelined kernel against its whole-batch reference.

  Both programs compute, for each of 32768 batch rows, four affine projections of the row (keys, values, queries and
  precision logits), normalize keys and queries by their clamped Euclidean norm, retrieve through the memory matrix,
  and return the row's precision, retrieval error and free energy; both then average the keys, the clipped prediction
  errors, the precisions and the two gates over the batch and update the momentum and the memory with the same
  arithmetic.  The kernel fuses the four projections into one product with the weight matrices laid side by side (a
  column slice of a product is the product with the column slice), and accumulates the batch sums tile by tile into
  per-core partial sums that its epilogue adds (a finite sum regrouped into cores, tiles and rows).  On the extended
  reals both regroupings are exact, and the two spellings of precision * error * error agree by associativity; no
  step needs the inputs finite.

  The three frames: each kernel program's run is assembled from the body run once per control case (first tile of a
  core: the accumulators are zeroed; any other tile: they are carried), the point-by-point contents of the buffers,
  and the launch of the region between the host operations; the reference's frame is its run with the results dropped.
-/
import proofs.«154947_j29875792511782_2_alg».proof.Defs
import proofs.«154947_j29875792511782_2_alg».proof.Proof.Gen.Kernel
import proofs.«154947_j29875792511782_2_alg».proof.Proof.Gen.Kernel.Skeleton
import proofs.«154947_j29875792511782_2_alg».proof.Proof.Gen.Kernel.Launch
import proofs.«154947_j29875792511782_2_alg».proof.Proof.Gen.Kernel.Points
import proofs.«154947_j29875792511782_2_alg».proof.Proof.Gen.KernelIdeal
import proofs.«154947_j29875792511782_2_alg».proof.Proof.Gen.KernelIdeal.Skeleton
import proofs.«154947_j29875792511782_2_alg».proof.Proof.Gen.KernelIdeal.Launch
import proofs.«154947_j29875792511782_2_alg».proof.Proof.Gen.KernelIdeal.Points
import proofs.«154947_j29875792511782_2_alg».proof.Proof.Gen.ReferenceIdeal
import proofs.«154947_j29875792511782_2_alg».proof.Proof.Gen.Pre_finite_inputs
import proofs.«154947_j29875792511782_2_alg».proof.Proof.Gen.ReferenceIdeal.Run
import proofs.«154947_j29875792511782_2_alg».proof.Proof.Gen.ReferenceIdeal.Read
import proofs.«154947_j29875792511782_2_alg».proof.Proof.FrameK
import proofs.«154947_j29875792511782_2_alg».proof.Proof.RunI
import proofs.«154947_j29875792511782_2_alg».proof.Proof.RefIsSpec
import proofs.«154947_j29875792511782_2_alg».proof.Proof.RefSideI
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote no operation: nothing to preserve. -/
theorem preserves : Cert.preserves_Kernel_KernelIdeal := trivial

open Cert.KernelIdeal.ValueH in
/-- From memories agreeing on the sixteen arguments both idealized programs end with the specification's five results:
    the kernel by its run, the reference by its run read one operation at a time. -/
theorem algebraic : Cert.algebraic_KernelIdeal_ReferenceIdeal := fun m ρ m' ρ' _ hagree =>
  ⟨fun c => rF m c, fun c => G10 m c, fun c => G11 m c, fun c => rMem m c, fun c => rMom m c,
    Cert.KernelIdeal.ValueH.run m ρ, Cert.RefSide.refSide m m' ρ' hagree⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
